-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S200000x2 : Shape := ⟨2, ![200000, 2]⟩
abbrev S512x128 : Shape := ⟨2, ![512, 128]⟩
abbrev S128 : Shape := ⟨1, ![128]⟩
abbrev S_ : Shape := ⟨0, ![]⟩
abbrev S128x256 : Shape := ⟨2, ![128, 256]⟩
abbrev S256 : Shape := ⟨1, ![256]⟩
abbrev S256x128 : Shape := ⟨2, ![256, 128]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S128 .f32) (main_arg10 : FVec F S128 .f32) (main_v32 : IVec S_ 1) (main_v33 : FVec F S256x128 .f32) : IVec S_ 1 :=
  let main_cst_12 : FVec F S_ .f32 := constant S_ .f32 0x7F800000#32
  let main_v34 : FVec F S256x128 .f32 := broadcastInDim S256x128 ![] bcast_S_S256x128 main_cst_12
  let main_v35 : IVec S256x128 1 := cmpf .olt main_v33 main_v34
  let main_c_13 : IVec S_ 1 := constantI S_ 1 1#1
  let main_v36 : IVec S_ 1 := (fun x v => Host.reduce IntOp.andi x v reducesTo_S256x128_S_d0_1 h_S_) main_v35 main_c_13
  let main_v37 : IVec S_ 1 := andi main_v32 main_v36
  let main_v38 : FVec F S128 .f32 := Host.absf main_arg9
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg10
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  main_v47

def fn_part1 {F : FTy → Type} [FloatOps F] (main_arg5 : FVec F S128x256 .f32) (main_arg6 : FVec F S256 .f32) (main_arg7 : FVec F S256 .f32) (main_arg8 : FVec F S256x128 .f32) (main_arg9 : FVec F S128 .f32) (main_arg10 : FVec F S128 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S128x256 .f32 := Host.absf main_arg5
  let main_cst_6 : FVec F S_ .f32 := constant S_ .f32 0x7F800000#32
  let main_v19 : FVec F S128x256 .f32 := broadcastInDim S128x256 ![] bcast_S_S128x256 main_cst_6
  let main_v20 : IVec S128x256 1 := cmpf .olt main_v18 main_v19
  let main_c_7 : IVec S_ 1 := constantI S_ 1 1#1
  let main_v21 : IVec S_ 1 := (fun x v => Host.reduce IntOp.andi x v reducesTo_S128x256_S_d0_1 h_S_) main_v20 main_c_7
  let main_v22 : IVec S_ 1 := andi main_v17 main_v21
  let main_v23 : FVec F S256 .f32 := Host.absf main_arg6
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256 .f32 := Host.absf main_arg7
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256x128 .f32 := Host.absf main_arg8
  fn_part2 (F := F) main_arg9 main_arg10 main_v32 main_v33

def fn {F : FTy → Type} [FloatOps F] (main_arg0 : FVec F S400000x128 .f32) (main_arg1 : IVec S200000x2 32) (main_arg2 : FVec F S512x128 .f32) (main_arg3 : FVec F S128 .f32) (main_arg4 : FVec F S_ .f32) (main_arg5 : FVec F S128x256 .f32) (main_arg6 : FVec F S256 .f32) (main_arg7 : FVec F S256 .f32) (main_arg8 : FVec F S256x128 .f32) (main_arg9 : FVec F S128 .f32) (main_arg10 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg5 main_arg6 main_arg7 main_arg8 main_arg9 main_arg10 main_v13 main_v15 main_c_5
-- ==== Kernel.lean ====
abbrev S400000x128 : Shape := ⟨2, ![400000, 128]⟩
abbrev S200000x2 : Shape := ⟨2, ![200000, 2]⟩
abbrev S512x128 : Shape := ⟨2, ![512, 128]⟩
abbrev S128 : Shape := ⟨1, ![128]⟩
abbrev S_ : Shape := ⟨0, ![]⟩
abbrev S128x256 : Shape := ⟨2, ![128, 256]⟩
abbrev S256 : Shape := ⟨1, ![256]⟩
abbrev S256x128 : Shape := ⟨2, ![256, 128]⟩
abbrev S400000 : Shape := ⟨1, ![400000]⟩
abbrev S50000x128 : Shape := ⟨2, ![50000, 128]⟩
abbrev S400000x1 : Shape := ⟨2, ![400000, 1]⟩
abbrev S200000x2x128 : Shape := ⟨3, ![200000, 2, 128]⟩
abbrev S400000x256 : Shape := ⟨2, ![400000, 256]⟩
abbrev S50000x256 : Shape := ⟨2, ![50000, 256]⟩
abbrev S200000x2x256 : Shape := ⟨3, ![200000, 2, 256]⟩
abbrev S1x128 : Shape := ⟨2, ![1, 128]⟩
abbrev S1x1 : Shape := ⟨2, ![1, 1]⟩
abbrev S1000x256 : Shape := ⟨2, ![1000, 256]⟩
abbrev S3200x256 : Shape := ⟨2, ![3200, 256]⟩
abbrev S3200x128 : Shape := ⟨2, ![3200, 128]⟩
abbrev S8x256 : Shape := ⟨2, ![8, 256]⟩
abbrev S1x256 : Shape := ⟨2, ![1, 256]⟩
abbrev S1000x128 : Shape := ⟨2, ![1000, 128]⟩
abbrev S8x128 : Shape := ⟨2, ![8, 128]⟩

abbrev nBuf : Space → Nat
  | .hbm => 125
  | .vmem => 34
  | .smem => 0
  | _ => 0

abbrev bufTy : (tb : Table) → Fin (tcTables nBuf tb) → BufTy
  | .hbm, ⟨0, _⟩ => ⟨S400000x128, .f32⟩
  | .hbm, ⟨1, _⟩ => ⟨S200000x2, .i32⟩
  | .hbm, ⟨2, _⟩ => ⟨S512x128, .f32⟩
  | .hbm, ⟨3, _⟩ => ⟨S128, .f32⟩
  | .hbm, ⟨4, _⟩ => ⟨S_, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S400000, .i32⟩
  | .hbm, ⟨12, _⟩ => ⟨S_, .f32⟩
  | .hbm, ⟨13, _⟩ => ⟨S50000x128, .f32⟩
  | .hbm, ⟨14, _⟩ => ⟨S400000x1, .i32⟩
  | .hbm, ⟨15, _⟩ => ⟨S50000x128, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x128, .f32⟩
  | .hbm, ⟨25, _⟩ => ⟨S200000x2x128, .f32⟩
  | .hbm, ⟨26, _⟩ => ⟨S200000x2x128, .f32⟩
  | .hbm, ⟨27, _⟩ => ⟨S400000x128, .f32⟩
  | .hbm, ⟨28, _⟩ => ⟨S400000x128, .f32⟩
  | .hbm, ⟨29, _⟩ => ⟨S400000x256, .f32⟩
  | .hbm, ⟨30, _⟩ => ⟨S_, .f32⟩
  | .hbm, ⟨31, _⟩ => ⟨S50000x256, .f32⟩
  | .hbm, ⟨32, _⟩ => ⟨S400000x1, .i32⟩
  | .hbm, ⟨33, _⟩ => ⟨S50000x256, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x256, .f32⟩
  | .hbm, ⟨43, _⟩ => ⟨S200000x2x256, .f32⟩
  | .hbm, ⟨44, _⟩ => ⟨S200000x2x256, .f32⟩
  | .hbm, ⟨45, _⟩ => ⟨S400000x256, .f32⟩
  | .hbm, ⟨46, _⟩ => ⟨S400000x256, .bf16⟩
  | .hbm, ⟨47, _⟩ => ⟨S400000x256, .bf16⟩
  | .hbm, ⟨48, _⟩ => ⟨S256x128, .f32⟩
  | .hbm, ⟨49, _⟩ => ⟨S256x128, .f32⟩
  | .hbm, ⟨50, _⟩ => ⟨S256x128, .f32⟩
  | .hbm, ⟨51, _⟩ => ⟨S256x128, .bf16⟩
  | .hbm, ⟨52, _⟩ => ⟨S256x128, .bf16⟩
  | .hbm, ⟨53, _⟩ => ⟨S128x256, .bf16⟩
  | .hbm, ⟨54, _⟩ => ⟨S256x128, .bf16⟩
  | .hbm, ⟨55, _⟩ => ⟨S1x128, .f32⟩
  | .hbm, ⟨56, _⟩ => ⟨S_, .f32⟩
  | .hbm, ⟨57, _⟩ => ⟨S_, .f32⟩
  | .hbm, ⟨58, _⟩ => ⟨S1x1, .f32⟩
  | .hbm, ⟨59, _⟩ => ⟨S1x128, .f32⟩
  | .hbm, ⟨60, _⟩ => ⟨S400000x256, .f32⟩
  | .hbm, ⟨61, _⟩ => ⟨S1000x256, .f32⟩
  | .hbm, ⟨62, _⟩ => ⟨S1000x256, .f32⟩
  | .hbm, ⟨63, _⟩ => ⟨S_, .f32⟩
  | .hbm, ⟨64, _⟩ => ⟨S256, .f32⟩
  | .hbm, ⟨65, _⟩ => ⟨S1x256, .f32⟩
  | .hbm, ⟨66, _⟩ => ⟨S_, .f32⟩
  | .hbm, ⟨67, _⟩ => ⟨S1x256, .f32⟩
  | .hbm, ⟨68, _⟩ => ⟨S1x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S_, .f32⟩
  | .hbm, ⟨73, _⟩ => ⟨S1x256, .f32⟩
  | .hbm, ⟨74, _⟩ => ⟨S1x256, .f32⟩
  | .hbm, ⟨75, _⟩ => ⟨S_, .f32⟩
  | .hbm, ⟨76, _⟩ => ⟨S1x256, .f32⟩
  | .hbm, ⟨77, _⟩ => ⟨S1x256, .f32⟩
  | .hbm, ⟨78, _⟩ => ⟨S_, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S_, .f32⟩
  | .hbm, ⟨85, _⟩ => ⟨S1x256, .f32⟩
  | .hbm, ⟨86, _⟩ => ⟨S1x256, .f32⟩
  | .hbm, ⟨87, _⟩ => ⟨S1x256, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S1x256, .f32⟩
  | .hbm, ⟨92, _⟩ => ⟨S400000x128, .f32⟩
  | .hbm, ⟨93, _⟩ => ⟨S1000x128, .f32⟩
  | .hbm, ⟨94, _⟩ => ⟨S1000x128, .f32⟩
  | .hbm, ⟨95, _⟩ => ⟨S_, .f32⟩
  | .hbm, ⟨96, _⟩ => ⟨S128, .f32⟩
  | .hbm, ⟨97, _⟩ => ⟨S1x128, .f32⟩
  | .hbm, ⟨98, _⟩ => ⟨S_, .f32⟩
  | .hbm, ⟨99, _⟩ => ⟨S1x128, .f32⟩
  | .hbm, ⟨100, _⟩ => ⟨S1x128, .f32⟩
  | .hbm, ⟨101, _⟩ => ⟨S_, .f32⟩
  | .hbm, ⟨102, _⟩ => ⟨S128, .f32⟩
  | .hbm, ⟨103, _⟩ => ⟨S1x128, .f32⟩
  | .hbm, ⟨104, _⟩ => ⟨S_, .f32⟩
  | .hbm, ⟨105, _⟩ => ⟨S1x128, .f32⟩
  | .hbm, ⟨106, _⟩ => ⟨S1x128, .f32⟩
  | .hbm, ⟨107, _⟩ => ⟨S_, .f32⟩
  | .hbm, ⟨108, _⟩ => ⟨S1x128, .f32⟩
  | .hbm, ⟨109, _⟩ => ⟨S1x128, .f32⟩
  | .hbm, ⟨110, _⟩ => ⟨S_, .f32⟩
  | .hbm, ⟨111, _⟩ => ⟨S1x128, .f32⟩
  | .hbm, ⟨112, _⟩ => ⟨S1x128, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S_, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x128, .f32⟩
  | .hbm, ⟨123, _⟩ => ⟨S1x128, .f32⟩
  | .hbm, ⟨124, _⟩ => ⟨S400000x128, .f32⟩
  | .local _ .vmem, ⟨0, _⟩ => ⟨S3200x256, .bf16⟩
  | .local _ .vmem, ⟨1, _⟩ => ⟨S3200x256, .bf16⟩
  | .local _ .vmem, ⟨2, _⟩ => ⟨S3200x256, .bf16⟩
  | .local _ .vmem, ⟨3, _⟩ => ⟨S3200x256, .bf16⟩
  | .local _ .vmem, ⟨4, _⟩ => ⟨S3200x128, .f32⟩
  | .local _ .vmem, ⟨5, _⟩ => ⟨S3200x128, .f32⟩
  | .local _ .vmem, ⟨6, _⟩ => ⟨S256x128, .bf16⟩
  | .local _ .vmem, ⟨7, _⟩ => ⟨S256x128, .bf16⟩
  | .local _ .vmem, ⟨8, _⟩ => ⟨S1x128, .f32⟩
  | .local _ .vmem, ⟨9, _⟩ => ⟨S1x128, .f32⟩
  | .local _ .vmem, ⟨10, _⟩ => ⟨S128x256, .bf16⟩
  | .local _ .vmem, ⟨11, _⟩ => ⟨S3200x256, .f32⟩
  | .local _ .vmem, ⟨12, _⟩ => ⟨S3200x256, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S3200x256, .f32⟩
  | .local _ .vmem, ⟨18, _⟩ => ⟨S3200x256, .f32⟩
  | .local _ .vmem, ⟨19, _⟩ => ⟨S1x256, .f32⟩
  | .local _ .vmem, ⟨20, _⟩ => ⟨S1x256, .f32⟩
  | .local _ .vmem, ⟨21, _⟩ => ⟨S256x128, .bf16⟩
  | .local _ .vmem, ⟨22, _⟩ => ⟨S3200x128, .f32⟩
  | .local _ .vmem, ⟨23, _⟩ => ⟨S3200x128, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S3200x128, .f32⟩
  | .local _ .vmem, ⟨29, _⟩ => ⟨S3200x128, .f32⟩
  | .local _ .vmem, ⟨30, _⟩ => ⟨S1x128, .f32⟩
  | .local _ .vmem, ⟨31, _⟩ => ⟨S1x128, .f32⟩
  | .local _ .vmem, ⟨32, _⟩ => ⟨S3200x128, .f32⟩
  | .local _ .vmem, ⟨33, _⟩ => ⟨S3200x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v42_2 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65_0 : Ref sig .tc := ⟨.hbm, 92, rfl⟩
abbrev main_v65_1 : Ref sig .tc := ⟨.hbm, 93, rfl⟩
abbrev main_v65_2 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3200x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S200000x2_S400000 : S200000x2.ShapeCasts S400000
  bcast_S_S50000x128 : S_.BroadcastsInDim S50000x128 (![] : Fin 0 → Fin S50000x128.rank)
  bcast_S400000_S400000x1_0 : S400000.BroadcastsInDim S400000x1 (![0] : Fin 1 → Fin S400000x1.rank)
  bcast_S_S400000 : S_.BroadcastsInDim S400000 (![] : Fin 0 → Fin S400000.rank)
  shapeCasts_S400000x128_S200000x2x128 : S400000x128.ShapeCasts S200000x2x128
  shapeCasts_S200000x2x128_S400000x128 : S200000x2x128.ShapeCasts S400000x128
  concatenates_S400000x128_S400000x128_S400000x256_d1 : Shape.Concatenates [S400000x128, S400000x128] S400000x256 1
  bcast_S_S50000x256 : S_.BroadcastsInDim S50000x256 (![] : Fin 0 → Fin S50000x256.rank)
  shapeCasts_S400000x256_S200000x2x256 : S400000x256.ShapeCasts S200000x2x256
  shapeCasts_S200000x2x256_S400000x256 : S200000x2x256.ShapeCasts S400000x256
  bitsLt_bf16_f32 : FTy.bits .bf16 < FTy.bits .f32
  slices_S512x128_S256x128_0_0 : S512x128.Slices ![0, 0] S256x128
  slices_S512x128_S256x128_256_0 : S512x128.Slices ![256, 0] S256x128
  shapeCasts_S128_S1x128 : S128.ShapeCasts S1x128
  shapeCasts_S_S1x1 : S_.ShapeCasts S1x1
  bcast_S1x1_S1x128_0_1 : S1x1.BroadcastsInDim S1x128 (![0, 1] : Fin 2 → Fin S1x128.rank)
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S3200x128_S3200x128_0_0 : ∀ a, (![0, 0] : Fin 2 → Nat) a + S3200x128.size a ≤ S3200x128.size a
  h_S3200x128 : 0 < S3200x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S3200x256_S256 : S3200x256.Reduces [0] S256
  shapeCasts_S256_S1x256 : S256.ShapeCasts S1x256
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  reducesTo_S1000x256_S256_d0 : S1000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  inb_S1x256_S1x256_0_0 : ∀ a, (![0, 0] : Fin 2 → Nat) a + S1x256.size a ≤ S1x256.size a
  h_S1x256 : 0 < S1x256.numel
  broadcasts_S1x256_S3200x256 : S1x256.Broadcasts S3200x256
  reduces_S3200x128_S128 : S3200x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S1000x128_S128_d0 : S1000x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  shapeCasts_S3200x128_S3200x128 : S3200x128.ShapeCasts S3200x128
  scatter_S50000x128_S400000x1_S400000x128_1_0_0_1_wf : ScatterDims.WF S50000x128 S400000x1 S400000x128 [1] [0] [0] 1
  gather_S50000x128_S400000x1_S400000x128_1_0_n_n_0_1_1128_wf : GatherDims.WF S50000x128 S400000x1 S400000x128 [1] [0] [] [0] [] 1 ![1, 128]
  scatter_S50000x256_S400000x1_S400000x256_1_0_0_1_wf : ScatterDims.WF S50000x256 S400000x1 S400000x256 [1] [0] [0] 1
  gather_S50000x256_S400000x1_S400000x256_1_0_n_n_0_1_1256_wf : GatherDims.WF S50000x256 S400000x1 S400000x256 [1] [0] [] [0] [] 1 ![1, 256]
  dot_S3200x256_S256x128_S3200x128_1_0_0_1_n_n_wf : DotDims.WF S3200x256 S256x128 S3200x128 [1] [0] [0] [1] [] []
  dot_S3200x128_S128x256_S3200x256_1_0_0_1_n_n_wf : DotDims.WF S3200x128 S128x256 S3200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S400000x256.size a
  hwx0_0 : ∀ i : grid0.Coords, EltTy.bits .bf16 = 32 ∨ (Rect.block (s := S400000x256) S3200x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S400000x256.size a
  hwx0_1 : ∀ i : grid0.Coords, EltTy.bits .bf16 = 32 ∨ (Rect.block (s := S400000x256) S3200x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S400000x128.size a
  hwx0_2 : ∀ i : grid0.Coords, EltTy.bits .f32 = 32 ∨ (Rect.block (s := S400000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x256.size a ≤ S400000x256.size a
  hwx0_8 : ∀ i : grid0.Coords, EltTy.bits .f32 = 32 ∨ (Rect.block (s := S400000x256) S3200x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x256.size a ≤ S1000x256.size a
  hwx0_9 : ∀ i : grid0.Coords, EltTy.bits .f32 = 32 ∨ (Rect.block (s := S1000x256) S8x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x256.size a ≤ S1000x256.size a
  hwx0_10 : ∀ i : grid0.Coords, EltTy.bits .f32 = 32 ∨ (Rect.block (s := S1000x256) S8x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x256.size a ≤ S400000x256.size a
  hwx1_0 : ∀ i : grid1.Coords, EltTy.bits .f32 = 32 ∨ (Rect.block (s := S400000x256) S3200x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x128.size a ≤ S400000x128.size a
  hwx1_4 : ∀ i : grid1.Coords, EltTy.bits .f32 = 32 ∨ (Rect.block (s := S400000x128) S3200x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S1000x128.size a
  hwx1_5 : ∀ i : grid1.Coords, EltTy.bits .f32 = 32 ∨ (Rect.block (s := S1000x128) S8x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S1000x128.size a
  hwx1_6 : ∀ i : grid1.Coords, EltTy.bits .f32 = 32 ∨ (Rect.block (s := S1000x128) S8x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S400000x128.size a
  hwx2_0 : ∀ i : grid2.Coords, EltTy.bits .f32 = 32 ∨ (Rect.block (s := S400000x128) S3200x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3200x128.size a ≤ S400000x128.size a
  hwx2_3 : ∀ i : grid2.Coords, EltTy.bits .f32 = 32 ∨ (Rect.block (s := S400000x128) S3200x128.size (cc2_transform_3 i) (hinb2_3 i)).WholeWords (EltTy.packing .f32)

variable [Facts₀]

def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S3200x128_S128x256_S3200x256_1_0_0_1_n_n : DotDims S3200x128 S128x256 S3200x256 where
  lhsContracting := [1]
  rhsContracting := [0]
  lhsNonContracting := [0]
  rhsNonContracting := [1]
  lhsBatch := []
  rhsBatch := []
  wf := dot_S3200x128_S128x256_S3200x256_1_0_0_1_n_n_wf

abbrev win0_0 : Pipeline.Window sig grid0 :=
  Pipeline.Window.ofSpec (Memref.whole main_v29) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42_0) S3200x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v42_1) S8x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v42_2) S8x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v42_0) S3200x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65_0) S3200x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v65_1) S8x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v65_2) S8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65_0) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S3200x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S400000x128 : Shape := ⟨2, ![400000, 128]⟩
abbrev S200000x2 : Shape := ⟨2, ![200000, 2]⟩
abbrev S512x128 : Shape := ⟨2, ![512, 128]⟩
abbrev S128 : Shape := ⟨1, ![128]⟩
abbrev S_ : Shape := ⟨0, ![]⟩
abbrev S128x256 : Shape := ⟨2, ![128, 256]⟩
abbrev S256 : Shape := ⟨1, ![256]⟩
abbrev S256x128 : Shape := ⟨2, ![256, 128]⟩
abbrev S400000 : Shape := ⟨1, ![400000]⟩
abbrev S50000x128 : Shape := ⟨2, ![50000, 128]⟩
abbrev S400000x1 : Shape := ⟨2, ![400000, 1]⟩
abbrev S200000x2x128 : Shape := ⟨3, ![200000, 2, 128]⟩
abbrev S400000x256 : Shape := ⟨2, ![400000, 256]⟩
abbrev S50000x256 : Shape := ⟨2, ![50000, 256]⟩
abbrev S200000x2x256 : Shape := ⟨3, ![200000, 2, 256]⟩
abbrev S400000x512 : Shape := ⟨2, ![400000, 512]⟩
abbrev S1x128 : Shape := ⟨2, ![1, 128]⟩
abbrev S1x256 : Shape := ⟨2, ![1, 256]⟩

abbrev nBuf : Space → Nat
  | .hbm => 153
  | .vmem => 0
  | .smem => 0
  | _ => 0

abbrev hbmTy0_0 (i : Nat) : BufTy := match i % 128 with
  | 0 => ⟨S400000x128, .f32⟩
  | 1 => ⟨S200000x2, .i32⟩
  | 2 => ⟨S512x128, .f32⟩
  | 3 => ⟨S128, .f32⟩
  | 4 => ⟨S_, .f32⟩
  | 5 => ⟨S128x256, .f32⟩
  | 6 => ⟨S256, .f32⟩
  | 7 => ⟨S256, .f32⟩
  | 8 => ⟨S256x128, .f32⟩
  | 9 => ⟨S128, .f32⟩
  | 10 => ⟨S128, .f32⟩
  | 11 => ⟨S400000, .i32⟩
  | 12 => ⟨S_, .f32⟩
  | 13 => ⟨S50000x128, .f32⟩
  | 14 => ⟨S400000x1, .i32⟩
  | 15 => ⟨S50000x128, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x128, .f32⟩
  | 25 => ⟨S200000x2x128, .f32⟩
  | 26 => ⟨S200000x2x128, .f32⟩
  | 27 => ⟨S400000x128, .f32⟩
  | 28 => ⟨S400000x128, .f32⟩
  | 29 => ⟨S400000x256, .f32⟩
  | 30 => ⟨S_, .f32⟩
  | 31 => ⟨S50000x256, .f32⟩
  | 32 => ⟨S400000x1, .i32⟩
  | 33 => ⟨S50000x256, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x256, .f32⟩
  | 43 => ⟨S200000x2x256, .f32⟩
  | 44 => ⟨S200000x2x256, .f32⟩
  | 45 => ⟨S400000x256, .f32⟩
  | 46 => ⟨S400000x256, .f32⟩
  | 47 => ⟨S400000x512, .f32⟩
  | 48 => ⟨S400000x128, .f32⟩
  | 49 => ⟨S1x128, .f32⟩
  | 50 => ⟨S400000x128, .f32⟩
  | 51 => ⟨S400000x128, .f32⟩
  | 52 => ⟨S_, .f32⟩
  | 53 => ⟨S_, .f32⟩
  | 54 => ⟨S400000x128, .f32⟩
  | 55 => ⟨S400000x128, .f32⟩
  | 56 => ⟨S400000x128, .f32⟩
  | 57 => ⟨S400000x256, .f32⟩
  | 58 => ⟨S_, .f32⟩
  | 59 => ⟨S256, .f32⟩
  | 60 => ⟨S_, .f32⟩
  | 61 => ⟨S256, .f32⟩
  | 62 => ⟨S256, .f32⟩
  | 63 => ⟨S_, .i32⟩
  | 64 => ⟨S_, .f32⟩
  | 65 => ⟨S256, .f32⟩
  | 66 => ⟨S1x256, .f32⟩
  | 67 => ⟨S_, .f32⟩
  | 68 => ⟨S1x256, .f32⟩
  | 69 => ⟨S1x256, .f32⟩
  | 70 => ⟨S400000x256, .f32⟩
  | 71 => ⟨S400000x256, .f32⟩
  | 72 => ⟨S400000x256, .f32⟩
  | 73 => ⟨S_, .f32⟩
  | 74 => ⟨S_, .f32⟩
  | 75 => ⟨S_, .f32⟩
  | 76 => ⟨S_, .f32⟩
  | 77 => ⟨S256, .f32⟩
  | 78 => ⟨S256, .f32⟩
  | 79 => ⟨S256, .f32⟩
  | 80 => ⟨S_, .f32⟩
  | 81 => ⟨S_, .i1⟩
  | 82 => ⟨S_, .f32⟩
  | 83 => ⟨S_, .f32⟩
  | 84 => ⟨S256, .f32⟩
  | 85 => ⟨S256, .f32⟩
  | 86 => ⟨S1x256, .f32⟩
  | 87 => ⟨S400000x256, .f32⟩
  | 88 => ⟨S400000x256, .f32⟩
  | 89 => ⟨S_, .f32⟩
  | 90 => ⟨S256, .f32⟩
  | 91 => ⟨S256, .f32⟩
  | 92 => ⟨S256, .f32⟩
  | 93 => ⟨S1x256, .f32⟩
  | 94 => ⟨S400000x256, .f32⟩
  | 95 => ⟨S400000x256, .f32⟩
  | 96 => ⟨S1x256, .f32⟩
  | 97 => ⟨S400000x256, .f32⟩
  | 98 => ⟨S400000x256, .f32⟩
  | 99 => ⟨S1x256, .f32⟩
  | 100 => ⟨S400000x256, .f32⟩
  | 101 => ⟨S400000x256, .f32⟩
  | 102 => ⟨S_, .f32⟩
  | 103 => ⟨S400000x256, .f32⟩
  | 104 => ⟨S400000x256, .f32⟩
  | 105 => ⟨S400000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S400000x128, .f32⟩
  | 119 => ⟨S400000x128, .f32⟩
  | 120 => ⟨S400000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S400000x128, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S400000x128, .f32⟩
  | 8 => ⟨S400000x128, .f32⟩
  | 9 => ⟨S_, .f32⟩
  | 10 => ⟨S128, .f32⟩
  | 11 => ⟨S128, .f32⟩
  | 12 => ⟨S128, .f32⟩
  | 13 => ⟨S1x128, .f32⟩
  | 14 => ⟨S400000x128, .f32⟩
  | 15 => ⟨S400000x128, .f32⟩
  | 16 => ⟨S1x128, .f32⟩
  | 17 => ⟨S400000x128, .f32⟩
  | 18 => ⟨S400000x128, .f32⟩
  | 19 => ⟨S1x128, .f32⟩
  | 20 => ⟨S400000x128, .f32⟩
  | 21 => ⟨S400000x128, .f32⟩
  | 22 => ⟨S_, .f32⟩
  | 23 => ⟨S400000x128, .f32⟩
  | 24 => ⟨S400000x128, .f32⟩
  | _ => ⟨S400000x128, .f32⟩

abbrev hbmTy (i : Nat) : BufTy := match i / 128 with
  | 0 => hbmTy0_0 i
  | 1 => hbmTy0_1 i
  | _ => ⟨S400000x128, .f32⟩

abbrev bufTy : (tb : Table) → Fin (tcTables nBuf tb) → BufTy
  | .hbm, ⟨i, _⟩ => hbmTy i
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_cst_3 : Ref sig .tc := ⟨.hbm, 80, rfl⟩
abbrev main_call0_v12 : Ref sig .tc := ⟨.hbm, 81, rfl⟩
abbrev main_call0_cst_4 : Ref sig .tc := ⟨.hbm, 82, rfl⟩
abbrev main_call0_call0_v0 : Ref sig .tc := ⟨.hbm, 83, rfl⟩
abbrev main_call0_call0_v1 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_8 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_call1_cst : Ref sig .tc := ⟨.hbm, 102, rfl⟩
abbrev main_call1_v0 : Ref sig .tc := ⟨.hbm, 103, rfl⟩
abbrev main_v59 : Ref sig .tc := ⟨.hbm, 104, rfl⟩
abbrev main_v60 : Ref sig .tc := ⟨.hbm, 105, rfl⟩
abbrev main_cst_9 : Ref sig .tc := ⟨.hbm, 106, rfl⟩
abbrev main_v61 : Ref sig .tc := ⟨.hbm, 107, rfl⟩
abbrev main_cst_10 : Ref sig .tc := ⟨.hbm, 108, rfl⟩
abbrev main_v62 : Ref sig .tc := ⟨.hbm, 109, rfl⟩
abbrev main_v63 : Ref sig .tc := ⟨.hbm, 110, rfl⟩
abbrev main_c_11 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_cst_3 : Ref sig .tc := ⟨.hbm, 128, rfl⟩
abbrev main_call2_v12 : Ref sig .tc := ⟨.hbm, 129, rfl⟩
abbrev main_call2_cst_4 : Ref sig .tc := ⟨.hbm, 130, rfl⟩
abbrev main_call2_call0_v0 : Ref sig .tc := ⟨.hbm, 131, rfl⟩
abbrev main_call2_call0_v1 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_12 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_call3_cst : Ref sig .tc := ⟨.hbm, 150, rfl⟩
abbrev main_call3_v0 : Ref sig .tc := ⟨.hbm, 151, rfl⟩
abbrev main_v80 : Ref sig .tc := ⟨.hbm, 152, rfl⟩

abbrev nD : Nat := 1
abbrev τ : Topo := Topo.v7x

variable {F : FTy → Type} [FloatOps F]

class Facts₀ : Prop where
  shapeCasts_S200000x2_S400000 : S200000x2.ShapeCasts S400000
  bcast_S_S50000x128 : S_.BroadcastsInDim S50000x128 (![] : Fin 0 → Fin S50000x128.rank)
  bcast_S400000_S400000x1_0 : S400000.BroadcastsInDim S400000x1 (![0] : Fin 1 → Fin S400000x1.rank)
  bcast_S_S400000 : S_.BroadcastsInDim S400000 (![] : Fin 0 → Fin S400000.rank)
  shapeCasts_S400000x128_S200000x2x128 : S400000x128.ShapeCasts S200000x2x128
  shapeCasts_S200000x2x128_S400000x128 : S200000x2x128.ShapeCasts S400000x128
  concatenates_S400000x128_S400000x128_S400000x256_d1 : Shape.Concatenates [S400000x128, S400000x128] S400000x256 1
  bcast_S_S50000x256 : S_.BroadcastsInDim S50000x256 (![] : Fin 0 → Fin S50000x256.rank)
  shapeCasts_S400000x256_S200000x2x256 : S400000x256.ShapeCasts S200000x2x256
  shapeCasts_S200000x2x256_S400000x256 : S200000x2x256.ShapeCasts S400000x256
  concatenates_S400000x256_S400000x256_S400000x512_d1 : Shape.Concatenates [S400000x256, S400000x256] S400000x512 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x256_S256_d0 : S400000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  reducesTo_S400000x128_S128_d0 : S400000x128.ReducesTo [0] S128
  bcast_S_S128 : S_.BroadcastsInDim S128 (![] : Fin 0 → Fin S128.rank)
  bcast_S_S1x128 : S_.BroadcastsInDim S1x128 (![] : Fin 0 → Fin S1x128.rank)
  scatter_S50000x128_S400000x1_S400000x128_1_0_0_1_wf : ScatterDims.WF S50000x128 S400000x1 S400000x128 [1] [0] [0] 1
  gather_S50000x128_S400000x1_S400000x128_1_0_n_n_0_1_1128_wf : GatherDims.WF S50000x128 S400000x1 S400000x128 [1] [0] [] [0] [] 1 ![1, 128]
  scatter_S50000x256_S400000x1_S400000x256_1_0_0_1_wf : ScatterDims.WF S50000x256 S400000x1 S400000x256 [1] [0] [0] 1
  gather_S50000x256_S400000x1_S400000x256_1_0_n_n_0_1_1256_wf : GatherDims.WF S50000x256 S400000x1 S400000x256 [1] [0] [] [0] [] 1 ![1, 256]
  dot_S400000x512_S512x128_S400000x128_1_0_0_1_n_n_wf : DotDims.WF S400000x512 S512x128 S400000x128 [1] [0] [0] [1] [] []
  dot_S400000x128_S128x256_S400000x256_1_0_0_1_n_n_wf : DotDims.WF S400000x128 S128x256 S400000x256 [1] [0] [0] [1] [] []
  dot_S400000x256_S256x128_S400000x128_1_0_0_1_n_n_wf : DotDims.WF S400000x256 S256x128 S400000x128 [1] [0] [0] [1] [] []

variable [Facts₀]

def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S400000x512_S512x128_S400000x128_1_0_0_1_n_n : DotDims S400000x512 S512x128 S400000x128 where
  lhsContracting := [1]
  rhsContracting := [0]
  lhsNonContracting := [0]
  rhsNonContracting := [1]
  lhsBatch := []
  rhsBatch := []
  wf := dot_S400000x512_S512x128_S400000x128_1_0_0_1_n_n_wf
def dot_S400000x128_S128x256_S400000x256_1_0_0_1_n_n : DotDims S400000x128 S128x256 S400000x256 where
  lhsContracting := [1]
  rhsContracting := [0]
  lhsNonContracting := [0]
  rhsNonContracting := [1]
  lhsBatch := []
  rhsBatch := []
  wf := dot_S400000x128_S128x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf

class Facts : Prop extends Facts₀ where

variable [Facts]
-- ==== Proof.HostRun.lean ====
/-
  The kernel program's run with its result named.

  The generated frame certificate folds the buffer contents through the program's segments
  (W0 at launch, ..., W6 at the last region's exit) and reads every unscoped buffer of the final
  state against W6; its stated post keeps only the argument arrays.  The same run, read at the
  result buffer as well, says that the result ends at W6's contents.
-/
import proofs.«168283_j50869592655480_2_alg».proof.Proof.Gen.KernelIdeal.Frame
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the
    last boundary's contents and the argument arrays end as launched. -/
theorem run_out : θ_run (defs (F := Ideal)) (onTc (τ := τ) (main (F := Ideal))) ⟨m, fun _ => 0, ρ⟩ (fun r => ∀ c : Dev nD,
      r.2.mem ((c.tc : Thread nD τ).loc main_v88) = Gen.W6 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v88 (by decide))),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.HostValue

end
-- ==== Proof.Spec.lean ====
/-
  The two programs as formulas over the extended reals, entry by entry.

  Rows are the 2E = 400000 edge endpoints.  Both programs first build, by the same host operations, two
  400000 x 256 arrays from the edge features and the edge list: `P` (the gathered segment sums) and `Q` (the
  partner-row swap).  From there:

  * the reference forms H = [P | P + Q] (400000 x 512), y = H W + b, z = y + (1 + eps) x, a1 = z W1, then twice
    "batch-normalise the columns over all rows, scale, shift, clamp at 0", with a matrix product between;
  * the kernel forms y = P (Wtop + Wbot) + Q Wbot + b, the same z and a1, and batch-normalises through per-block
    column sums: blocks of 3200 rows, each block's sum written on 8 rows of a 1000-row array, those summed and
    divided by 8; the variance as E[a^2] - E[a]^2; the normalisation folded into one scale and one shift per column.

  The functions below are those formulas; they mention no program.  Literals are kept as bit patterns.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- A matrix of extended reals, by row and column. -/
abbrev Mat (a b : ℕ) := Fin a → Fin b → EReal
/-- A vector of extended reals. -/
abbrev RowV (n : ℕ) := Fin n → EReal

/-- An array of shape [a, b] read as a matrix. -/
def mat {a b : ℕ} (x : (⟨2, ![a, b]⟩ : Shape).Idx → EReal) : Mat a b := fun p q => x (ix2 p q)
/-- An array of shape [n] read as a vector. -/
def vec {n : ℕ} (x : (⟨1, ![n]⟩ : Shape).Idx → EReal) : RowV n := fun q => x (ix1 q)
/-- An array of shape [1, n] read as a vector. -/
def row {n : ℕ} (x : (⟨2, ![1, n]⟩ : Shape).Idx → EReal) : RowV n := fun q => x (ix2 (0 : Fin 1) q)
/-- An array of shape [] read as a number. -/
def scal (x : (⟨0, ![]⟩ : Shape).Idx → EReal) : EReal := x ix0

/-- 8, 400000, the batch-norm epsilon and 1 as the programs spell them. -/
def c8 : EReal := Ideal.ofBits .f32 0x41000000#32
def cN : EReal := Ideal.ofBits .f32 0x48C35000#32
def cEps : EReal := Ideal.ofBits .f32 0x3727C5AC#32
def c1 : EReal := Ideal.ofBits .f32 0x3F800000#32

/-- Row r of block t (3200 rows to a block, 125 blocks). -/
def blockRow (t : Fin 125) (r : Fin 3200) : Fin 400000 := ⟨3200 * t.val + r.val, by have := t.isLt; have := r.isLt; omega⟩
/-- The block that row R of a 1000-row partial-sum array belongs to (8 rows to a block). -/
def blockOf (R : Fin 1000) : Fin 125 := ⟨R.val / 8, by have := R.isLt; omega⟩

/-- A matrix product. -/
def mm {M K N : ℕ} (x : Mat M K) (w : Mat K N) : Mat M N := fun r c => ∑ k : Fin K, x r k * w k c

/-- Entrywise square. -/
def sqr {M N : ℕ} (x : Mat M N) : Mat M N := fun r c => x r c * x r c

/-- Per-block column sums, each block's sum repeated on its 8 rows. -/
def blockColSum {N : ℕ} (x : Mat 400000 N) : Mat 1000 N := fun R c => ∑ r : Fin 3200, x (blockRow (blockOf R) r) c

/-! ## The kernel's side -/

/-- The two halves of the 512-row weight matrix, and their sum. -/
def wBot (W : Mat 512 128) : Mat 256 128 := fun k j => W ⟨k.val + 256, by have := k.isLt; omega⟩ j
def wTop (W : Mat 512 128) : Mat 256 128 := fun k j => W ⟨k.val, by have := k.isLt; omega⟩ j
def wSum (W : Mat 512 128) : Mat 256 128 := fun k j => wTop W k j + wBot W k j

/-- The kernel's pre-activation from its window contents: P Ws + Q Wb + b + ev * x. -/
def zWin (P Q : Mat 400000 256) (x : Mat 400000 128) (Ws Wb : Mat 256 128) (b ev : RowV 128) : Mat 400000 128 :=
  fun r k => (((∑ q : Fin 256, P r q * Ws q k) + (∑ q : Fin 256, Q r q * Wb q k)) + b k) + ev k * x r k

/-- The kernel's column mean, variance, scale and shift from the two 1000-row partial-sum arrays. -/
def kMean {N : ℕ} (s : Mat 1000 N) : RowV N := fun c => Ideal.div (Ideal.div (∑ R : Fin 1000, s R c) c8) cN
def kVar {N : ℕ} (s q : Mat 1000 N) : RowV N :=
  fun c => Ideal.div (Ideal.div (∑ R : Fin 1000, q R c) c8) cN - kMean s c * kMean s c
def kScale {N : ℕ} (s q : Mat 1000 N) (g : RowV N) : RowV N := fun c => g c * Ideal.rsqrt (kVar s q c + cEps)
def kShift {N : ℕ} (s q : Mat 1000 N) (g b : RowV N) : RowV N := fun c => b c - kMean s c * kScale s q g c

/-- Scale, shift, clamp at 0. -/
def affRelu {M N : ℕ} (x : Mat M N) (sc sh : RowV N) : Mat M N := fun r c => max (x r c * sc c + sh c) 0

/-- The kernel's batch-norm + clamp of a matrix through its per-block sums. -/
def kBN {N : ℕ} (x : Mat 400000 N) (g b : RowV N) : Mat 400000 N :=
  affRelu x (kScale (blockColSum x) (blockColSum (sqr x)) g) (kShift (blockColSum x) (blockColSum (sqr x)) g b)

/-- The kernel's result from P, Q and the arguments. -/
def kerOut (P Q : Mat 400000 256) (x : Mat 400000 128) (W : Mat 512 128) (b : RowV 128) (eps : EReal)
    (W1 : Mat 128 256) (g1 be1 : RowV 256) (W2 : Mat 256 128) (g2 be2 : RowV 128) : Mat 400000 128 :=
  kBN (mm (kBN (mm (zWin P Q x (wSum W) (wBot W) b (fun _ => c1 + eps)) W1) g1 be1) W2) g2 be2

/-! ## The reference's side -/

/-- [P | P + Q]. -/
def hCat (P Q : Mat 400000 256) : Mat 400000 512 :=
  fun r k => if h : k.val < 256 then P r ⟨k.val, h⟩ else P r ⟨k.val - 256, by have := k.isLt; omega⟩ + Q r ⟨k.val - 256, by have := k.isLt; omega⟩

/-- The reference's pre-activation. -/
def zRef (P Q : Mat 400000 256) (x : Mat 400000 128) (W : Mat 512 128) (b : RowV 128) (eps : EReal) : Mat 400000 128 :=
  fun r k => ((∑ q : Fin 512, hCat P Q r q * W q k) + b k) + (c1 + eps) * x r k

/-- The reference's column mean and (population) variance over all rows. -/
def rMean {N : ℕ} (x : Mat 400000 N) : RowV N := fun c => Ideal.div (∑ r : Fin 400000, x r c) cN
def rVar {N : ℕ} (x : Mat 400000 N) : RowV N :=
  fun c => Ideal.div (∑ r : Fin 400000, (x r c - rMean x c) * (x r c - rMean x c)) cN

/-- The reference's batch-norm + clamp. -/
def rBN {N : ℕ} (x : Mat 400000 N) (g b : RowV N) : Mat 400000 N :=
  fun r c => max ((((x r c - rMean x c) * Ideal.rsqrt (rVar x c + cEps)) * g c) + b c) 0

/-- The reference's result from P, Q and the arguments. -/
def refOut (P Q : Mat 400000 256) (x : Mat 400000 128) (W : Mat 512 128) (b : RowV 128) (eps : EReal)
    (W1 : Mat 128 256) (g1 be1 : RowV 256) (W2 : Mat 256 128) (g2 be2 : RowV 128) : Mat 400000 128 :=
  rBN (mm (rBN (mm (zRef P Q x W b eps) W1) g1 be1) W2) g2 be2

end Cert.Spec

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«168283_j50869592655480_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.Region0Payload.lean ====
/-
  One block of the first stage, entry by entry.

  A block is 3200 consecutive rows.  From the block's rows of P and Q (3200 x 256 each), of x (3200 x 128), the two
  256 x 128 weight matrices, the two 1 x 128 rows (bias and the factor of x) and the 128 x 256 matrix W1, the body forms
    z(r, k) = (sum_q P(r, q) Ws(q, k)) + (sum_q Q(r, q) Wb(q, k)) + b(k) + ev(k) * x(r, k)
  and stores a1 = z W1 (3200 x 256), the column sums of a1 and the column sums of the entrywise square of a1, each
  of the two repeated on 8 rows.  Changes of float format are the identity on the extended reals, a cast to the same
  shape is the identity, a 1 x n row broadcast down the rows reads the row.
-/
import proofs.«168283_j50869592655480_2_alg».proof.Proof.Gen.KernelIdeal.Skeleton
import proofs.«168283_j50869592655480_2_alg».proof.Proof.LibMatmul
import proofs.«168283_j50869592655480_2_alg».proof.Proof.LibRank2
import proofs.«168283_j50869592655480_2_alg».proof.Proof.LibRank3Layout
import Idealize.ShloMosaic.Lib.ValueIdx
import Idealize.ShloMosaic.Lib.ValueLayout
import Idealize.ShloMosaic.Lib.Pipeline.Value

noncomputable section

namespace Cert.KernelIdeal.Region0

open Cert.KernelIdeal Cert.KernelIdeal.Gen Idealize.ShloMosaic Idealize.ShloMosaic.ValueIdx
open scoped BigOperators

/-- The block's pre-activation z at (r, k). -/
def zBlk (x0 x1 : FVec Ideal S3200x256 .bf16) (x2 : FVec Ideal S3200x128 .f32) (x3 x4 : FVec Ideal S256x128 .bf16)
    (x5 x6 : FVec Ideal S1x128 .f32) (r : Fin 3200) (k : Fin 128) : EReal :=
  (((∑ q : Fin 256, x0 (ix2 r q) * x3 (ix2 q k)) + (∑ q : Fin 256, x1 (ix2 r q) * x4 (ix2 q k)))
      + x5 (ix2 (0 : Fin 1) k)) + x6 (ix2 (0 : Fin 1) k) * x2 (ix2 r k)

/-- The block's a1 = z W1 at (r, c). -/
def a1Blk (x0 x1 : FVec Ideal S3200x256 .bf16) (x2 : FVec Ideal S3200x128 .f32) (x3 x4 : FVec Ideal S256x128 .bf16)
    (x5 x6 : FVec Ideal S1x128 .f32) (x7 : FVec Ideal S128x256 .bf16) (r : Fin 3200) (c : Fin 256) : EReal :=
  ∑ k : Fin 128, zBlk x0 x1 x2 x3 x4 x5 x6 r k * x7 (ix2 k c)

/-- A 3200 x 256 by 256 x 128 product into a zero accumulator, at (p, q). -/
theorem mmA_apply (lhs : FVec Ideal S3200x256 .bf16) (rhs : FVec Ideal S256x128 .bf16) (p : Fin 3200) (q : Fin 128) :
    matmul dot_S3200x256_S256x128_S3200x128_1_0_0_1_n_n none lhs rhs (constant (F := Ideal) S3200x128 .f32 0x00000000#32) (ix2 p q)
      = ∑ k : Fin 256, lhs (ix2 p k) * rhs (ix2 k q) :=
  Cert.MatmulAt.matmul_zero_plain_apply Facts₀.dot_S3200x256_S256x128_S3200x128_1_0_0_1_n_n_wf none lhs rhs p q

/-- A 3200 x 128 by 128 x 256 product into a zero accumulator, at (p, q). -/
theorem mmB_apply (lhs : FVec Ideal S3200x128 .bf16) (rhs : FVec Ideal S128x256 .bf16) (p : Fin 3200) (q : Fin 256) :
    matmul dot_S3200x128_S128x256_S3200x256_1_0_0_1_n_n none lhs rhs (constant (F := Ideal) S3200x256 .f32 0x00000000#32) (ix2 p q)
      = ∑ k : Fin 128, lhs (ix2 p k) * rhs (ix2 k q) :=
  Cert.MatmulAt.matmul_zero_plain_apply Facts₀.dot_S3200x128_S128x256_S3200x256_1_0_0_1_n_n_wf none lhs rhs p q

/-- The stored 3200 x 256 payload is a1 of the block. -/
theorem pay2_apply (x0 x1 : FVec Ideal S3200x256 .bf16) (x3 x4 : FVec Ideal S256x128 .bf16) (x5 x6 : FVec Ideal S1x128 .f32)
    (x2 : FVec Ideal S3200x128 .f32) (x7 : FVec Ideal S128x256 .bf16) (r : Fin 3200) (c : Fin 256) :
    k0_pay2 (F := Ideal) x0 x1 x3 x4 x5 x6 x2 x7 (ix2 r c) = a1Blk x0 x1 x2 x3 x4 x5 x6 x7 r c := by
  unfold k0_pay2 a1Blk
  refine (mmB_apply _ _ r c).trans (Finset.sum_congr rfl fun k _ => ?_)
  refine congrArg₂ (· * ·) ?_ (congrFun (shapeCast_self x7 _) _)
  rw [truncf_apply, addf_apply, addf_apply, addf_apply, mulf_apply]
  unfold zBlk
  refine congrArg₂ (· + ·) (congrArg₂ (· + ·) (congrArg₂ (· + ·) ?_ ?_) ?_) (congrArg₂ (· * ·) ?_ rfl)
  · refine (mmA_apply _ _ r k).trans (Finset.sum_congr rfl fun q _ => ?_)
    exact congrArg₂ (· * ·) (congrFun (shapeCast_self x0 _) _) (congrFun (shapeCast_self x3 _) _)
  · refine (mmA_apply _ _ r k).trans (Finset.sum_congr rfl fun q _ => ?_)
    exact congrArg₂ (· * ·) (congrFun (shapeCast_self x1 _) _) (congrFun (shapeCast_self x4 _) _)
  · exact Cert.Rank2.rowBias_vec_apply x5 _ _ r k
  · exact Cert.Rank2.rowBias_vec_apply x6 _ _ r k

/-- The stored 8 x 256 payload of column sums: every one of its 8 rows holds, at column c, the sum over the block's
    3200 rows of a1. -/
theorem pay4_apply (x0 x1 : FVec Ideal S3200x256 .bf16) (x3 x4 : FVec Ideal S256x128 .bf16) (x5 x6 : FVec Ideal S1x128 .f32)
    (x2 : FVec Ideal S3200x128 .f32) (x7 : FVec Ideal S128x256 .bf16) (u : Fin 8) (c : Fin 256) :
    k0_pay4 (F := Ideal) x0 x1 x3 x4 x5 x6 x2 x7 (ix2 u c) = ∑ p : Fin 3200, a1Blk x0 x1 x2 x3 x4 x5 x6 x7 p c := by
  unfold k0_pay4
  refine (Cert.Rank2.rowBias_vec_apply _ _ _ u c).trans ?_
  refine (shapeCast_a_1a_apply _ _ (0 : Fin 1) c).trans ?_
  exact (Cert.Rank3Layout.colSum_apply _ _ _ _ c).trans
    (Finset.sum_congr rfl fun p _ => pay2_apply x0 x1 x3 x4 x5 x6 x2 x7 p c)

/-- The stored 8 x 256 payload of column sums of squares: every one of its 8 rows holds, at column c, the sum over the
    block's 3200 rows of a1 squared. -/
theorem pay13_apply (x0 x1 : FVec Ideal S3200x256 .bf16) (x3 x4 : FVec Ideal S256x128 .bf16) (x5 x6 : FVec Ideal S1x128 .f32)
    (x2 : FVec Ideal S3200x128 .f32) (x7 : FVec Ideal S128x256 .bf16) (u : Fin 8) (c : Fin 256) :
    k0_pay1 (F := Ideal) (k0_pay3 x0 x1 x3 x4 x5 x6 x2 x7) (ix2 u c)
      = ∑ p : Fin 3200, a1Blk x0 x1 x2 x3 x4 x5 x6 x7 p c * a1Blk x0 x1 x2 x3 x4 x5 x6 x7 p c := by
  unfold k0_pay1 k0_pay3
  refine (Cert.Rank2.rowBias_vec_apply _ _ _ u c).trans ?_
  refine (shapeCast_a_1a_apply _ _ (0 : Fin 1) c).trans ?_
  exact (Cert.Rank3Layout.colSum_apply _ _ _ _ c).trans
    (Finset.sum_congr rfl fun p _ => (mulf_apply _ _ _).trans
      (congrArg₂ (· * ·) (pay2_apply x0 x1 x3 x4 x5 x6 x2 x7 p c) (pay2_apply x0 x1 x3 x4 x5 x6 x2 x7 p c)))

end Cert.KernelIdeal.Region0

end
-- ==== Proof.Region0Blocks.lean ====
/-
  The first stage's blocks as rows of the arrays the stage finds.

  The stage runs over 125 points; point t works on rows 3200 t ... 3200 t + 3199.  The two 400000 x 256 arrays P and Q
  and the 400000 x 128 array x are read in blocks of 3200 rows, block t at point t; the two 256 x 128 weight matrices,
  the two 1 x 128 rows and the 128 x 256 matrix W1 are read whole at every point.  So entry (r, q) of a row-blocked
  operand at point t is entry (3200 t + r, q) of its array, and an entry of a whole operand is the array's entry.
  With that, the a1 of the block at point t (the matrix product z W1 of the block's pre-activation) is rows
  3200 t ... 3200 t + 3199 of the whole-array a1.
-/
import proofs.«168283_j50869592655480_2_alg».proof.Proof.Gen.KernelIdeal.Frame
import proofs.«168283_j50869592655480_2_alg».proof.Proof.Spec
import proofs.«168283_j50869592655480_2_alg».proof.Proof.Region0Payload
import Idealize.ShloMosaic.Lib.Pipeline.Value

set_option maxRecDepth 16384

noncomputable section

namespace Cert.KernelIdeal.Region0

open Cert.KernelIdeal Cert.KernelIdeal.Gen Cert.Spec Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The whole-array a1: the stage's pre-activation z from the arrays the stage finds, times W1. -/
def A1 (c : Dev nD) : Spec.Mat 400000 256 :=
  Spec.mm (Spec.zWin (mat (V c main_v29 : S400000x256.Idx → EReal)) (mat (V c main_v30 : S400000x256.Idx → EReal))
      (mat (V c main_arg0 : S400000x128.Idx → EReal)) (mat (V c main_v34 : S256x128.Idx → EReal))
      (mat (V c main_v35 : S256x128.Idx → EReal)) (row (V c main_v38 : S1x128.Idx → EReal))
      (row (V c main_v41 : S1x128.Idx → EReal)))
    (mat (V c main_v36 : S128x256.Idx → EReal))

/-- A point of the grid as a block number below 125. -/
def pt (t : Fin cfg0.N) : Fin 125 := ⟨t.val, by have h := t.isLt; have hN : cfg0.N = 125 := N_0; omega⟩

theorem hz : (![0, 0] : Fin 2 → Nat) = fun _ => 0 := funext fun a => by fin_cases a <;> rfl

/-- The printed index maps over the grid: the row-blocked windows (0, 1, 2 in; 8, 9, 10 out) are at block (t, 0) at
    point t, the whole-array windows (3 to 7) at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Block t of P: entry (r, q) is P(3200 t + r, q). -/
theorem blk0_apply (c : Dev nD) (t : Fin cfg0.N) (r : Fin 3200) (q : Fin 256) :
    (iblk0 V c 0 t : S3200x256.Idx → EReal) (ix2 r q)
      = mat (V c main_v29 : S400000x256.Idx → EReal) (blockRow (pt t) r) q := by
  obtain ⟨e0, e1⟩ := (idx_facts t).1
  unfold iblk0
  rw [View.read_apply]
  show (V c main_v29 : S400000x256.Idx → EReal) _ = (V c main_v29 : S400000x256.Idx → EReal) _
  congr 1
  funext a
  apply Fin.ext
  match a with
  | ⟨0, _⟩ => show win0_0.index t (0 : Fin 2) * 3200 + 1 * r.val = 3200 * t.val + r.val; rw [e0]; omega
  | ⟨1, _⟩ => show win0_0.index t (1 : Fin 2) * 256 + 1 * q.val = q.val; rw [e1]; omega

/-- Block t of Q: entry (r, q) is Q(3200 t + r, q). -/
theorem blk1_apply (c : Dev nD) (t : Fin cfg0.N) (r : Fin 3200) (q : Fin 256) :
    (iblk0 V c 1 t : S3200x256.Idx → EReal) (ix2 r q)
      = mat (V c main_v30 : S400000x256.Idx → EReal) (blockRow (pt t) r) q := by
  obtain ⟨e0, e1⟩ := (idx_facts t).2.1
  unfold iblk0
  rw [View.read_apply]
  show (V c main_v30 : S400000x256.Idx → EReal) _ = (V c main_v30 : S400000x256.Idx → EReal) _
  congr 1
  funext a
  apply Fin.ext
  match a with
  | ⟨0, _⟩ => show win0_1.index t (0 : Fin 2) * 3200 + 1 * r.val = 3200 * t.val + r.val; rw [e0]; omega
  | ⟨1, _⟩ => show win0_1.index t (1 : Fin 2) * 256 + 1 * q.val = q.val; rw [e1]; omega

/-- Block t of x: entry (r, q) is x(3200 t + r, q). -/
theorem blk2_apply (c : Dev nD) (t : Fin cfg0.N) (r : Fin 3200) (q : Fin 128) :
    (iblk0 V c 2 t : S3200x128.Idx → EReal) (ix2 r q)
      = mat (V c main_arg0 : S400000x128.Idx → EReal) (blockRow (pt t) r) q := by
  obtain ⟨e0, e1⟩ := (idx_facts t).2.2.1
  unfold iblk0
  rw [View.read_apply]
  show (V c main_arg0 : S400000x128.Idx → EReal) _ = (V c main_arg0 : S400000x128.Idx → EReal) _
  congr 1
  funext a
  apply Fin.ext
  match a with
  | ⟨0, _⟩ => show win0_2.index t (0 : Fin 2) * 3200 + 1 * r.val = 3200 * t.val + r.val; rw [e0]; omega
  | ⟨1, _⟩ => show win0_2.index t (1 : Fin 2) * 128 + 1 * q.val = q.val; rw [e1]; omega

/-- The first weight matrix is read whole at every point. -/
theorem blk3_apply (c : Dev nD) (t : Fin cfg0.N) (k : Fin 256) (q : Fin 128) :
    (iblk0 V c 3 t : S256x128.Idx → EReal) (ix2 k q) = mat (V c main_v34 : S256x128.Idx → EReal) k q := by
  obtain ⟨e0, e1⟩ := (idx_facts t).2.2.2.1
  unfold iblk0
  rw [View.read_apply]
  show (V c main_v34 : S256x128.Idx → EReal) _ = (V c main_v34 : S256x128.Idx → EReal) _
  congr 1
  funext a
  apply Fin.ext
  match a with
  | ⟨0, _⟩ => show win0_3.index t (0 : Fin 2) * 256 + 1 * k.val = k.val; rw [e0]; omega
  | ⟨1, _⟩ => show win0_3.index t (1 : Fin 2) * 128 + 1 * q.val = q.val; rw [e1]; omega

/-- The second weight matrix is read whole at every point. -/
theorem blk4_apply (c : Dev nD) (t : Fin cfg0.N) (k : Fin 256) (q : Fin 128) :
    (iblk0 V c 4 t : S256x128.Idx → EReal) (ix2 k q) = mat (V c main_v35 : S256x128.Idx → EReal) k q := by
  obtain ⟨e0, e1⟩ := (idx_facts t).2.2.2.2.1
  unfold iblk0
  rw [View.read_apply]
  show (V c main_v35 : S256x128.Idx → EReal) _ = (V c main_v35 : S256x128.Idx → EReal) _
  congr 1
  funext a
  apply Fin.ext
  match a with
  | ⟨0, _⟩ => show win0_4.index t (0 : Fin 2) * 256 + 1 * k.val = k.val; rw [e0]; omega
  | ⟨1, _⟩ => show win0_4.index t (1 : Fin 2) * 128 + 1 * q.val = q.val; rw [e1]; omega

/-- The bias row is read whole at every point. -/
theorem blk5_apply (c : Dev nD) (t : Fin cfg0.N) (q : Fin 128) :
    (iblk0 V c 5 t : S1x128.Idx → EReal) (ix2 (0 : Fin 1) q) = row (V c main_v38 : S1x128.Idx → EReal) q := by
  obtain ⟨e0, e1⟩ := (idx_facts t).2.2.2.2.2.1
  unfold iblk0
  rw [View.read_apply]
  show (V c main_v38 : S1x128.Idx → EReal) _ = (V c main_v38 : S1x128.Idx → EReal) _
  congr 1
  funext a
  apply Fin.ext
  match a with
  | ⟨0, _⟩ => show win0_5.index t (0 : Fin 2) * 1 + 1 * (0 : Fin 1).val = (0 : Fin 1).val; rw [e0]; omega
  | ⟨1, _⟩ => show win0_5.index t (1 : Fin 2) * 128 + 1 * q.val = q.val; rw [e1]; omega

/-- The row of factors of x is read whole at every point. -/
theorem blk6_apply (c : Dev nD) (t : Fin cfg0.N) (q : Fin 128) :
    (iblk0 V c 6 t : S1x128.Idx → EReal) (ix2 (0 : Fin 1) q) = row (V c main_v41 : S1x128.Idx → EReal) q := by
  obtain ⟨e0, e1⟩ := (idx_facts t).2.2.2.2.2.2.1
  unfold iblk0
  rw [View.read_apply]
  show (V c main_v41 : S1x128.Idx → EReal) _ = (V c main_v41 : S1x128.Idx → EReal) _
  congr 1
  funext a
  apply Fin.ext
  match a with
  | ⟨0, _⟩ => show win0_6.index t (0 : Fin 2) * 1 + 1 * (0 : Fin 1).val = (0 : Fin 1).val; rw [e0]; omega
  | ⟨1, _⟩ => show win0_6.index t (1 : Fin 2) * 128 + 1 * q.val = q.val; rw [e1]; omega

/-- W1 is read whole at every point. -/
theorem blk7_apply (c : Dev nD) (t : Fin cfg0.N) (k : Fin 128) (q : Fin 256) :
    (iblk0 V c 7 t : S128x256.Idx → EReal) (ix2 k q) = mat (V c main_v36 : S128x256.Idx → EReal) k q := by
  obtain ⟨e0, e1⟩ := (idx_facts t).2.2.2.2.2.2.2.1
  unfold iblk0
  rw [View.read_apply]
  show (V c main_v36 : S128x256.Idx → EReal) _ = (V c main_v36 : S128x256.Idx → EReal) _
  congr 1
  funext a
  apply Fin.ext
  match a with
  | ⟨0, _⟩ => show win0_7.index t (0 : Fin 2) * 128 + 1 * k.val = k.val; rw [e0]; omega
  | ⟨1, _⟩ => show win0_7.index t (1 : Fin 2) * 256 + 1 * q.val = q.val; rw [e1]; omega

/-- The a1 of the block at point t is rows 3200 t ... 3200 t + 3199 of the whole-array a1. -/
theorem a1Blk_blocks (c : Dev nD) (t : Fin cfg0.N) (r : Fin 3200) (q : Fin 256) :
    a1Blk (iblk0 V c 0 t) (iblk0 V c 1 t) (iblk0 V c 2 t) (iblk0 V c 3 t) (iblk0 V c 4 t) (iblk0 V c 5 t) (iblk0 V c 6 t)
        (iblk0 V c 7 t) r q = A1 V c (blockRow (pt t) r) q := by
  unfold a1Blk A1 Spec.mm
  refine Finset.sum_congr rfl fun k _ => congrArg₂ (· * ·) ?_ (blk7_apply V c t k q)
  unfold zBlk Spec.zWin
  exact congrArg₂ (· + ·)
    (congrArg₂ (· + ·)
      (congrArg₂ (· + ·)
        (Finset.sum_congr rfl fun j _ => congrArg₂ (· * ·) (blk0_apply V c t r j) (blk3_apply V c t j k))
        (Finset.sum_congr rfl fun j _ => congrArg₂ (· * ·) (blk1_apply V c t r j) (blk4_apply V c t j k)))
      (blk5_apply V c t k))
    (congrArg₂ (· * ·) (blk6_apply V c t k) (blk2_apply V c t r k))

end Cert.KernelIdeal.Region0

end
-- ==== Proof.Region0Final.lean ====
/-
  What the first stage leaves in its three result arrays.

  Point t writes back three blocks: rows 3200 t ... 3200 t + 3199 of the 400000 x 256 array (the block's a1), and rows
  8 t ... 8 t + 7 of each of the two 1000 x 256 arrays (the block's column sums of a1, and of a1 squared, repeated on
  the 8 rows).  Each written block is the matching block of one whole-array function — the whole-array a1, its per-block
  column sums, the per-block column sums of its square — and the 125 blocks cover each array (row p is in block
  p / 3200, row R in block R / 8), so after the stage each array holds that function.
-/
import proofs.«168283_j50869592655480_2_alg».proof.Proof.Region0Blocks

set_option maxRecDepth 16384

noncomputable section

namespace Cert.KernelIdeal.Region0

open Cert.KernelIdeal Cert.KernelIdeal.Gen Cert.Spec Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- A matrix as an array of shape [a, b]. -/
def arr2 {a b : ℕ} (x : Spec.Mat a b) : (⟨2, ![a, b]⟩ : Shape).Idx → EReal :=
  fun i => x ⟨(i 0).val, idx2_lt0 i⟩ ⟨(i 1).val, idx2_lt1 i⟩

theorem arr2_apply {a b : ℕ} (x : Spec.Mat a b) (p : Fin a) (q : Fin b) : arr2 x (ix2 p q) = x p q := rfl

/-! ## The 400000 x 256 array: a1 -/

/-- What point t writes back to the first result array is block t of the whole-array a1. -/
theorem flushed8_eq (c : Dev nD) (t : Fin cfg0.N) :
    (dat0 (F := Ideal) V c).flushed 8 t = ((cfg0.win 8).blk t).view.read (Elt Ideal) (arr2 (A1 V c)) := by
  obtain ⟨e0, e1⟩ := (idx_facts t).2.2.2.2.2.2.2.2.1
  show (cfg0.win 8).cut (grid0.coords t) ((dat0 (F := Ideal) V c).after 8 t) = _
  rw [after0_8]
  unfold out0_8
  rw [View.canon_unit_zero hz]
  simp only [View.ld_unit_zero (S := S3200x256) hz, View.ld_unit_zero (S := S256x128) hz, View.ld_unit_zero (S := S1x128) hz,
    View.ld_unit_zero (S := S3200x128) hz, View.ld_unit_zero (S := S128x256) hz]
  funext j
  obtain ⟨r, q, rfl⟩ : ∃ (r : Fin 3200) (q : Fin 256), j = ix2 r q := ⟨j 0, j 1, eq_ix2 j⟩
  show k0_pay2 (F := Ideal) (iblk0 V c 0 t) (iblk0 V c 1 t) (iblk0 V c 3 t) (iblk0 V c 4 t) (iblk0 V c 5 t) (iblk0 V c 6 t)
      (iblk0 V c 2 t) (iblk0 V c 7 t) (ix2 r q) = arr2 (A1 V c) (((cfg0.win 8).blk t).view.emb (ix2 r q))
  refine (pay2_apply (iblk0 V c 0 t) (iblk0 V c 1 t) (iblk0 V c 3 t) (iblk0 V c 4 t) (iblk0 V c 5 t) (iblk0 V c 6 t)
    (iblk0 V c 2 t) (iblk0 V c 7 t) r q).trans ((a1Blk_blocks V c t r q).trans ?_)
  unfold arr2
  refine congrArg₂ (A1 V c) (Fin.ext ?_) (Fin.ext ?_)
  · show 3200 * t.val + r.val = win0_8.index t (0 : Fin 2) * 3200 + 1 * r.val
    rw [e0]; omega
  · show q.val = win0_8.index t (1 : Fin 2) * 256 + 1 * q.val
    rw [e1]; omega

/-- An index of the first result array is in point t's block iff each coordinate is in the block's range. -/
theorem mem_blk8 (t : Fin cfg0.N) (i : S400000x256.Idx) :
    i ∈ ((cfg0.win 8).blk t).view.set ↔ ∀ a : Fin 2, win0_8.index t a * S3200x256.size a ≤ (i a).val ∧ (i a).val < win0_8.index t a * S3200x256.size a + S3200x256.size a := by
  show i ∈ ((View.whole main_v42_0).slice (win0_8.rect t)).set ↔ _
  rw [View.set_slice_whole, Rect.mem_set_unit]
  exact Iff.rfl

/-- Row p of the first result array is in the block of point p / 3200. -/
theorem cover8 (i : S400000x256.Idx) :
    ∃ t : Fin cfg0.N, (cfg0.win 8).flush t = true ∧ i ∈ ((cfg0.win 8).blk t).view.set := by
  have h0 : (i 0).val < 400000 := idx2_lt0 i
  have h1 : (i 1).val < 256 := idx2_lt1 i
  have hN : cfg0.N = 125 := N_0
  refine ⟨⟨(i 0).val / 3200, by rw [hN]; omega⟩, flush0_8 _, ?_⟩
  obtain ⟨e0, e1⟩ := (idx_facts ⟨(i 0).val / 3200, by rw [hN]; omega⟩).2.2.2.2.2.2.2.2.1
  rw [mem_blk8]
  intro a
  match a with
  | ⟨0, _⟩ =>
    show win0_8.index _ (0 : Fin 2) * 3200 ≤ (i 0).val ∧ (i 0).val < win0_8.index _ (0 : Fin 2) * 3200 + 3200
    rw [e0]; show (i 0).val / 3200 * 3200 ≤ (i 0).val ∧ (i 0).val < (i 0).val / 3200 * 3200 + 3200; omega
  | ⟨1, _⟩ =>
    show win0_8.index _ (1 : Fin 2) * 256 ≤ (i 1).val ∧ (i 1).val < win0_8.index _ (1 : Fin 2) * 256 + 256
    rw [e1]; omega

/-- After the stage the first result array holds the whole-array a1. -/
theorem final0_8 (c : Dev nD) (p : Fin 400000) (q : Fin 256) :
    (dat0 (F := Ideal) V c).arrAt 8 cfg0.N (ix2 p q) = A1 V c p q :=
  congrFun ((dat0 (F := Ideal) V c).arrAt_eq_of_cover 8 (arr2 (A1 V c)) (fun t _ => flushed8_eq V c t) cover8) (ix2 p q)

/-! ## The two 1000 x 256 arrays: per-block column sums of a1 and of its square -/

/-- Rows of the block at point t are rows of block (8 t + u) / 8 = t, for u below 8: the a1 of the block at point t, at
    the columns and block the write-back's rectangle names. -/
theorem a1Blk_at (c : Dev nD) (t : Fin cfg0.N) (p : Fin 3200) (q : Fin 256) (R : Fin 1000) (q' : Fin 256)
    (hR : R.val / 8 = t.val) (hq : q'.val = q.val) :
    a1Blk (iblk0 V c 0 t) (iblk0 V c 1 t) (iblk0 V c 2 t) (iblk0 V c 3 t) (iblk0 V c 4 t) (iblk0 V c 5 t) (iblk0 V c 6 t)
        (iblk0 V c 7 t) p q = A1 V c (blockRow (blockOf R) p) q' :=
  (a1Blk_blocks V c t p q).trans
    (congrArg₂ (A1 V c) (congrArg (fun b => blockRow b p) (Fin.ext hR.symm)) (Fin.ext hq.symm))

/-- What point t writes back to the second result array is block t of the per-block column sums of a1. -/
theorem flushed9_eq (c : Dev nD) (t : Fin cfg0.N) :
    (dat0 (F := Ideal) V c).flushed 9 t
      = ((cfg0.win 9).blk t).view.read (Elt Ideal) (arr2 (blockColSum (A1 V c))) := by
  obtain ⟨e0, e1⟩ := (idx_facts t).2.2.2.2.2.2.2.2.2.1
  show (cfg0.win 9).cut (grid0.coords t) ((dat0 (F := Ideal) V c).after 9 t) = _
  rw [after0_9]
  unfold out0_9
  rw [View.canon_unit_zero hz]
  simp only [View.ld_unit_zero (S := S3200x256) hz, View.ld_unit_zero (S := S256x128) hz, View.ld_unit_zero (S := S1x128) hz,
    View.ld_unit_zero (S := S3200x128) hz, View.ld_unit_zero (S := S128x256) hz]
  funext j
  obtain ⟨u, q, rfl⟩ : ∃ (u : Fin 8) (q : Fin 256), j = ix2 u q := ⟨j 0, j 1, eq_ix2 j⟩
  show k0_pay4 (F := Ideal) (iblk0 V c 0 t) (iblk0 V c 1 t) (iblk0 V c 3 t) (iblk0 V c 4 t) (iblk0 V c 5 t) (iblk0 V c 6 t)
      (iblk0 V c 2 t) (iblk0 V c 7 t) (ix2 u q) = arr2 (blockColSum (A1 V c)) (((cfg0.win 9).blk t).view.emb (ix2 u q))
  refine (pay4_apply (iblk0 V c 0 t) (iblk0 V c 1 t) (iblk0 V c 3 t) (iblk0 V c 4 t) (iblk0 V c 5 t) (iblk0 V c 6 t)
      (iblk0 V c 2 t) (iblk0 V c 7 t) u q).trans ?_
  unfold arr2 blockColSum
  refine Finset.sum_congr rfl fun p _ => a1Blk_at V c t p q _ _ ?_ ?_
  · show (win0_9.index t (0 : Fin 2) * 8 + 1 * u.val) / 8 = t.val
    rw [e0]; omega
  · show win0_9.index t (1 : Fin 2) * 256 + 1 * q.val = q.val
    rw [e1]; omega

/-- What point t writes back to the third result array is block t of the per-block column sums of a1 squared. -/
theorem flushed10_eq (c : Dev nD) (t : Fin cfg0.N) :
    (dat0 (F := Ideal) V c).flushed 10 t
      = ((cfg0.win 10).blk t).view.read (Elt Ideal) (arr2 (blockColSum (sqr (A1 V c)))) := by
  obtain ⟨e0, e1⟩ := (idx_facts t).2.2.2.2.2.2.2.2.2.2
  show (cfg0.win 10).cut (grid0.coords t) ((dat0 (F := Ideal) V c).after 10 t) = _
  rw [after0_10]
  unfold out0_10
  rw [View.canon_unit_zero hz]
  simp only [View.ld_unit_zero (S := S3200x256) hz, View.ld_unit_zero (S := S256x128) hz, View.ld_unit_zero (S := S1x128) hz,
    View.ld_unit_zero (S := S3200x128) hz, View.ld_unit_zero (S := S128x256) hz]
  funext j
  obtain ⟨u, q, rfl⟩ : ∃ (u : Fin 8) (q : Fin 256), j = ix2 u q := ⟨j 0, j 1, eq_ix2 j⟩
  show k0_pay1 (F := Ideal) (k0_pay3 (iblk0 V c 0 t) (iblk0 V c 1 t) (iblk0 V c 3 t) (iblk0 V c 4 t) (iblk0 V c 5 t) (iblk0 V c 6 t)
      (iblk0 V c 2 t) (iblk0 V c 7 t)) (ix2 u q)
    = arr2 (blockColSum (sqr (A1 V c))) (((cfg0.win 10).blk t).view.emb (ix2 u q))
  refine (pay13_apply (iblk0 V c 0 t) (iblk0 V c 1 t) (iblk0 V c 3 t) (iblk0 V c 4 t) (iblk0 V c 5 t) (iblk0 V c 6 t)
      (iblk0 V c 2 t) (iblk0 V c 7 t) u q).trans ?_
  unfold arr2 blockColSum sqr
  have hR : (win0_10.index t (0 : Fin 2) * 8 + 1 * u.val) / 8 = t.val := by rw [e0]; omega
  have hq : win0_10.index t (1 : Fin 2) * 256 + 1 * q.val = q.val := by rw [e1]; omega
  exact Finset.sum_congr rfl fun p _ =>
    congrArg₂ (· * ·) (a1Blk_at V c t p q _ _ hR hq) (a1Blk_at V c t p q _ _ hR hq)

/-- An index of the second result array is in point t's block iff each coordinate is in the block's range. -/
theorem mem_blk9 (t : Fin cfg0.N) (i : S1000x256.Idx) :
    i ∈ ((cfg0.win 9).blk t).view.set ↔ ∀ a : Fin 2, win0_9.index t a * S8x256.size a ≤ (i a).val ∧ (i a).val < win0_9.index t a * S8x256.size a + S8x256.size a := by
  show i ∈ ((View.whole main_v42_1).slice (win0_9.rect t)).set ↔ _
  rw [View.set_slice_whole, Rect.mem_set_unit]
  exact Iff.rfl

/-- The same for the third result array. -/
theorem mem_blk10 (t : Fin cfg0.N) (i : S1000x256.Idx) :
    i ∈ ((cfg0.win 10).blk t).view.set ↔ ∀ a : Fin 2, win0_10.index t a * S8x256.size a ≤ (i a).val ∧ (i a).val < win0_10.index t a * S8x256.size a + S8x256.size a := by
  show i ∈ ((View.whole main_v42_2).slice (win0_10.rect t)).set ↔ _
  rw [View.set_slice_whole, Rect.mem_set_unit]
  exact Iff.rfl

/-- Row R of the second result array is in the block of point R / 8. -/
theorem cover9 (i : S1000x256.Idx) :
    ∃ t : Fin cfg0.N, (cfg0.win 9).flush t = true ∧ i ∈ ((cfg0.win 9).blk t).view.set := by
  have h0 : (i 0).val < 1000 := idx2_lt0 i
  have h1 : (i 1).val < 256 := idx2_lt1 i
  have hN : cfg0.N = 125 := N_0
  refine ⟨⟨(i 0).val / 8, by rw [hN]; omega⟩, flush0_9 _, ?_⟩
  obtain ⟨e0, e1⟩ := (idx_facts ⟨(i 0).val / 8, by rw [hN]; omega⟩).2.2.2.2.2.2.2.2.2.1
  rw [mem_blk9]
  intro a
  match a with
  | ⟨0, _⟩ =>
    show win0_9.index _ (0 : Fin 2) * 8 ≤ (i 0).val ∧ (i 0).val < win0_9.index _ (0 : Fin 2) * 8 + 8
    rw [e0]; show (i 0).val / 8 * 8 ≤ (i 0).val ∧ (i 0).val < (i 0).val / 8 * 8 + 8; omega
  | ⟨1, _⟩ =>
    show win0_9.index _ (1 : Fin 2) * 256 ≤ (i 1).val ∧ (i 1).val < win0_9.index _ (1 : Fin 2) * 256 + 256
    rw [e1]; omega

/-- Row R of the third result array is in the block of point R / 8. -/
theorem cover10 (i : S1000x256.Idx) :
    ∃ t : Fin cfg0.N, (cfg0.win 10).flush t = true ∧ i ∈ ((cfg0.win 10).blk t).view.set := by
  have h0 : (i 0).val < 1000 := idx2_lt0 i
  have h1 : (i 1).val < 256 := idx2_lt1 i
  have hN : cfg0.N = 125 := N_0
  refine ⟨⟨(i 0).val / 8, by rw [hN]; omega⟩, flush0_10 _, ?_⟩
  obtain ⟨e0, e1⟩ := (idx_facts ⟨(i 0).val / 8, by rw [hN]; omega⟩).2.2.2.2.2.2.2.2.2.2
  rw [mem_blk10]
  intro a
  match a with
  | ⟨0, _⟩ =>
    show win0_10.index _ (0 : Fin 2) * 8 ≤ (i 0).val ∧ (i 0).val < win0_10.index _ (0 : Fin 2) * 8 + 8
    rw [e0]; show (i 0).val / 8 * 8 ≤ (i 0).val ∧ (i 0).val < (i 0).val / 8 * 8 + 8; omega
  | ⟨1, _⟩ =>
    show win0_10.index _ (1 : Fin 2) * 256 ≤ (i 1).val ∧ (i 1).val < win0_10.index _ (1 : Fin 2) * 256 + 256
    rw [e1]; omega

/-- After the stage the second result array holds the per-block column sums of a1, each block's on its 8 rows. -/
theorem final0_9 (c : Dev nD) (R : Fin 1000) (q : Fin 256) :
    (dat0 (F := Ideal) V c).arrAt 9 cfg0.N (ix2 R q) = Spec.blockColSum (A1 V c) R q :=
  congrFun ((dat0 (F := Ideal) V c).arrAt_eq_of_cover 9 (arr2 (blockColSum (A1 V c)))
    (fun t _ => flushed9_eq V c t) cover9) (ix2 R q)

/-- After the stage the third result array holds the per-block column sums of a1 squared, each block's on its 8 rows. -/
theorem final0_10 (c : Dev nD) (R : Fin 1000) (q : Fin 256) :
    (dat0 (F := Ideal) V c).arrAt 10 cfg0.N (ix2 R q) = Spec.blockColSum (Spec.sqr (A1 V c)) R q :=
  congrFun ((dat0 (F := Ideal) V c).arrAt_eq_of_cover 10 (arr2 (blockColSum (sqr (A1 V c))))
    (fun t _ => flushed10_eq V c t) cover10) (ix2 R q)

end Cert.KernelIdeal.Region0

end
-- ==== Proof.Region1.lean ====
/-
  The second kernel's three output arrays, entry by entry.

  The region reads a 400000 x 256 array x in 125 blocks of 3200 rows, and whole at every block a 1 x 256 scale s, a
  1 x 256 shift h and a 256 x 128 weight w.  At each block it forms y = max (x * s + h, 0) (scale and shift repeated
  down the rows) and the product a = y w, a 3200 x 128 block, which it stores; it also sums each column of a, and of the
  entrywise square of a, over the block's 3200 rows, and stores each of these two rows of 128 sums repeated on 8 rows.

  Block t of the product array is rows 3200 t, ..., 3200 t + 3199; block t of the two 1000-row arrays is rows
  8 t, ..., 8 t + 7.  The blocks fill their arrays, so after the region, whatever the arrays held on entry:
  the product array is A = max (x * s + h, 0) w; row R of the first 1000-row array holds the column sums of block R / 8
  of A, and row R of the second those of the squares of that block.
-/
import proofs.«168283_j50869592655480_2_alg».proof.Proof.Gen.KernelIdeal.Frame
import proofs.«168283_j50869592655480_2_alg».proof.Proof.Spec
import proofs.«168283_j50869592655480_2_alg».proof.Proof.LibRank2
import proofs.«168283_j50869592655480_2_alg».proof.Proof.LibMatmul
import proofs.«168283_j50869592655480_2_alg».proof.Proof.LibRank3Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Cert.Spec Idealize.ShloMosaic Idealize.ShloMosaic.ValueIdx
open Idealize.ShloMosaic.TcCoe
open Idealize.ShloMosaic.Pipeline (Dat)
open scoped BigOperators

/-! ## The body's arithmetic at one entry of a block -/

/-- Entry (r, q) of the product block: the sum over k of the clamped affine image of the input block's entry (r, k)
    times the weight's entry (k, q). -/
theorem pay1_apply (x0 : Vec Ideal S3200x256 .f32) (x1 x2 : Vec Ideal S1x256 .f32) (x3 : Vec Ideal S256x128 .bf16)
    (r : Fin 3200) (q : Fin 128) :
    k1_pay1 (F := Ideal) x0 x1 x2 x3 (ix2 r q)
      = ∑ k : Fin 256, max (x0 (ix2 r k) * x1 (ix2 (0 : Fin 1) k) + x2 (ix2 (0 : Fin 1) k)) 0 * x3 (ix2 k q) := by
  unfold k1_pay1
  refine (Cert.MatmulAt.matmul_zero_plain_apply Gen.dot_S3200x256_S256x128_S3200x128_1_0_0_1_n_n_wf none _ _ r q).trans ?_
  refine Finset.sum_congr rfl fun k _ => ?_
  rw [shapeCast_self x3, truncf_apply, maximumf_apply, addf_apply, mulf_apply, broadcast_apply, shapeCast_self x0,
    Cert.Rank2.rowBias_vec_apply, Cert.Rank2.rowBias_vec_apply]
  show max _ (Ideal.ofBits .f32 0x00000000#32) * _ = _
  rw [Ideal.ofBits_zero_f32]

/-- Entry (r, q) of the first partial-sum block: column q of the product block summed over its 3200 rows, whatever r. -/
theorem pay2_apply (x0 : Vec Ideal S3200x256 .f32) (x1 x2 : Vec Ideal S1x256 .f32) (x3 : Vec Ideal S256x128 .bf16)
    (r : Fin 8) (q : Fin 128) :
    k1_pay2 (F := Ideal) x0 x1 x2 x3 (ix2 r q) = ∑ p : Fin 3200, k1_pay1 (F := Ideal) x0 x1 x2 x3 (ix2 p q) := by
  unfold k1_pay2
  refine (Cert.Rank2.rowBias_vec_apply _ _ _ r q).trans ?_
  refine (shapeCast_a_1a_apply _ _ (0 : Fin 1) q).trans ?_
  exact Cert.Rank3Layout.colSum_apply _ _ _ _ q

/-- Entry (r, q) of the second partial-sum block: the squares of column q of the product block summed over its rows. -/
theorem pay3_apply (x0 : Vec Ideal S3200x256 .f32) (x1 x2 : Vec Ideal S1x256 .f32) (x3 : Vec Ideal S256x128 .bf16)
    (r : Fin 8) (q : Fin 128) :
    k1_pay3 (F := Ideal) x0 x1 x2 x3 (ix2 r q)
      = ∑ p : Fin 3200, k1_pay1 (F := Ideal) x0 x1 x2 x3 (ix2 p q) * k1_pay1 (F := Ideal) x0 x1 x2 x3 (ix2 p q) := by
  unfold k1_pay3
  refine (Cert.Rank2.rowBias_vec_apply _ _ _ r q).trans ?_
  refine (shapeCast_a_1a_apply _ _ (0 : Fin 1) q).trans ?_
  refine (Cert.Rank3Layout.colSum_apply _ _ _ _ q).trans ?_
  rfl

variable (V : (c : Dev nD) → (b : Ref sig .tc) → Buf (Elt Ideal) ((c : Thread nD τ).loc b))

/-! ## The arrays the region reads, and the product -/

/-- The four arrays the region reads, as it finds them: the 400000 x 256 input, the 1 x 256 scale and shift, the
    256 x 128 weight. -/
abbrev X0 (c : Dev nD) : S400000x256.Idx → EReal := V c main_v42_0
abbrev Sc (c : Dev nD) : S1x256.Idx → EReal := V c main_v61
abbrev Sh (c : Dev nD) : S1x256.Idx → EReal := V c main_v64
abbrev Wt (c : Dev nD) : S256x128.Idx → EReal := V c main_v37

/-- The clamped affine image of the input, times the weight: a 400000 x 128 matrix. -/
def A2 (c : Dev nD) : Spec.Mat 400000 128 :=
  Spec.mm (Spec.affRelu (mat (X0 V c)) (row (Sc V c)) (row (Sh V c))) (mat (Wt V c))

/-- The product block from blocks that are rows of the arrays: if the input block's row r is row P of the input and the
    scale, shift and weight blocks are those arrays, entry (r, q) of the product block is entry (P, q) of the product. -/
theorem pay1_of_rows (A : S400000x256.Idx → EReal) (s1 s2 : S1x256.Idx → EReal) (W : S256x128.Idx → EReal)
    (x0 : Vec Ideal S3200x256 .f32) (x1 x2 : Vec Ideal S1x256 .f32) (x3 : Vec Ideal S256x128 .bf16)
    (P : Fin 400000) (r : Fin 3200) (q : Fin 128)
    (h0 : ∀ k : Fin 256, x0 (ix2 r k) = A (ix2 P k))
    (h1 : ∀ k : Fin 256, x1 (ix2 (0 : Fin 1) k) = s1 (ix2 (0 : Fin 1) k))
    (h2 : ∀ k : Fin 256, x2 (ix2 (0 : Fin 1) k) = s2 (ix2 (0 : Fin 1) k))
    (h3 : ∀ k : Fin 256, x3 (ix2 k q) = W (ix2 k q)) :
    k1_pay1 (F := Ideal) x0 x1 x2 x3 (ix2 r q) = Spec.mm (Spec.affRelu (mat A) (row s1) (row s2)) (mat W) P q := by
  refine (pay1_apply x0 x1 x2 x3 r q).trans ?_
  unfold Spec.mm Spec.affRelu Spec.mat Spec.row
  refine Finset.sum_congr rfl fun k _ => ?_
  rw [h0 k, h1 k, h2 k, h3 k]

/-! ## The windows' blocks -/

theorem hz : (![0, 0] : Fin 2 → Nat) = fun _ => 0 := funext fun a => by fin_cases a <;> rfl

/-- Block t of the row-blocked windows starts at block row t; the scale, the shift and the weight are read whole at
    every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- A grid point as a block number. -/
def pt (t : Fin cfg1.N) : Fin 125 := ⟨t.val, lt_of_lt_of_eq t.isLt N_1⟩

/-- At point t, entry (r, q) of the product of the input blocks is entry (3200 t + r, q) of the product of the arrays. -/
theorem pay1_block (c : Dev nD) (t : Fin cfg1.N) (r : Fin 3200) (q : Fin 128) :
    k1_pay1 (F := Ideal) (iblk1 V c 0 t) (iblk1 V c 1 t) (iblk1 V c 2 t) (iblk1 V c 3 t) (ix2 r q)
      = A2 V c (blockRow (pt t) r) q := by
  obtain ⟨e00, e01, e10, e11, e20, e21, e30, e31, -⟩ := idx_facts t
  refine pay1_of_rows (X0 V c) (Sc V c) (Sh V c) (Wt V c) (iblk1 V c 0 t) (iblk1 V c 1 t) (iblk1 V c 2 t) (iblk1 V c 3 t)
    (blockRow (pt t) r) r q (fun k => ?_) (fun k => ?_) (fun k => ?_) (fun k => ?_)
  · show X0 V c (((cfg1.win 0).blk t).view.emb (ix2 r k)) = X0 V c (ix2 (blockRow (pt t) r) k)
    refine congrArg (X0 V c) ?_
    funext a; apply Fin.ext
    match a with
    | ⟨0, _⟩ => show win1_0.index t (0 : Fin 2) * 3200 + 1 * r.val = 3200 * t.val + r.val; omega
    | ⟨1, _⟩ => show win1_0.index t (1 : Fin 2) * 256 + 1 * k.val = k.val; omega
  · show Sc V c (((cfg1.win 1).blk t).view.emb (ix2 (0 : Fin 1) k)) = Sc V c (ix2 (0 : Fin 1) k)
    refine congrArg (Sc V c) ?_
    funext a; apply Fin.ext
    match a with
    | ⟨0, _⟩ => show win1_1.index t (0 : Fin 2) * 1 + 1 * 0 = 0; omega
    | ⟨1, _⟩ => show win1_1.index t (1 : Fin 2) * 256 + 1 * k.val = k.val; omega
  · show Sh V c (((cfg1.win 2).blk t).view.emb (ix2 (0 : Fin 1) k)) = Sh V c (ix2 (0 : Fin 1) k)
    refine congrArg (Sh V c) ?_
    funext a; apply Fin.ext
    match a with
    | ⟨0, _⟩ => show win1_2.index t (0 : Fin 2) * 1 + 1 * 0 = 0; omega
    | ⟨1, _⟩ => show win1_2.index t (1 : Fin 2) * 256 + 1 * k.val = k.val; omega
  · show Wt V c (((cfg1.win 3).blk t).view.emb (ix2 k q)) = Wt V c (ix2 k q)
    refine congrArg (Wt V c) ?_
    funext a; apply Fin.ext
    match a with
    | ⟨0, _⟩ => show win1_3.index t (0 : Fin 2) * 256 + 1 * k.val = k.val; omega
    | ⟨1, _⟩ => show win1_3.index t (1 : Fin 2) * 128 + 1 * q.val = q.val; omega

/-! ## Window 4: the product array -/

/-- The whole product array as one function of the arrays the region finds. -/
def G4 (c : Dev nD) : S400000x128.Idx → EReal := fun i => A2 V c (i 0) (i 1)

/-- What point t writes back to the product array is block t of `G4`. -/
theorem flushed4_eq (c : Dev nD) (t : Fin cfg1.N) :
    (dat1 (F := Ideal) V c).flushed 4 t = ((cfg1.win 4).blk t).view.read (Elt Ideal) (G4 V c) := by
  show (cfg1.win 4).cut (grid1.coords t) ((dat1 (F := Ideal) V c).after 4 t) = _
  rw [after1_4]
  unfold out1_4
  rw [View.canon_unit_zero hz]
  simp only [View.ld_unit_zero (S := S3200x256) hz, View.ld_unit_zero (S := S1x256) hz, View.ld_unit_zero (S := S256x128) hz]
  obtain ⟨-, -, -, -, -, -, -, -, e40, e41, -⟩ := idx_facts t
  funext j
  obtain ⟨r, q, rfl⟩ : ∃ (r : Fin 3200) (q : Fin 128), j = ix2 r q := ⟨j 0, j 1, eq_ix2 j⟩
  show k1_pay1 (F := Ideal) (iblk1 V c 0 t) (iblk1 V c 1 t) (iblk1 V c 2 t) (iblk1 V c 3 t) (ix2 r q)
    = G4 V c (((cfg1.win 4).blk t).view.emb (ix2 r q))
  have hP : ((cfg1.win 4).blk t).view.emb (ix2 r q) = ix2 (blockRow (pt t) r) q := by
    funext a; apply Fin.ext
    match a with
    | ⟨0, _⟩ => show win1_4.index t (0 : Fin 2) * 3200 + 1 * r.val = 3200 * t.val + r.val; omega
    | ⟨1, _⟩ => show win1_4.index t (1 : Fin 2) * 128 + 1 * q.val = q.val; omega
  refine Eq.trans ?_ (congrArg (G4 V c) hP.symm)
  exact pay1_block V c t r q

/-- An index of the product array is in point t's block iff each coordinate is in the block's range on its axis. -/
theorem mem_blk4 (t : Fin cfg1.N) (i : S400000x128.Idx) :
    i ∈ ((cfg1.win 4).blk t).view.set ↔ ∀ a : Fin 2, win1_4.index t a * S3200x128.size a ≤ (i a).val ∧ (i a).val < win1_4.index t a * S3200x128.size a + S3200x128.size a := by
  show i ∈ ((View.whole main_v65_0).slice (win1_4.rect t)).set ↔ _
  rw [View.set_slice_whole, Rect.mem_set_unit]
  exact Iff.rfl

/-- Row p lies in block p / 3200: the 125 blocks of 3200 rows fill the product array. -/
theorem cover4 (i : S400000x128.Idx) :
    ∃ t : Fin cfg1.N, (cfg1.win 4).flush t = true ∧ i ∈ ((cfg1.win 4).blk t).view.set := by
  have hi0 : (i 0).val < 400000 := (i 0).isLt
  have hi1 : (i 1).val < 128 := (i 1).isLt
  have hN : cfg1.N = 125 := N_1
  obtain ⟨t, ht⟩ : ∃ t : Fin cfg1.N, t.val = (i 0).val / 3200 := ⟨⟨(i 0).val / 3200, by rw [hN]; omega⟩, rfl⟩
  obtain ⟨-, -, -, -, -, -, -, -, e40, e41, -⟩ := idx_facts t
  refine ⟨t, flush1_4 t, ?_⟩
  rw [mem_blk4]
  intro a
  match a with
  | ⟨0, _⟩ => show win1_4.index t (0 : Fin 2) * 3200 ≤ (i 0).val ∧ (i 0).val < win1_4.index t (0 : Fin 2) * 3200 + 3200; omega
  | ⟨1, _⟩ => show win1_4.index t (1 : Fin 2) * 128 ≤ (i 1).val ∧ (i 1).val < win1_4.index t (1 : Fin 2) * 128 + 128; omega

/-- The product array after the region. -/
theorem final1_4 (c : Dev nD) (p : Fin 400000) (q : Fin 128) :
    (dat1 (F := Ideal) V c).arrAt 4 cfg1.N (ix2 p q) = A2 V c p q := by
  rw [(dat1 (F := Ideal) V c).arrAt_eq_of_cover 4 (G4 V c) (fun t _ => flushed4_eq V c t) (cover4)]
  rfl

/-! ## Windows 5 and 6: the per-block column sums of the product and of its squares

  Point t writes rows 8 t, ..., 8 t + 7 of a 1000-row array, each of them the column sums of block t. -/

/-- Row 8 t + r of a partial-sum array, and the block it belongs to. -/
def sumRow (t : Fin cfg1.N) (r : Fin 8) : Fin 1000 :=
  ⟨8 * t.val + r.val, by have := lt_of_lt_of_eq t.isLt N_1; have := r.isLt; omega⟩

theorem blockOf_sumRow (t : Fin cfg1.N) (r : Fin 8) : Spec.blockOf (sumRow t r) = pt t :=
  Fin.ext (by show (8 * t.val + r.val) / 8 = t.val; have := r.isLt; omega)

def G5 (c : Dev nD) : S1000x128.Idx → EReal := fun i => Spec.blockColSum (A2 V c) (i 0) (i 1)
def G6 (c : Dev nD) : S1000x128.Idx → EReal := fun i => Spec.blockColSum (Spec.sqr (A2 V c)) (i 0) (i 1)

/-- What point t writes back to the first partial-sum array is block t of `G5`. -/
theorem flushed5_eq (c : Dev nD) (t : Fin cfg1.N) :
    (dat1 (F := Ideal) V c).flushed 5 t = ((cfg1.win 5).blk t).view.read (Elt Ideal) (G5 V c) := by
  show (cfg1.win 5).cut (grid1.coords t) ((dat1 (F := Ideal) V c).after 5 t) = _
  rw [after1_5]
  unfold out1_5
  rw [View.canon_unit_zero hz]
  simp only [View.ld_unit_zero (S := S3200x256) hz, View.ld_unit_zero (S := S1x256) hz, View.ld_unit_zero (S := S256x128) hz]
  obtain ⟨-, -, -, -, -, -, -, -, -, -, e50, e51, -⟩ := idx_facts t
  funext j
  obtain ⟨r, q, rfl⟩ : ∃ (r : Fin 8) (q : Fin 128), j = ix2 r q := ⟨j 0, j 1, eq_ix2 j⟩
  show k1_pay2 (F := Ideal) (iblk1 V c 0 t) (iblk1 V c 1 t) (iblk1 V c 2 t) (iblk1 V c 3 t) (ix2 r q)
    = G5 V c (((cfg1.win 5).blk t).view.emb (ix2 r q))
  have hR : ((cfg1.win 5).blk t).view.emb (ix2 r q) = ix2 (sumRow t r) q := by
    funext a; apply Fin.ext
    match a with
    | ⟨0, _⟩ => show win1_5.index t (0 : Fin 2) * 8 + 1 * r.val = 8 * t.val + r.val; omega
    | ⟨1, _⟩ => show win1_5.index t (1 : Fin 2) * 128 + 1 * q.val = q.val; omega
  refine (pay2_apply (iblk1 V c 0 t) (iblk1 V c 1 t) (iblk1 V c 2 t) (iblk1 V c 3 t) r q).trans ?_
  refine Eq.trans ?_ (congrArg (G5 V c) hR.symm)
  show _ = ∑ p : Fin 3200, A2 V c (blockRow (Spec.blockOf (sumRow t r)) p) q
  rw [blockOf_sumRow]
  exact Finset.sum_congr rfl fun p _ => pay1_block V c t p q

/-- What point t writes back to the second partial-sum array is block t of `G6`. -/
theorem flushed6_eq (c : Dev nD) (t : Fin cfg1.N) :
    (dat1 (F := Ideal) V c).flushed 6 t = ((cfg1.win 6).blk t).view.read (Elt Ideal) (G6 V c) := by
  show (cfg1.win 6).cut (grid1.coords t) ((dat1 (F := Ideal) V c).after 6 t) = _
  rw [after1_6]
  unfold out1_6
  rw [View.canon_unit_zero hz]
  simp only [View.ld_unit_zero (S := S3200x256) hz, View.ld_unit_zero (S := S1x256) hz, View.ld_unit_zero (S := S256x128) hz]
  obtain ⟨-, -, -, -, -, -, -, -, -, -, -, -, e60, e61⟩ := idx_facts t
  funext j
  obtain ⟨r, q, rfl⟩ : ∃ (r : Fin 8) (q : Fin 128), j = ix2 r q := ⟨j 0, j 1, eq_ix2 j⟩
  show k1_pay3 (F := Ideal) (iblk1 V c 0 t) (iblk1 V c 1 t) (iblk1 V c 2 t) (iblk1 V c 3 t) (ix2 r q)
    = G6 V c (((cfg1.win 6).blk t).view.emb (ix2 r q))
  have hR : ((cfg1.win 6).blk t).view.emb (ix2 r q) = ix2 (sumRow t r) q := by
    funext a; apply Fin.ext
    match a with
    | ⟨0, _⟩ => show win1_6.index t (0 : Fin 2) * 8 + 1 * r.val = 8 * t.val + r.val; omega
    | ⟨1, _⟩ => show win1_6.index t (1 : Fin 2) * 128 + 1 * q.val = q.val; omega
  refine (pay3_apply (iblk1 V c 0 t) (iblk1 V c 1 t) (iblk1 V c 2 t) (iblk1 V c 3 t) r q).trans ?_
  refine Eq.trans ?_ (congrArg (G6 V c) hR.symm)
  show _ = ∑ p : Fin 3200, A2 V c (blockRow (Spec.blockOf (sumRow t r)) p) q * A2 V c (blockRow (Spec.blockOf (sumRow t r)) p) q
  rw [blockOf_sumRow]
  exact Finset.sum_congr rfl fun p _ => congrArg₂ (· * ·) (pay1_block V c t p q) (pay1_block V c t p q)

/-- An index of a partial-sum array is in point t's block iff each coordinate is in the block's range on its axis. -/
theorem mem_blk5 (t : Fin cfg1.N) (i : S1000x128.Idx) :
    i ∈ ((cfg1.win 5).blk t).view.set ↔ ∀ a : Fin 2, win1_5.index t a * S8x128.size a ≤ (i a).val ∧ (i a).val < win1_5.index t a * S8x128.size a + S8x128.size a := by
  show i ∈ ((View.whole main_v65_1).slice (win1_5.rect t)).set ↔ _
  rw [View.set_slice_whole, Rect.mem_set_unit]
  exact Iff.rfl

theorem mem_blk6 (t : Fin cfg1.N) (i : S1000x128.Idx) :
    i ∈ ((cfg1.win 6).blk t).view.set ↔ ∀ a : Fin 2, win1_6.index t a * S8x128.size a ≤ (i a).val ∧ (i a).val < win1_6.index t a * S8x128.size a + S8x128.size a := by
  show i ∈ ((View.whole main_v65_2).slice (win1_6.rect t)).set ↔ _
  rw [View.set_slice_whole, Rect.mem_set_unit]
  exact Iff.rfl

/-- Row R lies in block R / 8: the 125 blocks of 8 rows fill a partial-sum array. -/
theorem cover5 (i : S1000x128.Idx) :
    ∃ t : Fin cfg1.N, (cfg1.win 5).flush t = true ∧ i ∈ ((cfg1.win 5).blk t).view.set := by
  have hi0 : (i 0).val < 1000 := (i 0).isLt
  have hi1 : (i 1).val < 128 := (i 1).isLt
  have hN : cfg1.N = 125 := N_1
  obtain ⟨t, ht⟩ : ∃ t : Fin cfg1.N, t.val = (i 0).val / 8 := ⟨⟨(i 0).val / 8, by rw [hN]; omega⟩, rfl⟩
  obtain ⟨-, -, -, -, -, -, -, -, -, -, e50, e51, -⟩ := idx_facts t
  refine ⟨t, flush1_5 t, ?_⟩
  rw [mem_blk5]
  intro a
  match a with
  | ⟨0, _⟩ => show win1_5.index t (0 : Fin 2) * 8 ≤ (i 0).val ∧ (i 0).val < win1_5.index t (0 : Fin 2) * 8 + 8; omega
  | ⟨1, _⟩ => show win1_5.index t (1 : Fin 2) * 128 ≤ (i 1).val ∧ (i 1).val < win1_5.index t (1 : Fin 2) * 128 + 128; omega

theorem cover6 (i : S1000x128.Idx) :
    ∃ t : Fin cfg1.N, (cfg1.win 6).flush t = true ∧ i ∈ ((cfg1.win 6).blk t).view.set := by
  have hi0 : (i 0).val < 1000 := (i 0).isLt
  have hi1 : (i 1).val < 128 := (i 1).isLt
  have hN : cfg1.N = 125 := N_1
  obtain ⟨t, ht⟩ : ∃ t : Fin cfg1.N, t.val = (i 0).val / 8 := ⟨⟨(i 0).val / 8, by rw [hN]; omega⟩, rfl⟩
  obtain ⟨-, -, -, -, -, -, -, -, -, -, -, -, e60, e61⟩ := idx_facts t
  refine ⟨t, flush1_6 t, ?_⟩
  rw [mem_blk6]
  intro a
  match a with
  | ⟨0, _⟩ => show win1_6.index t (0 : Fin 2) * 8 ≤ (i 0).val ∧ (i 0).val < win1_6.index t (0 : Fin 2) * 8 + 8; omega
  | ⟨1, _⟩ => show win1_6.index t (1 : Fin 2) * 128 ≤ (i 1).val ∧ (i 1).val < win1_6.index t (1 : Fin 2) * 128 + 128; omega

/-- The first partial-sum array after the region: row R holds the column sums of the product's block R / 8. -/
theorem final1_5 (c : Dev nD) (R : Fin 1000) (q : Fin 128) :
    (dat1 (F := Ideal) V c).arrAt 5 cfg1.N (ix2 R q) = Spec.blockColSum (A2 V c) R q := by
  rw [(dat1 (F := Ideal) V c).arrAt_eq_of_cover 5 (G5 V c) (fun t _ => flushed5_eq V c t) (cover5)]
  rfl

/-- The second partial-sum array after the region: row R holds the column sums of the squares of the product's block
    R / 8. -/
theorem final1_6 (c : Dev nD) (R : Fin 1000) (q : Fin 128) :
    (dat1 (F := Ideal) V c).arrAt 6 cfg1.N (ix2 R q) = Spec.blockColSum (Spec.sqr (A2 V c)) R q := by
  rw [(dat1 (F := Ideal) V c).arrAt_eq_of_cover 6 (G6 V c) (fun t _ => flushed6_eq V c t) (cover6)]
  rfl

end Cert.KernelIdeal.Region1

end
-- ==== Proof.Region2.lean ====
/-
  The third kernel's output array, entry by entry.

  The region reads a 400000 x 128 array x, a 1 x 128 scale s and a 1 x 128 shift h, in 125 blocks of 3200 rows; at each
  block it stores max (x * s + h, 0), the scale and the shift repeated down the rows.  A block's rows are rows
  3200 t, ..., 3200 t + 3199 of the array, and the 125 blocks fill it, so after the region entry (p, q) of the output
  array is max (x(p, q) * s(q) + h(q), 0), whatever the arrays held when the region was entered.
-/
import proofs.«168283_j50869592655480_2_alg».proof.Proof.Gen.KernelIdeal.Frame
import proofs.«168283_j50869592655480_2_alg».proof.Proof.Spec
import proofs.«168283_j50869592655480_2_alg».proof.Proof.LibRank2
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The body's arithmetic at one entry of a block -/

/-- Entry (r, q) of the block the body stores: the input block's entry (r, q) times the scale's entry q plus the
    shift's entry q, clamped below at 0. -/
theorem pay_apply (x0 : Vec Ideal S3200x128 .f32) (x1 x2 : Vec Ideal S1x128 .f32) (r : Fin 3200) (q : Fin 128) :
    k2_pay1 (F := Ideal) x0 x1 x2 (ix2 r q)
      = max (x0 (ix2 r q) * x1 (ix2 (0 : Fin 1) q) + x2 (ix2 (0 : Fin 1) q)) 0 := by
  unfold k2_pay1
  rw [maximumf_apply, addf_apply, mulf_apply, broadcast_apply, shapeCast_self,
    Cert.Rank2.rowBias_vec_apply, Cert.Rank2.rowBias_vec_apply]
  show max _ (Ideal.ofBits .f32 0x00000000#32) = _
  rw [Ideal.ofBits_zero_f32]

/-- The same at an index not yet split into its coordinates. -/
theorem pay_block (x0 : Vec Ideal S3200x128 .f32) (x1 x2 : Vec Ideal S1x128 .f32) (j : S3200x128.Idx) :
    k2_pay1 (F := Ideal) x0 x1 x2 j
      = max (x0 j * x1 (ix2 (0 : Fin 1) (j 1)) + x2 (ix2 (0 : Fin 1) (j 1))) 0 := by
  obtain ⟨r, q, rfl⟩ : ∃ (r : Fin 3200) (q : Fin 128), j = ix2 r q := ⟨j 0, j 1, eq_ix2 j⟩
  exact pay_apply x0 x1 x2 r q

/-! ## From blocks to the array -/

/-- A block is stored, and every input block is read, from its first entry on. -/
theorem hz : (![0, 0] : Fin 2 → Nat) = fun _ => 0 := funext fun a => by fin_cases a <;> rfl

/-- The three arrays the region reads, as it finds them. -/
abbrev X (c : Dev nD) : S400000x128.Idx → EReal := V c main_v65_0
abbrev SC (c : Dev nD) : S1x128.Idx → EReal := V c main_v84
abbrev SH (c : Dev nD) : S1x128.Idx → EReal := V c main_v87

/-- The whole output array as one function of the arrays the region finds: scale, shift, clamp, entry by entry. -/
def G (c : Dev nD) : S400000x128.Idx → EReal := fun i =>
  Spec.affRelu (mat (X V c)) (row (SC V c)) (row (SH V c)) (i 0) (i 1)

/-- `G` at an index: the scale and the shift are read at the index's column. -/
theorem G_apply (c : Dev nD) (i : S400000x128.Idx) :
    G V c i = max (X V c i * SC V c (ix2 (0 : Fin 1) (i 1)) + SH V c (ix2 (0 : Fin 1) (i 1))) 0 := by
  exact congrArg (fun z => max (X V c z * SC V c (ix2 (0 : Fin 1) (i 1)) + SH V c (ix2 (0 : Fin 1) (i 1))) 0) (eq_ix2 i).symm

/-- Block t of the row-blocked windows starts at row 3200 t; the scale and the shift are read whole at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of `G`. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S3200x128) hz, View.ld_unit_zero (S := S1x128) hz]
  obtain ⟨e00, e01, e10, e11, e20, e21, e30, e31⟩ := idx_facts t
  funext j
  show k2_pay1 (F := Ideal) (iblk2 V c 0 t) (iblk2 V c 1 t) (iblk2 V c 2 t) j = G V c (((cfg2.win 3).blk t).view.emb j)
  refine (pay_block _ _ _ j).trans ?_
  rw [G_apply]
  show max (X V c (((cfg2.win 0).blk t).view.emb j)
        * SC V c (((cfg2.win 1).blk t).view.emb (ix2 (0 : Fin 1) (j 1)))
        + SH V c (((cfg2.win 2).blk t).view.emb (ix2 (0 : Fin 1) (j 1)))) 0
      = max (X V c (((cfg2.win 3).blk t).view.emb j)
        * SC V c (ix2 (0 : Fin 1) ((((cfg2.win 3).blk t).view.emb j) 1))
        + SH V c (ix2 (0 : Fin 1) ((((cfg2.win 3).blk t).view.emb j) 1))) 0
  have hj0 : (j 0).val < 3200 := (j 0).isLt
  have hj1 : (j 1).val < 128 := (j 1).isLt
  have h0 : ((cfg2.win 0).blk t).view.emb j = ((cfg2.win 3).blk t).view.emb j := by
    funext a; apply Fin.ext
    match a with
    | ⟨0, _⟩ => show win2_0.index t (0 : Fin 2) * 3200 + 1 * (j 0).val = win2_3.index t (0 : Fin 2) * 3200 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb (ix2 (0 : Fin 1) (j 1)) = ix2 (0 : Fin 1) ((((cfg2.win 3).blk t).view.emb j) 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_3.index t (1 : Fin 2) * 128 + 1 * (j 1).val; omega
  have h2 : ((cfg2.win 2).blk t).view.emb (ix2 (0 : Fin 1) (j 1)) = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  rw [h0, h1, h2]
  rfl

/-- An index of the array is in point t's block iff each coordinate is in the block's range on its axis. -/
theorem mem_blk (t : Fin cfg2.N) (i : S400000x128.Idx) :
    i ∈ ((cfg2.win 3).blk t).view.set ↔ ∀ a : Fin 2, win2_3.index t a * S3200x128.size a ≤ (i a).val ∧ (i a).val < win2_3.index t a * S3200x128.size a + S3200x128.size a := by
  show i ∈ ((View.whole main_v88).slice (win2_3.rect t)).set ↔ _
  rw [View.set_slice_whole, Rect.mem_set_unit]
  exact Iff.rfl

/-- Row p lies in block p / 3200: the 125 blocks of 3200 rows fill the array. -/
theorem cover (i : S400000x128.Idx) :
    ∃ t : Fin cfg2.N, (cfg2.win 3).flush t = true ∧ i ∈ ((cfg2.win 3).blk t).view.set := by
  have hi0 : (i 0).val < 400000 := (i 0).isLt
  have hi1 : (i 1).val < 128 := (i 1).isLt
  have hN : cfg2.N = 125 := N_2
  obtain ⟨t, ht⟩ : ∃ t : Fin cfg2.N, t.val = (i 0).val / 3200 := ⟨⟨(i 0).val / 3200, by rw [hN]; omega⟩, rfl⟩
  obtain ⟨-, -, -, -, -, -, e30, e31⟩ := idx_facts t
  refine ⟨t, flush2_3 t, ?_⟩
  rw [mem_blk]
  intro a
  match a with
  | ⟨0, _⟩ => show win2_3.index t (0 : Fin 2) * 3200 ≤ (i 0).val ∧ (i 0).val < win2_3.index t (0 : Fin 2) * 3200 + 3200; omega
  | ⟨1, _⟩ => show win2_3.index t (1 : Fin 2) * 128 ≤ (i 1).val ∧ (i 1).val < win2_3.index t (1 : Fin 2) * 128 + 128; omega

/-- The output array after the region: every entry is its input entry scaled, shifted and clamped at 0. -/
theorem final2_3 (c : Dev nD) (p : Fin 400000) (q : Fin 128) :
    (dat2 (F := Ideal) V c).arrAt 3 cfg2.N (ix2 p q)
      = Spec.affRelu (mat (V c main_v65_0 : S400000x128.Idx → EReal)) (row (V c main_v84 : S1x128.Idx → EReal))
          (row (V c main_v87 : S1x128.Idx → EReal)) p q := by
  rw [(dat2 (F := Ideal) V c).arrAt_eq_of_cover 3 (G V c) (fun t _ => flushed_eq V c t) (cover)]
  rfl

end Cert.KernelIdeal.Region2
end
-- ==== Proof.HostStretch0W.lean ====
/-
  The first stretch of host operations, read at the small arrays the first region takes: the weight matrices, the
  bias row, the (1 + eps) row and the second weight matrix.

  Each is a short composition of layout steps on one argument: the two 256-row halves of the 512-row weight matrix
  (the lower half, and the sum of the halves), a change of float format (the identity at the exact values), a vector
  laid out as a row, and a number (1 + eps) spread over a row.  First over an arbitrary valuation of the buffers, then
  at the launch contents.
-/
import proofs.«168283_j50869592655480_2_alg».proof.Proof.Gen.KernelIdeal.Frame
import Idealize.ShloMosaic.PureOps.Ideal
import Idealize.ShloMosaic.Lib.StableHlo.Run
import Idealize.ShloMosaic.Lib.ValueLayout
import Idealize.ShloMosaic.Lib.IdealHost
import Idealize.ShloMosaic.Lib.Pipeline.Value
import proofs.«168283_j50869592655480_2_alg».proof.Proof.Spec

set_option maxRecDepth 16384

noncomputable section

namespace Cert.KernelIdeal.HostValue

open Cert.KernelIdeal Cert.KernelIdeal.Gen Cert.Spec
open Idealize.ShloMosaic Idealize.ShloMosaic.TcCoe Idealize.ShloMosaic.ValueIdx
open scoped BigOperators

variable (m : (ℓ : Loc nD τ sig) → Buf (Elt Ideal) ℓ) (ρ : Dev nD → PrngReg)

/-! ## The two halves of a 512-row matrix -/

/-- The lower half (rows 256 to 511), after a change of float format, at (k, j). -/
theorem lowerHalf_apply (x : FVec Ideal ⟨2, ![512, 128]⟩ .f32)
    (h1 : (⟨2, ![512, 128]⟩ : Shape).Slices ![256, 0] ⟨2, ![256, 128]⟩) (hb : FTy.bf16.bits < FTy.f32.bits)
    (k : Fin 256) (j : Fin 128) :
    truncf .bf16 (extractStridedSlice ⟨2, ![256, 128]⟩ ![256, 0] x h1) hb (ix2 k j) = Spec.wBot (mat x) k j := by
  rw [truncf_apply, slice2_axis0_apply 256 x h1 k j ⟨k.val + 256, by have := k.isLt; omega⟩ (Nat.add_comm _ _)]
  rfl

/-- The sum of the upper and the lower half, after a change of float format, at (k, j). -/
theorem halvesSum_apply (x : FVec Ideal ⟨2, ![512, 128]⟩ .f32)
    (h0 : (⟨2, ![512, 128]⟩ : Shape).Slices ![0, 0] ⟨2, ![256, 128]⟩)
    (h1 : (⟨2, ![512, 128]⟩ : Shape).Slices ![256, 0] ⟨2, ![256, 128]⟩) (hb : FTy.bf16.bits < FTy.f32.bits)
    (k : Fin 256) (j : Fin 128) :
    truncf .bf16 (addf (extractStridedSlice ⟨2, ![256, 128]⟩ ![0, 0] x h0)
      (extractStridedSlice ⟨2, ![256, 128]⟩ ![256, 0] x h1)) hb (ix2 k j) = Spec.wSum (mat x) k j := by
  rw [truncf_apply, addf_apply,
    slice2_axis0_apply 0 x h0 k j ⟨k.val, by have := k.isLt; omega⟩ (Nat.zero_add _).symm,
    slice2_axis0_apply 256 x h1 k j ⟨k.val + 256, by have := k.isLt; omega⟩ (Nat.add_comm _ _)]
  rfl

/-! ## Over an arbitrary valuation -/

open Idealize.ShloMosaic.StableHlo in
set_option maxHeartbeats 2000000 in
/-- The sum of the two halves of the weight matrix. -/
theorem stretch0_v34 (W : Valuation τ sig (Elt Ideal)) (k : Fin 256) (j : Fin 128) :
    StableHlo.after (hostOps0 (F := Ideal)) W (Proc.devRef .tc main_v34) (ix2 k j)
      = Spec.wSum (mat (W (Proc.devRef .tc main_arg2))) k j := by
  after_results_simp
  exact halvesSum_apply (W (Proc.devRef .tc main_arg2)) slices_S512x128_S256x128_0_0 slices_S512x128_S256x128_256_0
    bitsLt_bf16_f32 k j

open Idealize.ShloMosaic.StableHlo in
set_option maxHeartbeats 2000000 in
/-- The lower half of the weight matrix. -/
theorem stretch0_v35 (W : Valuation τ sig (Elt Ideal)) (k : Fin 256) (j : Fin 128) :
    StableHlo.after (hostOps0 (F := Ideal)) W (Proc.devRef .tc main_v35) (ix2 k j)
      = Spec.wBot (mat (W (Proc.devRef .tc main_arg2))) k j := by
  after_results_simp
  exact lowerHalf_apply (W (Proc.devRef .tc main_arg2)) slices_S512x128_S256x128_256_0 bitsLt_bf16_f32 k j

open Idealize.ShloMosaic.StableHlo in
set_option maxHeartbeats 2000000 in
/-- The bias vector laid out as a row. -/
theorem stretch0_v38 (W : Valuation τ sig (Elt Ideal)) (j : Fin 128) :
    StableHlo.after (hostOps0 (F := Ideal)) W (Proc.devRef .tc main_v38) (ix2 (0 : Fin 1) j)
      = W (Proc.devRef .tc main_arg3) (ix1 j) := by
  after_results_simp
  exact shapeCast_a_1a_apply (W (Proc.devRef .tc main_arg3)) shapeCasts_S128_S1x128 (0 : Fin 1) j

/-- A number cast to a 1 x 1 array and spread over a 1 x n row reads the number everywhere. -/
theorem splat11_apply {α : Type} {n : ℕ} (x : (⟨0, ![]⟩ : Shape).Idx → α)
    (hc : (⟨0, ![]⟩ : Shape).ShapeCasts ⟨2, ![1, 1]⟩)
    (hb : (⟨2, ![1, 1]⟩ : Shape).BroadcastsInDim ⟨2, ![1, n]⟩ (![0, 1] : Fin 2 → Fin 2)) (j : Fin n) :
    broadcastInDim ⟨2, ![1, n]⟩ ![0, 1] hb (fun i => shapeCast ⟨2, ![1, 1]⟩ x hc i) (ix2 (0 : Fin 1) j) = x ix0 := by
  refine (broadcastInDim_apply ![0, 1] hb _ (ix2 (0 : Fin 1) j) (ix2 (0 : Fin 1) (0 : Fin 1)) fun a => ?_).trans ?_
  · match a with
    | ⟨0, _⟩ => show (0 : ℕ) = if (1 : ℕ) = 1 then 0 else _; rw [if_pos rfl]
    | ⟨1, _⟩ => show (0 : ℕ) = if (1 : ℕ) = 1 then 0 else _; rw [if_pos rfl]
  · show shapeCast ⟨2, ![1, 1]⟩ x hc (ix2 (0 : Fin 1) (0 : Fin 1)) = x ix0
    unfold shapeCast
    exact congrArg x (eq_ix0 _)

open Idealize.ShloMosaic.StableHlo in
set_option maxHeartbeats 2000000 in
/-- The (1 + eps) row. -/
theorem stretch0_v41 (W : Valuation τ sig (Elt Ideal)) (j : Fin 128) :
    StableHlo.after (hostOps0 (F := Ideal)) W (Proc.devRef .tc main_v41) (ix2 (0 : Fin 1) j)
      = Spec.c1 + Spec.scal (W (Proc.devRef .tc main_arg4)) := by
  after_results_simp
  refine (splat11_apply (addf (constant (F := Ideal) S_ .f32 0x3F800000#32) (W (Proc.devRef .tc main_arg4)))
    shapeCasts_S_S1x1 bcast_S1x1_S1x128_0_1 j).trans ?_
  rfl

open Idealize.ShloMosaic.StableHlo in
set_option maxHeartbeats 2000000 in
/-- The second weight matrix: a change of float format of the sixth argument. -/
theorem stretch0_v36 (W : Valuation τ sig (Elt Ideal)) (k : Fin 128) (q : Fin 256) :
    StableHlo.after (hostOps0 (F := Ideal)) W (Proc.devRef .tc main_v36) (ix2 k q)
      = W (Proc.devRef .tc main_arg5) (ix2 k q) := by
  after_results_simp
  rfl

/-! ## At the launch contents -/

theorem V1_v34 (c : Dev nD) (k : Fin 256) (j : Fin 128) :
    V1 m ρ c main_v34 (ix2 k j) = Spec.wSum (mat (m ((c.tc : Thread nD τ).loc main_arg2))) k j :=
  stretch0_v34 (W0 m ρ c) k j

theorem V1_v35 (c : Dev nD) (k : Fin 256) (j : Fin 128) :
    V1 m ρ c main_v35 (ix2 k j) = Spec.wBot (mat (m ((c.tc : Thread nD τ).loc main_arg2))) k j :=
  stretch0_v35 (W0 m ρ c) k j

theorem V1_v38 (c : Dev nD) (j : Fin 128) :
    V1 m ρ c main_v38 (ix2 (0 : Fin 1) j) = m ((c.tc : Thread nD τ).loc main_arg3) (ix1 j) :=
  stretch0_v38 (W0 m ρ c) j

theorem V1_v41 (c : Dev nD) (j : Fin 128) :
    V1 m ρ c main_v41 (ix2 (0 : Fin 1) j) = Spec.c1 + Spec.scal (m ((c.tc : Thread nD τ).loc main_arg4)) :=
  stretch0_v41 (W0 m ρ c) j

theorem V1_v36 (c : Dev nD) (k : Fin 128) (q : Fin 256) :
    V1 m ρ c main_v36 (ix2 k q) = m ((c.tc : Thread nD τ).loc main_arg5) (ix2 k q) :=
  stretch0_v36 (W0 m ρ c) k q

end Cert.KernelIdeal.HostValue

end
-- ==== Proof.HostStretch0C.lean ====
/-
  The first stretch of host operations, read at the two big arrays the first region takes.

  Both are built from the edge features (400000 x 128) and the edge list (200000 x 2, flattened to 400000 endpoints)
  by a chain of host operations: segment sums of the features by endpoint (a scatter-add into 50000 rows from zero,
  gathered back at the endpoints, negative endpoints wrapped by 50000), the partner-row swap (pairs of rows
  reversed), the two joined side by side into 256 columns, and the same two steps once more on the joined array.
  The chain's terms are named here exactly as the stretch composes its operations; the scatter, the gather and the
  reversal are never opened.  What the first region finds in its first two buffers are these terms at the launch
  contents of the first two arguments (the change of float format in between is the identity at the exact values).
-/
import proofs.«168283_j50869592655480_2_alg».proof.Proof.Gen.KernelIdeal.Frame
import Idealize.ShloMosaic.PureOps.Ideal
import Idealize.ShloMosaic.Lib.StableHlo.Run
import proofs.«168283_j50869592655480_2_alg».proof.Proof.Spec

set_option maxRecDepth 16384

noncomputable section

namespace Cert.KernelIdeal.HostValue

open Cert.KernelIdeal Cert.KernelIdeal.Gen Cert.Spec
open Idealize.ShloMosaic Idealize.ShloMosaic.TcCoe Idealize.ShloMosaic.ValueIdx
open scoped BigOperators

variable (m : (ℓ : Loc nD τ sig) → Buf (Elt Ideal) ℓ) (ρ : Dev nD → PrngReg)

/-! ## The chain's terms -/

/-- The edge list flattened to its 400000 endpoints. -/
def edgeIdx (a1 : (⟨S200000x2, .i32⟩ : BufTy).Contents (Elt Ideal)) : (⟨S400000, .i32⟩ : BufTy).Contents (Elt Ideal) :=
  fun i => shapeCast S400000 a1 shapeCasts_S200000x2_S400000 i

/-- The endpoints with a negative one wrapped by 50000. -/
def wrapIdx (a1 : (⟨S200000x2, .i32⟩ : BufTy).Contents (Elt Ideal)) : (⟨S400000, .i32⟩ : BufTy).Contents (Elt Ideal) :=
  select
    (cmpi .slt (edgeIdx a1) (broadcastInDim S400000 ![] bcast_S_S400000 (constantI S_ 32 0#32)))
    (addi (edgeIdx a1) (broadcastInDim S400000 ![] bcast_S_S400000 (constantI S_ 32 50000#32)))
    (edgeIdx a1)

/-- Segment sums of the features by endpoint, gathered back at the endpoints (128 columns). -/
def seg128 (a0 : (⟨S400000x128, .f32⟩ : BufTy).Contents (Elt Ideal)) (a1 : (⟨S200000x2, .i32⟩ : BufTy).Contents (Elt Ideal)) :
    (⟨S400000x128, .f32⟩ : BufTy).Contents (Elt Ideal) :=
  Host.gather gather_S50000x128_S400000x1_S400000x128_1_0_n_n_0_1_1128
    (Host.scatterAdd scatter_S50000x128_S400000x1_S400000x128_1_0_0_1
      (broadcastInDim S50000x128 ![] bcast_S_S50000x128 (constant (F := Ideal) S_ .f32 0x00000000#32))
      (broadcastInDim S400000x1 ![0] bcast_S400000_S400000x1_0 (edgeIdx a1))
      a0)
    (broadcastInDim S400000x1 ![0] bcast_S400000_S400000x1_0 (wrapIdx a1))

/-- The partner-row swap of the features: rows taken in pairs, each pair reversed (128 columns). -/
def swap128 (a0 : (⟨S400000x128, .f32⟩ : BufTy).Contents (Elt Ideal)) : (⟨S400000x128, .f32⟩ : BufTy).Contents (Elt Ideal) :=
  fun i => shapeCast S400000x128
    (Host.reverse [1] (fun i => shapeCast S200000x2x128 a0 shapeCasts_S400000x128_S200000x2x128 i))
    shapeCasts_S200000x2x128_S400000x128 i

/-- The segment sums and, beside them, the segment sums plus the swap (256 columns). -/
def cat256 (a0 : (⟨S400000x128, .f32⟩ : BufTy).Contents (Elt Ideal)) (a1 : (⟨S200000x2, .i32⟩ : BufTy).Contents (Elt Ideal)) :
    (⟨S400000x256, .f32⟩ : BufTy).Contents (Elt Ideal) :=
  concatenate S400000x256 1 [⟨S400000x128, seg128 a0 a1⟩, ⟨S400000x128, addf (F := Ideal) (s := S400000x128) (φ := .f32) (seg128 a0 a1) (swap128 a0)⟩]
    concatenates_S400000x128_S400000x128_S400000x256_d1

/-- The first big array: segment sums of the joined array, gathered back at the endpoints. -/
def chainP (a0 : (⟨S400000x128, .f32⟩ : BufTy).Contents (Elt Ideal)) (a1 : (⟨S200000x2, .i32⟩ : BufTy).Contents (Elt Ideal)) :
    (⟨S400000x256, .f32⟩ : BufTy).Contents (Elt Ideal) :=
  Host.gather gather_S50000x256_S400000x1_S400000x256_1_0_n_n_0_1_1256
    (Host.scatterAdd scatter_S50000x256_S400000x1_S400000x256_1_0_0_1
      (broadcastInDim S50000x256 ![] bcast_S_S50000x256 (constant (F := Ideal) S_ .f32 0x00000000#32))
      (broadcastInDim S400000x1 ![0] bcast_S400000_S400000x1_0 (edgeIdx a1))
      (cat256 a0 a1))
    (broadcastInDim S400000x1 ![0] bcast_S400000_S400000x1_0 (wrapIdx a1))

/-- The second big array: the partner-row swap of the joined array. -/
def chainQ (a0 : (⟨S400000x128, .f32⟩ : BufTy).Contents (Elt Ideal)) (a1 : (⟨S200000x2, .i32⟩ : BufTy).Contents (Elt Ideal)) :
    (⟨S400000x256, .f32⟩ : BufTy).Contents (Elt Ideal) :=
  fun i => shapeCast S400000x256
    (Host.reverse [1] (fun i => shapeCast S200000x2x256 (cat256 a0 a1) shapeCasts_S400000x256_S200000x2x256 i))
    shapeCasts_S200000x2x256_S400000x256 i

/-! ## Reading a line of operations in two pieces -/

/-- What the buffers hold after a line of operations is what they hold after its tail, started from what they hold
    after its head. -/
theorem after_take_drop {Val : EltTy → Type} (n : ℕ) :
    ∀ (ops : List (HloOp τ sig Val)) (V : Valuation τ sig Val),
      StableHlo.after ops V = StableHlo.after (ops.drop n) (StableHlo.after (ops.take n) V) := by
  induction n with
  | zero => intro ops V; rfl
  | succ n ih =>
    intro ops V
    cases ops with
    | nil => rfl
    | cons op ops => exact ih ops (op.result V)

/-! ## The head of the stretch (its first 18 operations), over an arbitrary valuation -/

open Idealize.ShloMosaic.StableHlo in
set_option maxHeartbeats 4000000 in
theorem head_v10 (W : Valuation τ sig (Elt Ideal)) :
    StableHlo.after (List.take 18 (hostOps0 (F := Ideal))) W (Proc.devRef .tc main_v10)
      = seg128 (W (Proc.devRef .tc main_arg0)) (W (Proc.devRef .tc main_arg1)) := by
  simp only [List.take_succ_cons, List.take_zero]
  after_results_simp
  rfl

open Idealize.ShloMosaic.StableHlo in
set_option maxHeartbeats 4000000 in
theorem head_v14 (W : Valuation τ sig (Elt Ideal)) :
    StableHlo.after (List.take 18 (hostOps0 (F := Ideal))) W (Proc.devRef .tc main_v14)
      = addf (F := Ideal) (s := S400000x128) (φ := .f32) (seg128 (W (Proc.devRef .tc main_arg0)) (W (Proc.devRef .tc main_arg1)))
          (swap128 (W (Proc.devRef .tc main_arg0))) := by
  simp only [List.take_succ_cons, List.take_zero]
  after_results_simp
  rfl

open Idealize.ShloMosaic.StableHlo in
set_option maxHeartbeats 4000000 in
/-- The joined array after the first 19 operations. -/
theorem head_v15 (W : Valuation τ sig (Elt Ideal)) :
    StableHlo.after (List.take 19 (hostOps0 (F := Ideal))) W (Proc.devRef .tc main_v15)
      = cat256 (W (Proc.devRef .tc main_arg0)) (W (Proc.devRef .tc main_arg1)) := by
  simp only [List.take_succ_cons, List.take_zero]
  after_results_simp
  exact congrArg₂ (fun a b => concatenate S400000x256 1 [⟨S400000x128, a⟩, ⟨S400000x128, b⟩]
    concatenates_S400000x128_S400000x128_S400000x256_d1) (head_v10 W) (head_v14 W)

open Idealize.ShloMosaic.StableHlo in
set_option maxHeartbeats 4000000 in
/-- The flattened edge list after the first 19 operations. -/
theorem head_v0 (W : Valuation τ sig (Elt Ideal)) :
    StableHlo.after (List.take 19 (hostOps0 (F := Ideal))) W (Proc.devRef .tc main_v0)
      = edgeIdx (W (Proc.devRef .tc main_arg1)) := by
  simp only [List.take_succ_cons, List.take_zero]
  after_results_simp
  rfl

/-! ## The whole stretch, over an arbitrary valuation -/

open Idealize.ShloMosaic.StableHlo in
set_option maxHeartbeats 4000000 in
theorem stretch0_v29 (W : Valuation τ sig (Elt Ideal)) :
    StableHlo.after (hostOps0 (F := Ideal)) W (Proc.devRef .tc main_v29)
      = chainP (W (Proc.devRef .tc main_arg0)) (W (Proc.devRef .tc main_arg1)) := by
  refine (congrFun (after_take_drop 19 (hostOps0 (F := Ideal)) W) (Proc.devRef .tc main_v29)).trans ?_
  have h15 := head_v15 W
  have h0 := head_v0 W
  generalize StableHlo.after (List.take 19 (hostOps0 (F := Ideal))) W = W' at h15 h0 ⊢
  simp only [List.drop_succ_cons, List.drop_zero]
  after_results_simp
  rw [h15, h0]
  rfl

open Idealize.ShloMosaic.StableHlo in
set_option maxHeartbeats 4000000 in
theorem stretch0_v30 (W : Valuation τ sig (Elt Ideal)) :
    StableHlo.after (hostOps0 (F := Ideal)) W (Proc.devRef .tc main_v30)
      = chainQ (W (Proc.devRef .tc main_arg0)) (W (Proc.devRef .tc main_arg1)) := by
  refine (congrFun (after_take_drop 19 (hostOps0 (F := Ideal)) W) (Proc.devRef .tc main_v30)).trans ?_
  have h15 := head_v15 W
  generalize StableHlo.after (List.take 19 (hostOps0 (F := Ideal))) W = W' at h15 ⊢
  simp only [List.drop_succ_cons, List.drop_zero]
  after_results_simp
  rw [h15]
  rfl

/-! ## At the launch contents -/

/-- The first region's first big array. -/
theorem V1_v29 (c : Dev nD) :
    V1 m ρ c main_v29 = chainP (m ((c.tc : Thread nD τ).loc main_arg0)) (m ((c.tc : Thread nD τ).loc main_arg1)) :=
  stretch0_v29 (W0 m ρ c)

/-- The first region's second big array. -/
theorem V1_v30 (c : Dev nD) :
    V1 m ρ c main_v30 = chainQ (m ((c.tc : Thread nD τ).loc main_arg0)) (m ((c.tc : Thread nD τ).loc main_arg1)) :=
  stretch0_v30 (W0 m ρ c)

end Cert.KernelIdeal.HostValue

end
-- ==== Proof.HostStats.lean ====
/-
  Column statistics from two 1000-row partial-sum arrays, as a stretch of host operations computes them, read at a
  column.

  The stretch sums each array down its rows from the zero pattern, lays the sums out as a row, and divides the row by 8
  and by 400000 (the column's mean, and the mean of the squares); the variance is the second minus the square of the
  first; the scale is the weight row times the reciprocal square root of the variance plus epsilon; the shift is the
  bias row minus mean times scale.  The arrays, the weights and the shape facts are variables here, and the number of
  columns is any N; the terms below are the host operations composed exactly as the stretch composes them, and each
  lemma says what such a term holds at column j.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«168283_j50869592655480_2_alg».proof.Proof.Spec

noncomputable section

namespace Cert.KernelIdeal.HostValue

open Cert.Spec
open Idealize.ShloMosaic Idealize.ShloMosaic.ValueIdx
open scoped BigOperators

/-- The host's sum down the rows from the zero pattern, at column j: the sum of the column's entries. -/
theorem hostColSum_apply {N : ℕ} (x : FVec Ideal ⟨2, ![1000, N]⟩ .f32)
    (hr : (⟨2, ![1000, N]⟩ : Shape).ReducesTo [0] ⟨1, ![N]⟩) (hu : 0 < (⟨0, ![]⟩ : Shape).numel) (j : Fin N) :
    Host.reduceAdd x (constant (F := Ideal) ⟨0, ![]⟩ .f32 0x00000000#32) hr hu (ix1 j) = ∑ R : Fin 1000, x (ix2 R j) := by
  have h : (⟨2, ![1000, N]⟩ : Shape).Reduces [0] ⟨1, ![N]⟩ := by
    obtain ⟨h1, h2⟩ := hr
    exact ⟨h1, Nat.one_pos, h2⟩
  rw [hostReduceAdd_apply, Ideal.hostReduceAdd_single hr h]
  rw [show constant (F := Ideal) ⟨0, ![]⟩ .f32 0x00000000#32 (Shape.Idx.first hu) = 0 from Ideal.ofBits_zero_f32, zero_add]
  exact Finset.sum_congr rfl fun p _ => congrArg x (funext fun d => Fin.ext (by
    match d with
    | ⟨0, _⟩ => rfl
    | ⟨1, _⟩ => rfl))

/-- A vector of N entries laid out as a 1 x N row by a broadcast along a new leading axis: entry (0, j) is entry j. -/
theorem rowBroadcast_apply {α : Type} {N : ℕ} (v : (⟨1, ![N]⟩ : Shape).Idx → α)
    (hb : (⟨1, ![N]⟩ : Shape).BroadcastsInDim ⟨2, ![1, N]⟩ (![1] : Fin 1 → Fin 2)) (j : Fin N) :
    broadcastInDim ⟨2, ![1, N]⟩ ![1] hb v (ix2 (0 : Fin 1) j) = v (ix1 j) := by
  refine broadcastInDim_apply ![1] hb v (ix2 (0 : Fin 1) j) (ix1 j) fun a => ?_
  match a with
  | ⟨0, _⟩ =>
    show j.val = if N = 1 then 0 else j.val
    split
    · have := j.isLt; omega
    · rfl

section Chain

variable {N : ℕ}
  (hc : (⟨1, ![N]⟩ : Shape).ShapeCasts ⟨2, ![1, N]⟩)
  (hr : (⟨2, ![1000, N]⟩ : Shape).ReducesTo [0] ⟨1, ![N]⟩) (hu : 0 < (⟨0, ![]⟩ : Shape).numel)
  (hb : (⟨1, ![N]⟩ : Shape).BroadcastsInDim ⟨2, ![1, N]⟩ (![1] : Fin 1 → Fin 2))
  (hs : (⟨0, ![]⟩ : Shape).BroadcastsInDim ⟨2, ![1, N]⟩ (![] : Fin 0 → Fin 2))

/-- A number spread over a 1 x N row. -/
def splatRow (b : BitVec 32) : FVec Ideal ⟨2, ![1, N]⟩ .f32 :=
  broadcastInDim ⟨2, ![1, N]⟩ ![] hs (constant (F := Ideal) ⟨0, ![]⟩ .f32 b)

/-- The row of column means of a partial-sum array: the sum down the rows, divided by 8, divided by 400000. -/
def meanRow (x : FVec Ideal ⟨2, ![1000, N]⟩ .f32) : FVec Ideal ⟨2, ![1, N]⟩ .f32 :=
  Host.divf
    (Host.divf
      (broadcastInDim ⟨2, ![1, N]⟩ ![1] hb
        (Host.reduceAdd x (constant (F := Ideal) ⟨0, ![]⟩ .f32 0x00000000#32) hr hu))
      (splatRow hs 0x41000000#32))
    (splatRow hs 0x48C35000#32)

/-- The row of column variances: the mean of the squares minus the square of the mean. -/
def varRow (s q : FVec Ideal ⟨2, ![1000, N]⟩ .f32) : FVec Ideal ⟨2, ![1, N]⟩ .f32 :=
  subf (meanRow hr hu hb hs q) (mulf (meanRow hr hu hb hs s) (meanRow hr hu hb hs s))

/-- The row of scales: the weights, as a row, times the reciprocal square root of variance plus epsilon. -/
def scaleRow (s q : FVec Ideal ⟨2, ![1000, N]⟩ .f32) (g : FVec Ideal ⟨1, ![N]⟩ .f32) : FVec Ideal ⟨2, ![1, N]⟩ .f32 :=
  mulf (fun i => shapeCast ⟨2, ![1, N]⟩ g hc i)
    (Host.rsqrt (addf (varRow hr hu hb hs s q) (splatRow hs 0x3727C5AC#32)))

/-- The row of shifts: the biases, as a row, minus mean times scale. -/
def shiftRow (s q : FVec Ideal ⟨2, ![1000, N]⟩ .f32) (g b : FVec Ideal ⟨1, ![N]⟩ .f32) : FVec Ideal ⟨2, ![1, N]⟩ .f32 :=
  subf (fun i => shapeCast ⟨2, ![1, N]⟩ b hc i)
    (mulf (meanRow hr hu hb hs s) (scaleRow hc hr hu hb hs s q g))

theorem splatRow_apply (b : BitVec 32) (j : Fin N) : splatRow hs b (ix2 (0 : Fin 1) j) = Ideal.ofBits .f32 b := by
  unfold splatRow
  rw [broadcastInDim_scalar_apply]
  rfl

theorem meanRow_apply (x : FVec Ideal ⟨2, ![1000, N]⟩ .f32) (j : Fin N) :
    meanRow hr hu hb hs x (ix2 (0 : Fin 1) j) = kMean (mat x) j := by
  unfold meanRow kMean
  rw [hostDivf_apply, hostDivf_apply, splatRow_apply, splatRow_apply, rowBroadcast_apply, hostColSum_apply]
  rfl

theorem varRow_apply (s q : FVec Ideal ⟨2, ![1000, N]⟩ .f32) (j : Fin N) :
    varRow hr hu hb hs s q (ix2 (0 : Fin 1) j) = kVar (mat s) (mat q) j := by
  unfold varRow
  rw [subf_apply, mulf_apply, meanRow_apply, meanRow_apply]
  rfl

theorem scaleRow_apply (s q : FVec Ideal ⟨2, ![1000, N]⟩ .f32) (g : FVec Ideal ⟨1, ![N]⟩ .f32) (j : Fin N) :
    scaleRow hc hr hu hb hs s q g (ix2 (0 : Fin 1) j) = kScale (mat s) (mat q) (vec g) j := by
  unfold scaleRow
  rw [mulf_apply]
  show shapeCast ⟨2, ![1, N]⟩ g hc (ix2 (0 : Fin 1) j)
      * Ideal.rsqrt (addf (varRow hr hu hb hs s q) (splatRow hs 0x3727C5AC#32) (ix2 (0 : Fin 1) j)) = _
  rw [addf_apply, varRow_apply, splatRow_apply, shapeCast_a_1a_apply]
  rfl

theorem shiftRow_apply (s q : FVec Ideal ⟨2, ![1000, N]⟩ .f32) (g b : FVec Ideal ⟨1, ![N]⟩ .f32) (j : Fin N) :
    shiftRow hc hr hu hb hs s q g b (ix2 (0 : Fin 1) j) = kShift (mat s) (mat q) (vec g) (vec b) j := by
  unfold shiftRow
  rw [subf_apply, mulf_apply, meanRow_apply, scaleRow_apply]
  show shapeCast ⟨2, ![1, N]⟩ b hc (ix2 (0 : Fin 1) j) - _ = _
  rw [shapeCast_a_1a_apply]
  rfl

end Chain

end Cert.KernelIdeal.HostValue

end
-- ==== Proof.HostPlumb.lean ====
/-
  The buffer contents at the segment boundaries of the kernel program, read at the buffers the value proof needs.

  The generated frame certificate folds the contents through the program: W0 at launch, W1 after the first stretch
  of host operations, W2 at the first region's exit (its arrays at what its write-backs leave, every other buffer as
  entered), W3, W4, W5, W6 likewise.  Here: the result buffer at the last boundary is the last region's output
  array; each region's big output is what the next region's entry holds in that buffer (no host operation between
  writes it); and an argument buffer holds its launch contents at every boundary up to the stretch that reads it.
-/
import proofs.«168283_j50869592655480_2_alg».proof.Proof.Gen.KernelIdeal.Frame
import Idealize.ShloMosaic.PureOps.Ideal
import proofs.«168283_j50869592655480_2_alg».proof.Proof.Spec

set_option maxRecDepth 16384

noncomputable section

namespace Cert.KernelIdeal.HostValue

open Cert.KernelIdeal Cert.KernelIdeal.Gen Cert.Spec
open Idealize.ShloMosaic Idealize.ShloMosaic.TcCoe Idealize.ShloMosaic.ValueIdx
open scoped BigOperators

variable (m : (ℓ : Loc nD τ sig) → Buf (Elt Ideal) ℓ) (ρ : Dev nD → PrngReg)

/-- A buffer that no operation of a stretch writes holds after the stretch what it held before: the stretch is opened
    into its operations, each operation's written buffer is a literal reference, and two literal references are
    compared by computation. -/
local macro "untouched " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Argument buffers: as launched, at every boundary that reads them -/

theorem W1_arg0 (c : Dev nD) : W1 m ρ c (Proc.devRef .tc main_arg0) = m ((c.tc : Thread nD τ).loc main_arg0) := by
  show StableHlo.after hostOps0 (W0 m ρ c) (Proc.devRef .tc main_arg0) = W0 m ρ c (Proc.devRef .tc main_arg0)
  untouched hostOps0

theorem W1_arg1 (c : Dev nD) : W1 m ρ c (Proc.devRef .tc main_arg1) = m ((c.tc : Thread nD τ).loc main_arg1) := by
  show StableHlo.after hostOps0 (W0 m ρ c) (Proc.devRef .tc main_arg1) = W0 m ρ c (Proc.devRef .tc main_arg1)
  untouched hostOps0

theorem W1_arg2 (c : Dev nD) : W1 m ρ c (Proc.devRef .tc main_arg2) = m ((c.tc : Thread nD τ).loc main_arg2) := by
  show StableHlo.after hostOps0 (W0 m ρ c) (Proc.devRef .tc main_arg2) = W0 m ρ c (Proc.devRef .tc main_arg2)
  untouched hostOps0

theorem W1_arg3 (c : Dev nD) : W1 m ρ c (Proc.devRef .tc main_arg3) = m ((c.tc : Thread nD τ).loc main_arg3) := by
  show StableHlo.after hostOps0 (W0 m ρ c) (Proc.devRef .tc main_arg3) = W0 m ρ c (Proc.devRef .tc main_arg3)
  untouched hostOps0

theorem W1_arg4 (c : Dev nD) : W1 m ρ c (Proc.devRef .tc main_arg4) = m ((c.tc : Thread nD τ).loc main_arg4) := by
  show StableHlo.after hostOps0 (W0 m ρ c) (Proc.devRef .tc main_arg4) = W0 m ρ c (Proc.devRef .tc main_arg4)
  untouched hostOps0

theorem W1_arg5 (c : Dev nD) : W1 m ρ c (Proc.devRef .tc main_arg5) = m ((c.tc : Thread nD τ).loc main_arg5) := by
  show StableHlo.after hostOps0 (W0 m ρ c) (Proc.devRef .tc main_arg5) = W0 m ρ c (Proc.devRef .tc main_arg5)
  untouched hostOps0

theorem W1_arg6 (c : Dev nD) : W1 m ρ c (Proc.devRef .tc main_arg6) = m ((c.tc : Thread nD τ).loc main_arg6) := by
  show StableHlo.after hostOps0 (W0 m ρ c) (Proc.devRef .tc main_arg6) = W0 m ρ c (Proc.devRef .tc main_arg6)
  untouched hostOps0

theorem W1_arg7 (c : Dev nD) : W1 m ρ c (Proc.devRef .tc main_arg7) = m ((c.tc : Thread nD τ).loc main_arg7) := by
  show StableHlo.after hostOps0 (W0 m ρ c) (Proc.devRef .tc main_arg7) = W0 m ρ c (Proc.devRef .tc main_arg7)
  untouched hostOps0

theorem W1_arg8 (c : Dev nD) : W1 m ρ c (Proc.devRef .tc main_arg8) = m ((c.tc : Thread nD τ).loc main_arg8) := by
  show StableHlo.after hostOps0 (W0 m ρ c) (Proc.devRef .tc main_arg8) = W0 m ρ c (Proc.devRef .tc main_arg8)
  untouched hostOps0

theorem W1_arg9 (c : Dev nD) : W1 m ρ c (Proc.devRef .tc main_arg9) = m ((c.tc : Thread nD τ).loc main_arg9) := by
  show StableHlo.after hostOps0 (W0 m ρ c) (Proc.devRef .tc main_arg9) = W0 m ρ c (Proc.devRef .tc main_arg9)
  untouched hostOps0

theorem W1_arg10 (c : Dev nD) : W1 m ρ c (Proc.devRef .tc main_arg10) = m ((c.tc : Thread nD τ).loc main_arg10) := by
  show StableHlo.after hostOps0 (W0 m ρ c) (Proc.devRef .tc main_arg10) = W0 m ρ c (Proc.devRef .tc main_arg10)
  untouched hostOps0

theorem W2_arg6 (c : Dev nD) : W2 m ρ c (Proc.devRef .tc main_arg6) = m ((c.tc : Thread nD τ).loc main_arg6) :=
  (W2_of_ne m ρ c main_arg6 (by decide)).trans (W1_arg6 m ρ c)

theorem W2_arg7 (c : Dev nD) : W2 m ρ c (Proc.devRef .tc main_arg7) = m ((c.tc : Thread nD τ).loc main_arg7) :=
  (W2_of_ne m ρ c main_arg7 (by decide)).trans (W1_arg7 m ρ c)

theorem W2_arg8 (c : Dev nD) : W2 m ρ c (Proc.devRef .tc main_arg8) = m ((c.tc : Thread nD τ).loc main_arg8) :=
  (W2_of_ne m ρ c main_arg8 (by decide)).trans (W1_arg8 m ρ c)

theorem W2_arg9 (c : Dev nD) : W2 m ρ c (Proc.devRef .tc main_arg9) = m ((c.tc : Thread nD τ).loc main_arg9) :=
  (W2_of_ne m ρ c main_arg9 (by decide)).trans (W1_arg9 m ρ c)

theorem W2_arg10 (c : Dev nD) : W2 m ρ c (Proc.devRef .tc main_arg10) = m ((c.tc : Thread nD τ).loc main_arg10) :=
  (W2_of_ne m ρ c main_arg10 (by decide)).trans (W1_arg10 m ρ c)

theorem W3_arg9 (c : Dev nD) : W3 m ρ c (Proc.devRef .tc main_arg9) = m ((c.tc : Thread nD τ).loc main_arg9) := by
  refine Eq.trans ?_ (W2_arg9 m ρ c)
  show StableHlo.after hostOps1 (W2 m ρ c) (Proc.devRef .tc main_arg9) = W2 m ρ c (Proc.devRef .tc main_arg9)
  untouched hostOps1

theorem W4_arg9 (c : Dev nD) : W4 m ρ c (Proc.devRef .tc main_arg9) = m ((c.tc : Thread nD τ).loc main_arg9) :=
  (W4_of_ne m ρ c main_arg9 (by decide)).trans (W3_arg9 m ρ c)

theorem W3_arg10 (c : Dev nD) : W3 m ρ c (Proc.devRef .tc main_arg10) = m ((c.tc : Thread nD τ).loc main_arg10) := by
  refine Eq.trans ?_ (W2_arg10 m ρ c)
  show StableHlo.after hostOps1 (W2 m ρ c) (Proc.devRef .tc main_arg10) = W2 m ρ c (Proc.devRef .tc main_arg10)
  untouched hostOps1

theorem W4_arg10 (c : Dev nD) : W4 m ρ c (Proc.devRef .tc main_arg10) = m ((c.tc : Thread nD τ).loc main_arg10) :=
  (W4_of_ne m ρ c main_arg10 (by decide)).trans (W3_arg10 m ρ c)

/-! ## The regions' arrays -/

/-- The result buffer at the last boundary is the last region's output array as its write-backs leave it. -/
theorem W6_v88 (c : Dev nD) : W6 m ρ c (Proc.devRef .tc main_v88) = (dat2 (V5 m ρ) c).arrAt 3 cfg2.N :=
  W6_arr m ρ c 3

/-- The last region's first input is the second region's big output: no operation of the last stretch writes it. -/
theorem V5_v65_0 (c : Dev nD) : V5 m ρ c main_v65_0 = (dat1 (V3 m ρ) c).arrAt 4 cfg1.N := by
  refine Eq.trans ?_ (W4_arr m ρ c 4)
  show StableHlo.after hostOps2 (W4 m ρ c) (Proc.devRef .tc main_v65_0) = W4 m ρ c (Proc.devRef .tc main_v65_0)
  untouched hostOps2

/-- The second region's first input is the first region's big output: no operation of the middle stretch writes it. -/
theorem V3_v42_0 (c : Dev nD) : V3 m ρ c main_v42_0 = (dat0 (V1 m ρ) c).arrAt 8 cfg0.N := by
  refine Eq.trans ?_ (W2_arr m ρ c 8)
  show StableHlo.after hostOps1 (W2 m ρ c) (Proc.devRef .tc main_v42_0) = W2 m ρ c (Proc.devRef .tc main_v42_0)
  untouched hostOps1

/-- The first region reads the first argument as launched. -/
theorem V1_arg0 (c : Dev nD) : V1 m ρ c main_arg0 = m ((c.tc : Thread nD τ).loc main_arg0) := W1_arg0 m ρ c

/-- The two partial-sum arrays the middle stretch reads are the first region's outputs 9 and 10. -/
theorem W2_v42_1 (c : Dev nD) : W2 m ρ c (Proc.devRef .tc main_v42_1) = (dat0 (V1 m ρ) c).arrAt 9 cfg0.N := W2_arr m ρ c 9
theorem W2_v42_2 (c : Dev nD) : W2 m ρ c (Proc.devRef .tc main_v42_2) = (dat0 (V1 m ρ) c).arrAt 10 cfg0.N := W2_arr m ρ c 10

/-- The two partial-sum arrays the last stretch reads are the second region's outputs 5 and 6. -/
theorem W4_v65_1 (c : Dev nD) : W4 m ρ c (Proc.devRef .tc main_v65_1) = (dat1 (V3 m ρ) c).arrAt 5 cfg1.N := W4_arr m ρ c 5
theorem W4_v65_2 (c : Dev nD) : W4 m ρ c (Proc.devRef .tc main_v65_2) = (dat1 (V3 m ρ) c).arrAt 6 cfg1.N := W4_arr m ρ c 6

end Cert.KernelIdeal.HostValue

end
-- ==== Proof.LibHostLine.lean ====
/-
  Reading a line of host operations in two pieces: the steps of a reading, and the change of float format.

  * What the buffers hold after a line of host operations `l1 ++ l2` is what they hold after `l2`, started from what
    they hold after `l1` (the library's `StableHlo.after_append`).  A long line can so be cut where convenient — with
    `List.take_append_drop` — and its tail read over an ARBITRARY valuation, as short lemmas, while a buffer the head
    already determines is identified once over the whole line.  The two tools below are for reading the tail.
  * `results_loop` performs the steps of such a reading for nullary, unary, binary and ternary operations: at an
    operation's own result buffer its function of its operands' contents, at any other buffer the contents before it
    (also past an operation of any number of operands).  It makes no step at a reshape, which is stepped by name
    (`reshape_result`, `reshape_result_ne`) between two runs of it.
  * At the exact values a change of float format returns its operand (`format_change_id`).
-/
import Idealize.ShloMosaic.Lib.StableHlo.Run
import Idealize.ShloMosaic.PureOps.Ideal

noncomputable section

namespace Cert.LibHostLine

open Idealize.ShloMosaic Idealize.ShloMosaic.StableHlo

/-- What one buffer holds after a line of host operations already opened into its operations one inside the other
    (`simp only [after_cons, after_nil]` does that), one step at a time: an operation's function of its operands at its
    own result buffer, what was there before at any other. -/
macro "results_loop" : tactic =>
  `(tactic| repeat (first
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide)))

/-- At the exact values a change of float format leaves an array as it is. -/
theorem format_change_id {s : Shape} {φ ψ : FTy} (a : FVec Ideal s φ) (h : ψ.bits < φ.bits) :
    (truncf ψ a h : s.Idx → EReal) = a := rfl

end Cert.LibHostLine

end
-- ==== Proof.HostStretch1.lean ====
/-
  The middle stretch of host operations (between the first and the second region), read at entries.

  The stretch turns the first region's two 1000-row partial-sum arrays into the second region's scale and shift rows
  (256 columns).  First over an arbitrary valuation of the buffers: the stretch's operations are composed as printed
  and the composed term is the statistics chain read at a column.  Then at the first region's exit contents, whose
  partial-sum buffers are that region's outputs 9 and 10 and whose argument buffers are as launched.
-/
import proofs.«168283_j50869592655480_2_alg».proof.Proof.Gen.KernelIdeal.Frame
import Idealize.ShloMosaic.PureOps.Ideal
import Idealize.ShloMosaic.Lib.StableHlo.Run
import proofs.«168283_j50869592655480_2_alg».proof.Proof.Spec
import proofs.«168283_j50869592655480_2_alg».proof.Proof.HostStats
import proofs.«168283_j50869592655480_2_alg».proof.Proof.HostPlumb
import proofs.«168283_j50869592655480_2_alg».proof.Proof.LibHostLine

set_option maxRecDepth 16384

noncomputable section

namespace Cert.KernelIdeal.HostValue

open Cert.KernelIdeal Cert.KernelIdeal.Gen Cert.Spec
open Idealize.ShloMosaic Idealize.ShloMosaic.TcCoe Idealize.ShloMosaic.ValueIdx
open scoped BigOperators

variable (m : (ℓ : Loc nD τ sig) → Buf (Elt Ideal) ℓ) (ρ : Dev nD → PrngReg)

/-- A buffer that no operation of a stretch writes holds after the stretch what it held before: the stretch is opened
    into its operations, each operation's written buffer is a literal reference, and two literal references are
    compared by computation. -/
local macro "untouched " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

open Idealize.ShloMosaic.StableHlo in
set_option maxHeartbeats 2000000 in
/-- The scale row after the stretch, from any contents before it. -/
theorem stretch1_scale (W : Valuation τ sig (Elt Ideal)) (q : Fin 256) :
    StableHlo.after (hostOps1 (F := Ideal)) W (Proc.devRef .tc main_v61) (ix2 (0 : Fin 1) q)
      = Spec.kScale (mat (W (Proc.devRef .tc main_v42_1))) (mat (W (Proc.devRef .tc main_v42_2)))
          (vec (W (Proc.devRef .tc main_arg6))) q := by
  after_results_simp
  exact scaleRow_apply (N := 256) shapeCasts_S256_S1x256 reducesTo_S1000x256_S256_d0 h_S_ bcast_S256_S1x256_1 bcast_S_S1x256
    (W (Proc.devRef .tc main_v42_1)) (W (Proc.devRef .tc main_v42_2)) (W (Proc.devRef .tc main_arg6)) q

open Idealize.ShloMosaic.StableHlo in
set_option maxHeartbeats 2000000 in
/-- The shift row after the stretch, from any contents before it. -/
theorem stretch1_shift (W : Valuation τ sig (Elt Ideal)) (q : Fin 256) :
    StableHlo.after (hostOps1 (F := Ideal)) W (Proc.devRef .tc main_v64) (ix2 (0 : Fin 1) q)
      = Spec.kShift (mat (W (Proc.devRef .tc main_v42_1))) (mat (W (Proc.devRef .tc main_v42_2)))
          (vec (W (Proc.devRef .tc main_arg6))) (vec (W (Proc.devRef .tc main_arg7))) q := by
  after_results_simp
  exact shiftRow_apply (N := 256) shapeCasts_S256_S1x256 reducesTo_S1000x256_S256_d0 h_S_ bcast_S256_S1x256_1 bcast_S_S1x256
    (W (Proc.devRef .tc main_v42_1)) (W (Proc.devRef .tc main_v42_2)) (W (Proc.devRef .tc main_arg6))
    (W (Proc.devRef .tc main_arg7)) q

/-- The second region's scale row. -/
theorem V3_v61 (c : Dev nD) (q : Fin 256) :
    V3 m ρ c main_v61 (ix2 (0 : Fin 1) q)
      = Spec.kScale (mat ((dat0 (V1 m ρ) c).arrAt 9 cfg0.N)) (mat ((dat0 (V1 m ρ) c).arrAt 10 cfg0.N))
          (vec (m ((c.tc : Thread nD τ).loc main_arg6))) q := by
  refine (stretch1_scale (W2 m ρ c) q).trans ?_
  rw [W2_v42_1, W2_v42_2, W2_arg6]

/-- The second region's shift row. -/
theorem V3_v64 (c : Dev nD) (q : Fin 256) :
    V3 m ρ c main_v64 (ix2 (0 : Fin 1) q)
      = Spec.kShift (mat ((dat0 (V1 m ρ) c).arrAt 9 cfg0.N)) (mat ((dat0 (V1 m ρ) c).arrAt 10 cfg0.N))
          (vec (m ((c.tc : Thread nD τ).loc main_arg6))) (vec (m ((c.tc : Thread nD τ).loc main_arg7))) q := by
  refine (stretch1_shift (W2 m ρ c) q).trans ?_
  rw [W2_v42_1, W2_v42_2, W2_arg6, W2_arg7]

open Idealize.ShloMosaic.StableHlo in
set_option maxHeartbeats 2000000 in
/-- The second region's weight matrix is the ninth argument as launched: the first stretch writes that buffer as a
    change of float format of the argument (the identity at the exact values), and nothing writes it afterwards. -/
theorem V3_v37 (c : Dev nD) (k : Fin 256) (j : Fin 128) :
    V3 m ρ c main_v37 (ix2 k j) = m ((c.tc : Thread nD τ).loc main_arg8) (ix2 k j) := by
  have e3 : W3 m ρ c (Proc.devRef .tc main_v37) = W2 m ρ c (Proc.devRef .tc main_v37) := by
    show StableHlo.after hostOps1 (W2 m ρ c) (Proc.devRef .tc main_v37) = W2 m ρ c (Proc.devRef .tc main_v37)
    untouched hostOps1
  have e2 : W2 m ρ c (Proc.devRef .tc main_v37) = W1 m ρ c (Proc.devRef .tc main_v37) :=
    W2_of_ne m ρ c main_v37 (by decide)
  show W3 m ρ c (Proc.devRef .tc main_v37) (ix2 k j) = _
  rw [e3, e2]
  show StableHlo.after hostOps0 (W0 m ρ c) (Proc.devRef .tc main_v37) (ix2 k j) = _
  after_results_simp
  rfl

end Cert.KernelIdeal.HostValue

end
-- ==== Proof.HostStretch2.lean ====
/-
  The last stretch of host operations (between the second and the third region), read at entries.

  The stretch turns the second region's two 1000-row partial-sum arrays into the third region's scale and shift rows
  (128 columns).  First over an arbitrary valuation of the buffers: the stretch's operations are composed as printed
  and the composed term is the statistics chain read at a column.  Then at the second region's exit contents, whose
  partial-sum buffers are that region's outputs 5 and 6 and whose argument buffers are as launched.
-/
import proofs.«168283_j50869592655480_2_alg».proof.Proof.Gen.KernelIdeal.Frame
import Idealize.ShloMosaic.PureOps.Ideal
import Idealize.ShloMosaic.Lib.StableHlo.Run
import proofs.«168283_j50869592655480_2_alg».proof.Proof.Spec
import proofs.«168283_j50869592655480_2_alg».proof.Proof.HostStats
import proofs.«168283_j50869592655480_2_alg».proof.Proof.HostPlumb

set_option maxRecDepth 16384

noncomputable section

namespace Cert.KernelIdeal.HostValue

open Cert.KernelIdeal Cert.KernelIdeal.Gen Cert.Spec
open Idealize.ShloMosaic Idealize.ShloMosaic.TcCoe Idealize.ShloMosaic.ValueIdx
open scoped BigOperators

variable (m : (ℓ : Loc nD τ sig) → Buf (Elt Ideal) ℓ) (ρ : Dev nD → PrngReg)

open Idealize.ShloMosaic.StableHlo in
set_option maxHeartbeats 2000000 in
/-- The scale row after the stretch, from any contents before it. -/
theorem stretch2_scale (W : Valuation τ sig (Elt Ideal)) (q : Fin 128) :
    StableHlo.after (hostOps2 (F := Ideal)) W (Proc.devRef .tc main_v84) (ix2 (0 : Fin 1) q)
      = Spec.kScale (mat (W (Proc.devRef .tc main_v65_1))) (mat (W (Proc.devRef .tc main_v65_2)))
          (vec (W (Proc.devRef .tc main_arg9))) q := by
  after_results_simp
  exact scaleRow_apply (N := 128) shapeCasts_S128_S1x128 reducesTo_S1000x128_S128_d0 h_S_ bcast_S128_S1x128_1 bcast_S_S1x128
    (W (Proc.devRef .tc main_v65_1)) (W (Proc.devRef .tc main_v65_2)) (W (Proc.devRef .tc main_arg9)) q

open Idealize.ShloMosaic.StableHlo in
set_option maxHeartbeats 2000000 in
/-- The shift row after the stretch, from any contents before it. -/
theorem stretch2_shift (W : Valuation τ sig (Elt Ideal)) (q : Fin 128) :
    StableHlo.after (hostOps2 (F := Ideal)) W (Proc.devRef .tc main_v87) (ix2 (0 : Fin 1) q)
      = Spec.kShift (mat (W (Proc.devRef .tc main_v65_1))) (mat (W (Proc.devRef .tc main_v65_2)))
          (vec (W (Proc.devRef .tc main_arg9))) (vec (W (Proc.devRef .tc main_arg10))) q := by
  after_results_simp
  exact shiftRow_apply (N := 128) shapeCasts_S128_S1x128 reducesTo_S1000x128_S128_d0 h_S_ bcast_S128_S1x128_1 bcast_S_S1x128
    (W (Proc.devRef .tc main_v65_1)) (W (Proc.devRef .tc main_v65_2)) (W (Proc.devRef .tc main_arg9))
    (W (Proc.devRef .tc main_arg10)) q

/-- The third region's scale row. -/
theorem V5_v84 (c : Dev nD) (q : Fin 128) :
    V5 m ρ c main_v84 (ix2 (0 : Fin 1) q)
      = Spec.kScale (mat ((dat1 (V3 m ρ) c).arrAt 5 cfg1.N)) (mat ((dat1 (V3 m ρ) c).arrAt 6 cfg1.N))
          (vec (m ((c.tc : Thread nD τ).loc main_arg9))) q := by
  refine (stretch2_scale (W4 m ρ c) q).trans ?_
  rw [W4_v65_1, W4_v65_2, W4_arg9]

/-- The third region's shift row. -/
theorem V5_v87 (c : Dev nD) (q : Fin 128) :
    V5 m ρ c main_v87 (ix2 (0 : Fin 1) q)
      = Spec.kShift (mat ((dat1 (V3 m ρ) c).arrAt 5 cfg1.N)) (mat ((dat1 (V3 m ρ) c).arrAt 6 cfg1.N))
          (vec (m ((c.tc : Thread nD τ).loc main_arg9))) (vec (m ((c.tc : Thread nD τ).loc main_arg10))) q := by
  refine (stretch2_shift (W4 m ρ c) q).trans ?_
  rw [W4_v65_1, W4_v65_2, W4_arg9, W4_arg10]

end Cert.KernelIdeal.HostValue

end
-- ==== Proof.KernelValue.lean ====
/-
  The kernel program's result, entry by entry, as the kernel-side formula of Spec.lean applied to the launch contents of
  the arguments: region 2's array is the scaled, shifted, clamped region-1 array; region 1's arrays are the second
  matrix product and its per-block column sums; the host lines between turn those sums into one scale and one shift
  per column; region 0's arrays are the first matrix product of the pre-activation and its per-block sums; and the host
  lines before region 0 prepare P, Q, the two weight halves, the bias row and the (1 + eps) row.
-/
import proofs.«168283_j50869592655480_2_alg».proof.Proof.Region0Final
import proofs.«168283_j50869592655480_2_alg».proof.Proof.Region1
import proofs.«168283_j50869592655480_2_alg».proof.Proof.Region2
import proofs.«168283_j50869592655480_2_alg».proof.Proof.HostStretch0W
import proofs.«168283_j50869592655480_2_alg».proof.Proof.HostStretch0C
import proofs.«168283_j50869592655480_2_alg».proof.Proof.HostStretch1
import proofs.«168283_j50869592655480_2_alg».proof.Proof.HostStretch2

noncomputable section

namespace Cert.KernelIdeal.KernelValue

open Cert.KernelIdeal Cert.KernelIdeal.Gen Cert.Spec Idealize.ShloMosaic Idealize.ShloMosaic.ValueIdx
open Cert.KernelIdeal.HostValue

variable (m : (ℓ : Loc nD τ sig) → Buf (Elt Ideal) ℓ) (ρ : Dev nD → PrngReg) (c : Dev nD)

/-- The pre-activation's first product, from the launch contents. -/
def a1 : Spec.Mat 400000 256 :=
  mm (zWin (mat (chainP (m ((c.tc : Thread nD τ).loc main_arg0)) (m ((c.tc : Thread nD τ).loc main_arg1)))) (mat (chainQ (m ((c.tc : Thread nD τ).loc main_arg0)) (m ((c.tc : Thread nD τ).loc main_arg1)))) (mat (m ((c.tc : Thread nD τ).loc main_arg0))) (wSum (mat (m ((c.tc : Thread nD τ).loc main_arg2))))
    (wBot (mat (m ((c.tc : Thread nD τ).loc main_arg2)))) (vec (m ((c.tc : Thread nD τ).loc main_arg3))) (fun _ => c1 + scal (m ((c.tc : Thread nD τ).loc main_arg4)))) (mat (m ((c.tc : Thread nD τ).loc main_arg5)))

theorem A1_eq : Region0.A1 (V1 m ρ) c = a1 m c := by
  have e29 : mat (V1 m ρ c main_v29) = mat (chainP (m ((c.tc : Thread nD τ).loc main_arg0)) (m ((c.tc : Thread nD τ).loc main_arg1))) := congrArg mat (V1_v29 m ρ c)
  have e30 : mat (V1 m ρ c main_v30) = mat (chainQ (m ((c.tc : Thread nD τ).loc main_arg0)) (m ((c.tc : Thread nD τ).loc main_arg1))) := congrArg mat (V1_v30 m ρ c)
  have e0 : mat (V1 m ρ c main_arg0) = mat (m ((c.tc : Thread nD τ).loc main_arg0)) := congrArg mat (V1_arg0 m ρ c)
  have e34 : mat (V1 m ρ c main_v34) = wSum (mat (m ((c.tc : Thread nD τ).loc main_arg2))) := funext fun k => funext fun j => V1_v34 m ρ c k j
  have e35 : mat (V1 m ρ c main_v35) = wBot (mat (m ((c.tc : Thread nD τ).loc main_arg2))) := funext fun k => funext fun j => V1_v35 m ρ c k j
  have e38 : row (V1 m ρ c main_v38) = vec (m ((c.tc : Thread nD τ).loc main_arg3)) := funext fun j => V1_v38 m ρ c j
  have e41 : row (V1 m ρ c main_v41) = (fun _ => c1 + scal (m ((c.tc : Thread nD τ).loc main_arg4))) := funext fun j => V1_v41 m ρ c j
  have e36 : mat (V1 m ρ c main_v36) = mat (m ((c.tc : Thread nD τ).loc main_arg5)) := funext fun k => funext fun q => V1_v36 m ρ c k q
  unfold Region0.A1 a1
  rw [e29, e30, e0, e34, e35, e38, e41, e36]

/-- The second product, from the launch contents. -/
def a2 : Spec.Mat 400000 128 := mm (kBN (a1 m c) (vec (m ((c.tc : Thread nD τ).loc main_arg6))) (vec (m ((c.tc : Thread nD τ).loc main_arg7)))) (mat (m ((c.tc : Thread nD τ).loc main_arg8)))

theorem A2_eq : Region1.A2 (V3 m ρ) c = a2 m c := by
  have e0 : mat (Region1.X0 (V3 m ρ) c) = a1 m c := by
    show mat (V3 m ρ c main_v42_0 : S400000x256.Idx → EReal) = a1 m c
    rw [V3_v42_0, ← A1_eq m ρ c]
    exact funext fun p => funext fun q => Region0.final0_8 (V1 m ρ) c p q
  have e9 : mat ((dat0 (V1 m ρ) c).arrAt 9 cfg0.N) = blockColSum (a1 m c) := by
    rw [← A1_eq m ρ c]
    exact funext fun R => funext fun q => Region0.final0_9 (V1 m ρ) c R q
  have e10 : mat ((dat0 (V1 m ρ) c).arrAt 10 cfg0.N) = blockColSum (sqr (a1 m c)) := by
    rw [← A1_eq m ρ c]
    exact funext fun R => funext fun q => Region0.final0_10 (V1 m ρ) c R q
  have e61 : row (Region1.Sc (V3 m ρ) c) = kScale (blockColSum (a1 m c)) (blockColSum (sqr (a1 m c))) (vec (m ((c.tc : Thread nD τ).loc main_arg6))) :=
    funext fun q => (V3_v61 m ρ c q).trans (by rw [e9, e10])
  have e64 : row (Region1.Sh (V3 m ρ) c)
      = kShift (blockColSum (a1 m c)) (blockColSum (sqr (a1 m c))) (vec (m ((c.tc : Thread nD τ).loc main_arg6))) (vec (m ((c.tc : Thread nD τ).loc main_arg7))) :=
    funext fun q => (V3_v64 m ρ c q).trans (by rw [e9, e10])
  have e37 : mat (Region1.Wt (V3 m ρ) c) = mat (m ((c.tc : Thread nD τ).loc main_arg8)) := funext fun k => funext fun j => V3_v37 m ρ c k j
  unfold Region1.A2 a2
  rw [e0, e61, e64, e37]
  rfl

/-- The kernel's result array at an entry. -/
theorem result_apply (p : Fin 400000) (q : Fin 128) :
    W6 m ρ c (Proc.devRef .tc main_v88) (ix2 p q)
      = kerOut (mat (chainP (m ((c.tc : Thread nD τ).loc main_arg0)) (m ((c.tc : Thread nD τ).loc main_arg1)))) (mat (chainQ (m ((c.tc : Thread nD τ).loc main_arg0)) (m ((c.tc : Thread nD τ).loc main_arg1)))) (mat (m ((c.tc : Thread nD τ).loc main_arg0))) (mat (m ((c.tc : Thread nD τ).loc main_arg2))) (vec (m ((c.tc : Thread nD τ).loc main_arg3)))
          (scal (m ((c.tc : Thread nD τ).loc main_arg4))) (mat (m ((c.tc : Thread nD τ).loc main_arg5))) (vec (m ((c.tc : Thread nD τ).loc main_arg6))) (vec (m ((c.tc : Thread nD τ).loc main_arg7))) (mat (m ((c.tc : Thread nD τ).loc main_arg8))) (vec (m ((c.tc : Thread nD τ).loc main_arg9))) (vec (m ((c.tc : Thread nD τ).loc main_arg10))) p q := by
  have e0 : mat (V5 m ρ c main_v65_0) = a2 m c := by
    rw [V5_v65_0, ← A2_eq m ρ c]
    exact funext fun p => funext fun q => Region1.final1_4 (V3 m ρ) c p q
  have e5 : mat ((dat1 (V3 m ρ) c).arrAt 5 cfg1.N) = blockColSum (a2 m c) := by
    rw [← A2_eq m ρ c]
    exact funext fun R => funext fun q => Region1.final1_5 (V3 m ρ) c R q
  have e6 : mat ((dat1 (V3 m ρ) c).arrAt 6 cfg1.N) = blockColSum (sqr (a2 m c)) := by
    rw [← A2_eq m ρ c]
    exact funext fun R => funext fun q => Region1.final1_6 (V3 m ρ) c R q
  have e84 : row (V5 m ρ c main_v84) = kScale (blockColSum (a2 m c)) (blockColSum (sqr (a2 m c))) (vec (m ((c.tc : Thread nD τ).loc main_arg9))) :=
    funext fun q => (V5_v84 m ρ c q).trans (by rw [e5, e6])
  have e87 : row (V5 m ρ c main_v87)
      = kShift (blockColSum (a2 m c)) (blockColSum (sqr (a2 m c))) (vec (m ((c.tc : Thread nD τ).loc main_arg9))) (vec (m ((c.tc : Thread nD τ).loc main_arg10))) :=
    funext fun q => (V5_v87 m ρ c q).trans (by rw [e5, e6])
  rw [W6_v88, Region2.final2_3 (V5 m ρ) c p q, e0, e84, e87]
  rfl

end Cert.KernelIdeal.KernelValue

end
-- ==== Proof.RefRunOps.lean ====
/-
  The reference program's straight line.

  The reference's entry function calls four small functions (a variance, a clamp at zero, and their copies at
  the second width; the variance itself calls a select against a scalar).  A call runs the callee's operations on
  the caller's buffers, so the whole program is one line of host operations.  It is listed here in five consecutive
  pieces, cut where few buffers are live:

  * `opsA`  the edge list flattened, the segment sums gathered back and the partner-row swap, once at width 128
             and once at width 256 (up to the buffers of P and Q);
  * `opsB`  [P | P + Q] W + b + (1 + eps) x, then the first matrix product;
  * `opsC`  the column mean over all rows, the column variance (the called function), the centred entries and
             variance + epsilon;
  * `opsD`  the reciprocal square root, scale, shift, clamp at zero, then the second matrix product;
  * `opsE`  the same normalisation at width 128, ending in the result.

  `main_eq` says the entry function is that line.
-/
import proofs.«168283_j50869592655480_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The edge list flattened; the segment sums of the edge features gathered back per endpoint, and the partner-row swap; the two concatenated; the same again at width 256. -/
abbrev opsA : List (HloOp τ sig (Elt F)) :=
  [ StableHlo.reshape main_arg1 main_v0 rfl shapeCasts_S200000x2_S400000,
    StableHlo.nullary main_cst (constant S_ .f32 0x00000000#32),
    StableHlo.unary main_cst main_v1 (broadcastInDim S50000x128 ![] bcast_S_S50000x128 : (⟨S_, .f32⟩ : BufTy).Contents (Elt F) → (⟨S50000x128, .f32⟩ : BufTy).Contents (Elt F)),
    StableHlo.unary main_v0 main_v2 (broadcastInDim S400000x1 ![0] bcast_S400000_S400000x1_0 : (⟨S400000, .i32⟩ : BufTy).Contents (Elt F) → (⟨S400000x1, .i32⟩ : BufTy).Contents (Elt F)),
    StableHlo.ternary main_v1 main_v2 main_arg0 main_v3 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v0 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v0 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v0 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_v3 main_v9 main_v10 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.reshape main_arg0 main_v11 rfl shapeCasts_S400000x128_S200000x2x128,
    StableHlo.unary main_v11 main_v12 (Host.reverse [1] : (⟨S200000x2x128, .f32⟩ : BufTy).Contents (Elt F) → (⟨S200000x2x128, .f32⟩ : BufTy).Contents (Elt F)),
    StableHlo.reshape main_v12 main_v13 rfl shapeCasts_S200000x2x128_S400000x128,
    StableHlo.binary main_v10 main_v13 main_v14 (addf : (⟨S400000x128, .f32⟩ : BufTy).Contents (Elt F) → (⟨S400000x128, .f32⟩ : BufTy).Contents (Elt F) → (⟨S400000x128, .f32⟩ : BufTy).Contents (Elt F)),
    StableHlo.binary main_v10 main_v14 main_v15 ((fun a b => concatenate S400000x256 1 [⟨S400000x128, a⟩, ⟨S400000x128, b⟩] concatenates_S400000x128_S400000x128_S400000x256_d1) : (⟨S400000x128, .f32⟩ : BufTy).Contents (Elt F) → (⟨S400000x128, .f32⟩ : BufTy).Contents (Elt F) → (⟨S400000x256, .f32⟩ : BufTy).Contents (Elt F)),
    StableHlo.nullary main_cst_1 (constant S_ .f32 0x00000000#32),
    StableHlo.unary main_cst_1 main_v16 (broadcastInDim S50000x256 ![] bcast_S_S50000x256 : (⟨S_, .f32⟩ : BufTy).Contents (Elt F) → (⟨S50000x256, .f32⟩ : BufTy).Contents (Elt F)),
    StableHlo.unary main_v0 main_v17 (broadcastInDim S400000x1 ![0] bcast_S400000_S400000x1_0 : (⟨S400000, .i32⟩ : BufTy).Contents (Elt F) → (⟨S400000x1, .i32⟩ : BufTy).Contents (Elt F)),
    StableHlo.ternary main_v16 main_v17 main_v15 main_v18 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.nullary main_c_2 (constantI S_ 32 0#32),
    StableHlo.unary main_c_2 main_v19 (broadcastInDim S400000 ![] bcast_S_S400000 : (⟨S_, .i32⟩ : BufTy).Contents (Elt F) → (⟨S400000, .i32⟩ : BufTy).Contents (Elt F)),
    StableHlo.binary main_v0 main_v19 main_v20 (cmpi .slt : (⟨S400000, .i32⟩ : BufTy).Contents (Elt F) → (⟨S400000, .i32⟩ : BufTy).Contents (Elt F) → (⟨S400000, .i1⟩ : BufTy).Contents (Elt F)),
    StableHlo.nullary main_c_3 (constantI S_ 32 50000#32),
    StableHlo.unary main_c_3 main_v21 (broadcastInDim S400000 ![] bcast_S_S400000 : (⟨S_, .i32⟩ : BufTy).Contents (Elt F) → (⟨S400000, .i32⟩ : BufTy).Contents (Elt F)),
    StableHlo.binary main_v0 main_v21 main_v22 (addi : (⟨S400000, .i32⟩ : BufTy).Contents (Elt F) → (⟨S400000, .i32⟩ : BufTy).Contents (Elt F) → (⟨S400000, .i32⟩ : BufTy).Contents (Elt F)),
    StableHlo.ternary main_v20 main_v22 main_v0 main_v23 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v23 main_v24 (broadcastInDim S400000x1 ![0] bcast_S400000_S400000x1_0 : (⟨S400000, .i32⟩ : BufTy).Contents (Elt F) → (⟨S400000x1, .i32⟩ : BufTy).Contents (Elt F)),
    StableHlo.binary main_v18 main_v24 main_v25 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.reshape main_v15 main_v26 rfl shapeCasts_S400000x256_S200000x2x256,
    StableHlo.unary main_v26 main_v27 (Host.reverse [1] : (⟨S200000x2x256, .f32⟩ : BufTy).Contents (Elt F) → (⟨S200000x2x256, .f32⟩ : BufTy).Contents (Elt F)),
    StableHlo.reshape main_v27 main_v28 rfl shapeCasts_S200000x2x256_S400000x256 ]

/-- [P | P + Q] W + b + (1 + eps) x and the first matrix product. -/
abbrev opsB : List (HloOp τ sig (Elt F)) :=
  [ StableHlo.binary main_v25 main_v28 main_v29 (addf : (⟨S400000x256, .f32⟩ : BufTy).Contents (Elt F) → (⟨S400000x256, .f32⟩ : BufTy).Contents (Elt F) → (⟨S400000x256, .f32⟩ : BufTy).Contents (Elt F)),
    StableHlo.binary main_v25 main_v29 main_v30 ((fun a b => concatenate S400000x512 1 [⟨S400000x256, a⟩, ⟨S400000x256, b⟩] concatenates_S400000x256_S400000x256_S400000x512_d1) : (⟨S400000x256, .f32⟩ : BufTy).Contents (Elt F) → (⟨S400000x256, .f32⟩ : BufTy).Contents (Elt F) → (⟨S400000x512, .f32⟩ : BufTy).Contents (Elt F)),
    StableHlo.binary main_v30 main_arg2 main_v31 ((fun l r => Host.dotGeneral dot_S400000x512_S512x128_S400000x128_1_0_0_1_n_n none l r) : (⟨S400000x512, .f32⟩ : BufTy).Contents (Elt F) → (⟨S512x128, .f32⟩ : BufTy).Contents (Elt F) → (⟨S400000x128, .f32⟩ : BufTy).Contents (Elt F)),
    StableHlo.unary main_arg3 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S400000x128 ![0, 1] bcast_S1x128_S400000x128_0_1 : (⟨S1x128, .f32⟩ : BufTy).Contents (Elt F) → (⟨S400000x128, .f32⟩ : BufTy).Contents (Elt F)),
    StableHlo.binary main_v31 main_v33 main_v34 (addf : (⟨S400000x128, .f32⟩ : BufTy).Contents (Elt F) → (⟨S400000x128, .f32⟩ : BufTy).Contents (Elt F) → (⟨S400000x128, .f32⟩ : BufTy).Contents (Elt F)),
    StableHlo.nullary main_cst_4 (constant S_ .f32 0x3F800000#32),
    StableHlo.binary main_cst_4 main_arg4 main_v35 (addf : (⟨S_, .f32⟩ : BufTy).Contents (Elt F) → (⟨S_, .f32⟩ : BufTy).Contents (Elt F) → (⟨S_, .f32⟩ : BufTy).Contents (Elt F)),
    StableHlo.unary main_v35 main_v36 (broadcastInDim S400000x128 ![] bcast_S_S400000x128 : (⟨S_, .f32⟩ : BufTy).Contents (Elt F) → (⟨S400000x128, .f32⟩ : BufTy).Contents (Elt F)),
    StableHlo.binary main_v36 main_arg0 main_v37 (mulf : (⟨S400000x128, .f32⟩ : BufTy).Contents (Elt F) → (⟨S400000x128, .f32⟩ : BufTy).Contents (Elt F) → (⟨S400000x128, .f32⟩ : BufTy).Contents (Elt F)),
    StableHlo.binary main_v34 main_v37 main_v38 (addf : (⟨S400000x128, .f32⟩ : BufTy).Contents (Elt F) → (⟨S400000x128, .f32⟩ : BufTy).Contents (Elt F) → (⟨S400000x128, .f32⟩ : BufTy).Contents (Elt F)),
    StableHlo.binary main_v38 main_arg5 main_v39 ((fun l r => Host.dotGeneral dot_S400000x128_S128x256_S400000x256_1_0_0_1_n_n none l r) : (⟨S400000x128, .f32⟩ : BufTy).Contents (Elt F) → (⟨S128x256, .f32⟩ : BufTy).Contents (Elt F) → (⟨S400000x256, .f32⟩ : BufTy).Contents (Elt F)) ]

/-- Column mean, column variance (the called function's operations, on its call's buffers), centred entries, variance + epsilon. -/
abbrev opsC : List (HloOp τ sig (Elt F)) :=
  [ StableHlo.nullary main_cst_5 (constant S_ .f32 0x00000000#32),
    StableHlo.binary main_v39 main_cst_5 main_v40 ((fun x v => Host.reduceAdd x v reducesTo_S400000x256_S256_d0 h_S_) : (⟨S400000x256, .f32⟩ : BufTy).Contents (Elt F) → (⟨S_, .f32⟩ : BufTy).Contents (Elt F) → (⟨S256, .f32⟩ : BufTy).Contents (Elt F)),
    StableHlo.nullary main_cst_6 (constant S_ .f32 0x48C35000#32),
    StableHlo.unary main_cst_6 main_v41 (broadcastInDim S256 ![] bcast_S_S256 : (⟨S_, .f32⟩ : BufTy).Contents (Elt F) → (⟨S256, .f32⟩ : BufTy).Contents (Elt F)),
    StableHlo.binary main_v40 main_v41 main_v42 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call0.cst (constant S_ .f32 0x00000000#32),
    StableHlo.TRef.binary (.of main_v39) main_call0.cst main_call0.v0 (fun x v => Host.reduceAdd x v reducesTo_S400000x256_S256_d0 h_S_),
    StableHlo.TRef.unary main_call0.v0 main_call0.v1 (broadcastInDim S1x256 ![1] bcast_S256_S1x256_1),
    StableHlo.TRef.nullary main_call0.cst_0 (constant S_ .f32 0x48C35000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S400000x256 ![0, 1] bcast_S1x256_S400000x256_0_1),
    StableHlo.TRef.binary (.of main_v39) main_call0.v4 main_call0.v5 subf,
    StableHlo.TRef.binary main_call0.v5 main_call0.v5 main_call0.v6 mulf,
    StableHlo.TRef.unary (.of main_c_7) main_call0.v7 (sitofp .f32),
    StableHlo.TRef.nullary main_call0.cst_1 (constant S_ .f32 0x48C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S400000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v42 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S400000x256 ![0, 1] bcast_S1x256_S400000x256_0_1 : (⟨S1x256, .f32⟩ : BufTy).Contents (Elt F) → (⟨S400000x256, .f32⟩ : BufTy).Contents (Elt F)),
    StableHlo.binary main_v39 main_v45 main_v46 (subf : (⟨S400000x256, .f32⟩ : BufTy).Contents (Elt F) → (⟨S400000x256, .f32⟩ : BufTy).Contents (Elt F) → (⟨S400000x256, .f32⟩ : BufTy).Contents (Elt F)),
    StableHlo.nullary main_cst_8 (constant S_ .f32 0x3727C5AC#32),
    StableHlo.unary main_cst_8 main_v47 (broadcastInDim S256 ![] bcast_S_S256 : (⟨S_, .f32⟩ : BufTy).Contents (Elt F) → (⟨S256, .f32⟩ : BufTy).Contents (Elt F)),
    StableHlo.binary main_v43 main_v47 main_v48 (addf : (⟨S256, .f32⟩ : BufTy).Contents (Elt F) → (⟨S256, .f32⟩ : BufTy).Contents (Elt F) → (⟨S256, .f32⟩ : BufTy).Contents (Elt F)) ]

/-- Reciprocal square root, scale, shift, the clamp at zero (a called function), the second matrix product. -/
abbrev opsD : List (HloOp τ sig (Elt F)) :=
  [ StableHlo.unary main_v48 main_v49 (Host.rsqrt : (⟨S256, .f32⟩ : BufTy).Contents (Elt F) → (⟨S256, .f32⟩ : BufTy).Contents (Elt F)),
    StableHlo.unary main_v49 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S400000x256 ![0, 1] bcast_S1x256_S400000x256_0_1 : (⟨S1x256, .f32⟩ : BufTy).Contents (Elt F) → (⟨S400000x256, .f32⟩ : BufTy).Contents (Elt F)),
    StableHlo.binary main_v46 main_v51 main_v52 (mulf : (⟨S400000x256, .f32⟩ : BufTy).Contents (Elt F) → (⟨S400000x256, .f32⟩ : BufTy).Contents (Elt F) → (⟨S400000x256, .f32⟩ : BufTy).Contents (Elt F)),
    StableHlo.unary main_arg6 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S400000x256 ![0, 1] bcast_S1x256_S400000x256_0_1 : (⟨S1x256, .f32⟩ : BufTy).Contents (Elt F) → (⟨S400000x256, .f32⟩ : BufTy).Contents (Elt F)),
    StableHlo.binary main_v52 main_v54 main_v55 (mulf : (⟨S400000x256, .f32⟩ : BufTy).Contents (Elt F) → (⟨S400000x256, .f32⟩ : BufTy).Contents (Elt F) → (⟨S400000x256, .f32⟩ : BufTy).Contents (Elt F)),
    StableHlo.unary main_arg7 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S400000x256 ![0, 1] bcast_S1x256_S400000x256_0_1 : (⟨S1x256, .f32⟩ : BufTy).Contents (Elt F) → (⟨S400000x256, .f32⟩ : BufTy).Contents (Elt F)),
    StableHlo.binary main_v55 main_v57 main_v58 (addf : (⟨S400000x256, .f32⟩ : BufTy).Contents (Elt F) → (⟨S400000x256, .f32⟩ : BufTy).Contents (Elt F) → (⟨S400000x256, .f32⟩ : BufTy).Contents (Elt F)),
    StableHlo.TRef.nullary main_call1.cst (constant S_ .f32 0x00000000#32),
    StableHlo.TRef.unary main_call1.cst main_call1.v0 (broadcastInDim S400000x256 ![] bcast_S_S400000x256),
    StableHlo.TRef.binary (.of main_v58) main_call1.v0 main_call1.v1 maximumf,
    StableHlo.binary main_v59 main_arg8 main_v60 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)) ]

/-- The same normalisation at width 128: mean, variance, scale, shift, clamp. -/
abbrev opsE : List (HloOp τ sig (Elt F)) :=
  [ StableHlo.nullary main_cst_9 (constant S_ .f32 0x00000000#32),
    StableHlo.binary main_v60 main_cst_9 main_v61 ((fun x v => Host.reduceAdd x v reducesTo_S400000x128_S128_d0 h_S_) : (⟨S400000x128, .f32⟩ : BufTy).Contents (Elt F) → (⟨S_, .f32⟩ : BufTy).Contents (Elt F) → (⟨S128, .f32⟩ : BufTy).Contents (Elt F)),
    StableHlo.nullary main_cst_10 (constant S_ .f32 0x48C35000#32),
    StableHlo.unary main_cst_10 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call2.cst (constant S_ .f32 0x00000000#32),
    StableHlo.TRef.binary (.of main_v60) main_call2.cst main_call2.v0 (fun x v => Host.reduceAdd x v reducesTo_S400000x128_S128_d0 h_S_),
    StableHlo.TRef.unary main_call2.v0 main_call2.v1 (broadcastInDim S1x128 ![1] bcast_S128_S1x128_1),
    StableHlo.TRef.nullary main_call2.cst_0 (constant S_ .f32 0x48C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S400000x128 ![0, 1] bcast_S1x128_S400000x128_0_1),
    StableHlo.TRef.binary (.of main_v60) main_call2.v4 main_call2.v5 subf,
    StableHlo.TRef.binary main_call2.v5 main_call2.v5 main_call2.v6 mulf,
    StableHlo.TRef.unary (.of main_c_11) main_call2.v7 (sitofp .f32),
    StableHlo.TRef.nullary main_call2.cst_1 (constant S_ .f32 0x48C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S400000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v63 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S400000x128 ![0, 1] bcast_S1x128_S400000x128_0_1 : (⟨S1x128, .f32⟩ : BufTy).Contents (Elt F) → (⟨S400000x128, .f32⟩ : BufTy).Contents (Elt F)),
    StableHlo.binary main_v60 main_v66 main_v67 (subf : (⟨S400000x128, .f32⟩ : BufTy).Contents (Elt F) → (⟨S400000x128, .f32⟩ : BufTy).Contents (Elt F) → (⟨S400000x128, .f32⟩ : BufTy).Contents (Elt F)),
    StableHlo.nullary main_cst_12 (constant S_ .f32 0x3727C5AC#32),
    StableHlo.unary main_cst_12 main_v68 (broadcastInDim S128 ![] bcast_S_S128 : (⟨S_, .f32⟩ : BufTy).Contents (Elt F) → (⟨S128, .f32⟩ : BufTy).Contents (Elt F)),
    StableHlo.binary main_v64 main_v68 main_v69 (addf : (⟨S128, .f32⟩ : BufTy).Contents (Elt F) → (⟨S128, .f32⟩ : BufTy).Contents (Elt F) → (⟨S128, .f32⟩ : BufTy).Contents (Elt F)),
    StableHlo.unary main_v69 main_v70 (Host.rsqrt : (⟨S128, .f32⟩ : BufTy).Contents (Elt F) → (⟨S128, .f32⟩ : BufTy).Contents (Elt F)),
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S400000x128 ![0, 1] bcast_S1x128_S400000x128_0_1 : (⟨S1x128, .f32⟩ : BufTy).Contents (Elt F) → (⟨S400000x128, .f32⟩ : BufTy).Contents (Elt F)),
    StableHlo.binary main_v67 main_v72 main_v73 (mulf : (⟨S400000x128, .f32⟩ : BufTy).Contents (Elt F) → (⟨S400000x128, .f32⟩ : BufTy).Contents (Elt F) → (⟨S400000x128, .f32⟩ : BufTy).Contents (Elt F)),
    StableHlo.unary main_arg9 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S400000x128 ![0, 1] bcast_S1x128_S400000x128_0_1 : (⟨S1x128, .f32⟩ : BufTy).Contents (Elt F) → (⟨S400000x128, .f32⟩ : BufTy).Contents (Elt F)),
    StableHlo.binary main_v73 main_v75 main_v76 (mulf : (⟨S400000x128, .f32⟩ : BufTy).Contents (Elt F) → (⟨S400000x128, .f32⟩ : BufTy).Contents (Elt F) → (⟨S400000x128, .f32⟩ : BufTy).Contents (Elt F)),
    StableHlo.unary main_arg10 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S400000x128 ![0, 1] bcast_S1x128_S400000x128_0_1 : (⟨S1x128, .f32⟩ : BufTy).Contents (Elt F) → (⟨S400000x128, .f32⟩ : BufTy).Contents (Elt F)),
    StableHlo.binary main_v76 main_v78 main_v79 (addf : (⟨S400000x128, .f32⟩ : BufTy).Contents (Elt F) → (⟨S400000x128, .f32⟩ : BufTy).Contents (Elt F) → (⟨S400000x128, .f32⟩ : BufTy).Contents (Elt F)),
    StableHlo.TRef.nullary main_call3.cst (constant S_ .f32 0x00000000#32),
    StableHlo.TRef.unary main_call3.cst main_call3.v0 (broadcastInDim S400000x128 ![] bcast_S_S400000x128),
    StableHlo.TRef.binary (.of main_v79) main_call3.v0 main_call3.v1 maximumf ]

/-- The whole line. -/
abbrev ops : List (HloOp τ sig (Elt F)) := opsA ++ (opsB ++ (opsC ++ (opsD ++ opsE)))

-- one hundred and forty-two binds re-associated: the rewrite under the chain recurses once per statement
set_option maxRecDepth 8192 in
set_option maxHeartbeats 4000000 in
/-- The entry function is that line: the called functions' definitions opened at their calls, both sides are one
    chain of steps once sequencing is re-associated. -/
theorem main_eq (c : Dev nD) : main (F := F) c = seq ops := by
  simp only [main, main_part0, main_part1, fn_var.body, fn_where.body, fn_relu.body, fn_var_0.body, fn_where_1.body,
    fn_relu_2.body, bind_assoc, pure_bind]
  rfl

end Cert.ReferenceIdeal.RefRun

end
-- ==== Proof.RefRunTerms.lean ====
/-
  The reference's result as one composed term of its eleven arguments.

  Each definition below is the composition of the host operations that write one buffer, in the order the program
  applies them, over the contents of the buffers the stretch starts from.  Nothing here is read at an index: the
  scatter, the gather, the reversal and the reductions stay closed.

  * `chainP`, `chainQ`   the two 400000 x 256 arrays built from the edge features and the edge list: the segment
                          sums gathered back per endpoint, and the partner-row swap of the concatenation;
  * `zOf`, `stage39`     [P | P + Q] W + b + (1 + eps) x, and its product with the first weight matrix;
  * `mean256`, `var256`  the column mean and the column variance over all rows (the variance is the called
                          function: the mean once more, the centred squares summed, divided by 400000 minus the
                          conversion of the integer 0, kept where that divisor is positive, a constant elsewhere);
  * `cen256`, `vpe256`, `tail256`, `bn256`  centred entries, variance + epsilon, and "times the reciprocal square
                          root, times gamma, plus beta, clamped at zero";
  * `dot3`               the product with the second weight matrix;
  * `mean128`, `var128`, `bn128`  the same normalisation at width 128;
  * `resultOf`           the result buffer.
-/
import proofs.«168283_j50869592655480_2_alg».proof.ReferenceIdeal
import Idealize.ShloMosaic.PureOps.Ideal

noncomputable section

namespace Cert.ReferenceIdeal.RefRun

open Cert.ReferenceIdeal Idealize.ShloMosaic
open Cert.ReferenceIdeal.Facts₀ Cert.ReferenceIdeal.Facts

variable [Cert.ReferenceIdeal.Facts]

/-- The segment sums of [g | g + swap x] (g the width-128 segment sums gathered back) gathered back per endpoint. -/
def chainP (a0 : FVec Ideal S400000x128 .f32) (a1 : IVec S200000x2 32) : FVec Ideal S400000x256 .f32 :=
  Host.gather gather_S50000x256_S400000x1_S400000x256_1_0_n_n_0_1_1256 (Host.scatterAdd (F := Ideal) scatter_S50000x256_S400000x1_S400000x256_1_0_0_1 (broadcastInDim S50000x256 ![] bcast_S_S50000x256 (constant (F := Ideal) S_ .f32 0x00000000#32)) (broadcastInDim S400000x1 ![0] bcast_S400000_S400000x1_0 (shapeCast S400000 a1 shapeCasts_S200000x2_S400000)) (concatenate S400000x256 1 [⟨S400000x128, (Host.gather gather_S50000x128_S400000x1_S400000x128_1_0_n_n_0_1_1128 (Host.scatterAdd (F := Ideal) scatter_S50000x128_S400000x1_S400000x128_1_0_0_1 (broadcastInDim S50000x128 ![] bcast_S_S50000x128 (constant (F := Ideal) S_ .f32 0x00000000#32)) (broadcastInDim S400000x1 ![0] bcast_S400000_S400000x1_0 (shapeCast S400000 a1 shapeCasts_S200000x2_S400000)) a0) (broadcastInDim S400000x1 ![0] bcast_S400000_S400000x1_0 (select (cmpi .slt (shapeCast S400000 a1 shapeCasts_S200000x2_S400000) (broadcastInDim S400000 ![] bcast_S_S400000 (constantI S_ 32 0#32))) (addi (shapeCast S400000 a1 shapeCasts_S200000x2_S400000) (broadcastInDim S400000 ![] bcast_S_S400000 (constantI S_ 32 50000#32))) (shapeCast S400000 a1 shapeCasts_S200000x2_S400000))))⟩, ⟨S400000x128, (addf (F := Ideal) (Host.gather gather_S50000x128_S400000x1_S400000x128_1_0_n_n_0_1_1128 (Host.scatterAdd (F := Ideal) scatter_S50000x128_S400000x1_S400000x128_1_0_0_1 (broadcastInDim S50000x128 ![] bcast_S_S50000x128 (constant (F := Ideal) S_ .f32 0x00000000#32)) (broadcastInDim S400000x1 ![0] bcast_S400000_S400000x1_0 (shapeCast S400000 a1 shapeCasts_S200000x2_S400000)) a0) (broadcastInDim S400000x1 ![0] bcast_S400000_S400000x1_0 (select (cmpi .slt (shapeCast S400000 a1 shapeCasts_S200000x2_S400000) (broadcastInDim S400000 ![] bcast_S_S400000 (constantI S_ 32 0#32))) (addi (shapeCast S400000 a1 shapeCasts_S200000x2_S400000) (broadcastInDim S400000 ![] bcast_S_S400000 (constantI S_ 32 50000#32))) (shapeCast S400000 a1 shapeCasts_S200000x2_S400000)))) (shapeCast S400000x128 (Host.reverse [1] (shapeCast S200000x2x128 a0 shapeCasts_S400000x128_S200000x2x128)) shapeCasts_S200000x2x128_S400000x128))⟩] concatenates_S400000x128_S400000x128_S400000x256_d1)) (broadcastInDim S400000x1 ![0] bcast_S400000_S400000x1_0 (select (cmpi .slt (shapeCast S400000 a1 shapeCasts_S200000x2_S400000) (broadcastInDim S400000 ![] bcast_S_S400000 (constantI S_ 32 0#32))) (addi (shapeCast S400000 a1 shapeCasts_S200000x2_S400000) (broadcastInDim S400000 ![] bcast_S_S400000 (constantI S_ 32 50000#32))) (shapeCast S400000 a1 shapeCasts_S200000x2_S400000)))

/-- The partner-row swap of [g | g + swap x]: each pair of consecutive rows exchanged. -/
def chainQ (a0 : FVec Ideal S400000x128 .f32) (a1 : IVec S200000x2 32) : FVec Ideal S400000x256 .f32 :=
  shapeCast S400000x256 (Host.reverse [1] (shapeCast S200000x2x256 (concatenate S400000x256 1 [⟨S400000x128, (Host.gather gather_S50000x128_S400000x1_S400000x128_1_0_n_n_0_1_1128 (Host.scatterAdd (F := Ideal) scatter_S50000x128_S400000x1_S400000x128_1_0_0_1 (broadcastInDim S50000x128 ![] bcast_S_S50000x128 (constant (F := Ideal) S_ .f32 0x00000000#32)) (broadcastInDim S400000x1 ![0] bcast_S400000_S400000x1_0 (shapeCast S400000 a1 shapeCasts_S200000x2_S400000)) a0) (broadcastInDim S400000x1 ![0] bcast_S400000_S400000x1_0 (select (cmpi .slt (shapeCast S400000 a1 shapeCasts_S200000x2_S400000) (broadcastInDim S400000 ![] bcast_S_S400000 (constantI S_ 32 0#32))) (addi (shapeCast S400000 a1 shapeCasts_S200000x2_S400000) (broadcastInDim S400000 ![] bcast_S_S400000 (constantI S_ 32 50000#32))) (shapeCast S400000 a1 shapeCasts_S200000x2_S400000))))⟩, ⟨S400000x128, (addf (F := Ideal) (Host.gather gather_S50000x128_S400000x1_S400000x128_1_0_n_n_0_1_1128 (Host.scatterAdd (F := Ideal) scatter_S50000x128_S400000x1_S400000x128_1_0_0_1 (broadcastInDim S50000x128 ![] bcast_S_S50000x128 (constant (F := Ideal) S_ .f32 0x00000000#32)) (broadcastInDim S400000x1 ![0] bcast_S400000_S400000x1_0 (shapeCast S400000 a1 shapeCasts_S200000x2_S400000)) a0) (broadcastInDim S400000x1 ![0] bcast_S400000_S400000x1_0 (select (cmpi .slt (shapeCast S400000 a1 shapeCasts_S200000x2_S400000) (broadcastInDim S400000 ![] bcast_S_S400000 (constantI S_ 32 0#32))) (addi (shapeCast S400000 a1 shapeCasts_S200000x2_S400000) (broadcastInDim S400000 ![] bcast_S_S400000 (constantI S_ 32 50000#32))) (shapeCast S400000 a1 shapeCasts_S200000x2_S400000)))) (shapeCast S400000x128 (Host.reverse [1] (shapeCast S200000x2x128 a0 shapeCasts_S400000x128_S200000x2x128)) shapeCasts_S200000x2x128_S400000x128))⟩] concatenates_S400000x128_S400000x128_S400000x256_d1) shapeCasts_S400000x256_S200000x2x256)) shapeCasts_S200000x2x256_S400000x256

/-- [P | P + Q] W + b + (1 + eps) x. -/
def zOf (P Q : FVec Ideal S400000x256 .f32) (a0 : FVec Ideal S400000x128 .f32) (a2 : FVec Ideal S512x128 .f32)
    (a3 : FVec Ideal S128 .f32) (a4 : FVec Ideal S_ .f32) : FVec Ideal S400000x128 .f32 :=
  addf (F := Ideal) (addf (F := Ideal) (Host.dotGeneral (F := Ideal) dot_S400000x512_S512x128_S400000x128_1_0_0_1_n_n none (concatenate S400000x512 1 [⟨S400000x256, P⟩, ⟨S400000x256, (addf (F := Ideal) P Q)⟩] concatenates_S400000x256_S400000x256_S400000x512_d1) a2) (broadcastInDim S400000x128 ![0, 1] bcast_S1x128_S400000x128_0_1 (broadcastInDim S1x128 ![1] bcast_S128_S1x128_1 a3))) (mulf (F := Ideal) (broadcastInDim S400000x128 ![] bcast_S_S400000x128 (addf (F := Ideal) (constant (F := Ideal) S_ .f32 0x3F800000#32) a4)) a0)

/-- Its product with the first weight matrix. -/
def stage39 (P Q : FVec Ideal S400000x256 .f32) (a0 : FVec Ideal S400000x128 .f32) (a2 : FVec Ideal S512x128 .f32)
    (a3 : FVec Ideal S128 .f32) (a4 : FVec Ideal S_ .f32) (a5 : FVec Ideal S128x256 .f32) : FVec Ideal S400000x256 .f32 :=
  Host.dotGeneral (F := Ideal) dot_S400000x128_S128x256_S400000x256_1_0_0_1_n_n none ((zOf P Q a0 a2 a3 a4)) a5

/-- Column mean over all rows, width 256. -/
def mean256 (x : FVec Ideal S400000x256 .f32) : FVec Ideal S256 .f32 :=
  Host.divf (F := Ideal) (Host.reduceAdd (F := Ideal) x (constant (F := Ideal) S_ .f32 0x00000000#32) reducesTo_S400000x256_S256_d0 h_S_) (broadcastInDim S256 ![] bcast_S_S256 (constant (F := Ideal) S_ .f32 0x48C35000#32))

/-- Column variance over all rows, width 256 (the called function's operations). -/
def var256 (x : FVec Ideal S400000x256 .f32) : FVec Ideal S256 .f32 :=
  select (broadcastInDim S256 ![] bcast_S_S256 (cmpf (F := Ideal) .ogt (subf (F := Ideal) (constant (F := Ideal) S_ .f32 0x48C35000#32) (sitofp (F := Ideal) .f32 (constantI S_ 32 0#32))) (constant (F := Ideal) S_ .f32 0x00000000#32))) (Host.divf (F := Ideal) (Host.reduceAdd (F := Ideal) (mulf (F := Ideal) (subf (F := Ideal) x (broadcastInDim S400000x256 ![0, 1] bcast_S1x256_S400000x256_0_1 (Host.divf (F := Ideal) (broadcastInDim S1x256 ![1] bcast_S256_S1x256_1 (Host.reduceAdd (F := Ideal) x (constant (F := Ideal) S_ .f32 0x00000000#32) reducesTo_S400000x256_S256_d0 h_S_)) (broadcastInDim S1x256 ![] bcast_S_S1x256 (constant (F := Ideal) S_ .f32 0x48C35000#32))))) (subf (F := Ideal) x (broadcastInDim S400000x256 ![0, 1] bcast_S1x256_S400000x256_0_1 (Host.divf (F := Ideal) (broadcastInDim S1x256 ![1] bcast_S256_S1x256_1 (Host.reduceAdd (F := Ideal) x (constant (F := Ideal) S_ .f32 0x00000000#32) reducesTo_S400000x256_S256_d0 h_S_)) (broadcastInDim S1x256 ![] bcast_S_S1x256 (constant (F := Ideal) S_ .f32 0x48C35000#32)))))) (constant (F := Ideal) S_ .f32 0x00000000#32) reducesTo_S400000x256_S256_d0 h_S_) (broadcastInDim S256 ![] bcast_S_S256 (subf (F := Ideal) (constant (F := Ideal) S_ .f32 0x48C35000#32) (sitofp (F := Ideal) .f32 (constantI S_ 32 0#32))))) (broadcastInDim S256 ![] bcast_S_S256 ((constant (F := Ideal) S_ .f32 0x7FC00000#32)))

/-- Entries minus their column mean. -/
def cen256 (x : FVec Ideal S400000x256 .f32) : FVec Ideal S400000x256 .f32 :=
  subf (F := Ideal) x (broadcastInDim S400000x256 ![0, 1] bcast_S1x256_S400000x256_0_1 (broadcastInDim S1x256 ![1] bcast_S256_S1x256_1 ((mean256 x))))

/-- Column variance plus epsilon. -/
def vpe256 (x : FVec Ideal S400000x256 .f32) : FVec Ideal S256 .f32 :=
  addf (F := Ideal) ((var256 x)) (broadcastInDim S256 ![] bcast_S_S256 (constant (F := Ideal) S_ .f32 0x3727C5AC#32))

/-- Centred entries times the reciprocal square root of e, times g, plus b, clamped at zero. -/
def tail256 (c : FVec Ideal S400000x256 .f32) (e g b : FVec Ideal S256 .f32) : FVec Ideal S400000x256 .f32 :=
  maximumf (F := Ideal) (addf (F := Ideal) (mulf (F := Ideal) (mulf (F := Ideal) c (broadcastInDim S400000x256 ![0, 1] bcast_S1x256_S400000x256_0_1 (broadcastInDim S1x256 ![1] bcast_S256_S1x256_1 (Host.rsqrt (F := Ideal) e)))) (broadcastInDim S400000x256 ![0, 1] bcast_S1x256_S400000x256_0_1 (broadcastInDim S1x256 ![1] bcast_S256_S1x256_1 g))) (broadcastInDim S400000x256 ![0, 1] bcast_S1x256_S400000x256_0_1 (broadcastInDim S1x256 ![1] bcast_S256_S1x256_1 b))) (broadcastInDim S400000x256 ![] bcast_S_S400000x256 (constant (F := Ideal) S_ .f32 0x00000000#32))

/-- The first normalisation. -/
def bn256 (x : FVec Ideal S400000x256 .f32) (g b : FVec Ideal S256 .f32) : FVec Ideal S400000x256 .f32 :=
  tail256 (cen256 x) (vpe256 x) g b

/-- The product with the second weight matrix. -/
def dot3 (y : FVec Ideal S400000x256 .f32) (w : FVec Ideal S256x128 .f32) : FVec Ideal S400000x128 .f32 :=
  Host.dotGeneral (F := Ideal) dot_S400000x256_S256x128_S400000x128_1_0_0_1_n_n none y w

/-- Column mean over all rows, width 128. -/
def mean128 (x : FVec Ideal S400000x128 .f32) : FVec Ideal S128 .f32 :=
  Host.divf (F := Ideal) (Host.reduceAdd (F := Ideal) x (constant (F := Ideal) S_ .f32 0x00000000#32) reducesTo_S400000x128_S128_d0 h_S_) (broadcastInDim S128 ![] bcast_S_S128 (constant (F := Ideal) S_ .f32 0x48C35000#32))

/-- Column variance over all rows, width 128 (the called function's operations). -/
def var128 (x : FVec Ideal S400000x128 .f32) : FVec Ideal S128 .f32 :=
  select (broadcastInDim S128 ![] bcast_S_S128 (cmpf (F := Ideal) .ogt (subf (F := Ideal) (constant (F := Ideal) S_ .f32 0x48C35000#32) (sitofp (F := Ideal) .f32 (constantI S_ 32 0#32))) (constant (F := Ideal) S_ .f32 0x00000000#32))) (Host.divf (F := Ideal) (Host.reduceAdd (F := Ideal) (mulf (F := Ideal) (subf (F := Ideal) x (broadcastInDim S400000x128 ![0, 1] bcast_S1x128_S400000x128_0_1 (Host.divf (F := Ideal) (broadcastInDim S1x128 ![1] bcast_S128_S1x128_1 (Host.reduceAdd (F := Ideal) x (constant (F := Ideal) S_ .f32 0x00000000#32) reducesTo_S400000x128_S128_d0 h_S_)) (broadcastInDim S1x128 ![] bcast_S_S1x128 (constant (F := Ideal) S_ .f32 0x48C35000#32))))) (subf (F := Ideal) x (broadcastInDim S400000x128 ![0, 1] bcast_S1x128_S400000x128_0_1 (Host.divf (F := Ideal) (broadcastInDim S1x128 ![1] bcast_S128_S1x128_1 (Host.reduceAdd (F := Ideal) x (constant (F := Ideal) S_ .f32 0x00000000#32) reducesTo_S400000x128_S128_d0 h_S_)) (broadcastInDim S1x128 ![] bcast_S_S1x128 (constant (F := Ideal) S_ .f32 0x48C35000#32)))))) (constant (F := Ideal) S_ .f32 0x00000000#32) reducesTo_S400000x128_S128_d0 h_S_) (broadcastInDim S128 ![] bcast_S_S128 (subf (F := Ideal) (constant (F := Ideal) S_ .f32 0x48C35000#32) (sitofp (F := Ideal) .f32 (constantI S_ 32 0#32))))) (broadcastInDim S128 ![] bcast_S_S128 ((constant (F := Ideal) S_ .f32 0x7FC00000#32)))

/-- The second normalisation. -/
def bn128 (x : FVec Ideal S400000x128 .f32) (g b : FVec Ideal S128 .f32) : FVec Ideal S400000x128 .f32 :=
  maximumf (F := Ideal) (addf (F := Ideal) (mulf (F := Ideal) (mulf (F := Ideal) (subf (F := Ideal) x (broadcastInDim S400000x128 ![0, 1] bcast_S1x128_S400000x128_0_1 (broadcastInDim S1x128 ![1] bcast_S128_S1x128_1 ((mean128 x))))) (broadcastInDim S400000x128 ![0, 1] bcast_S1x128_S400000x128_0_1 (broadcastInDim S1x128 ![1] bcast_S128_S1x128_1 (Host.rsqrt (F := Ideal) (addf (F := Ideal) ((var128 x)) (broadcastInDim S128 ![] bcast_S_S128 (constant (F := Ideal) S_ .f32 0x3727C5AC#32))))))) (broadcastInDim S400000x128 ![0, 1] bcast_S1x128_S400000x128_0_1 (broadcastInDim S1x128 ![1] bcast_S128_S1x128_1 g))) (broadcastInDim S400000x128 ![0, 1] bcast_S1x128_S400000x128_0_1 (broadcastInDim S1x128 ![1] bcast_S128_S1x128_1 b))) (broadcastInDim S400000x128 ![] bcast_S_S400000x128 (constant (F := Ideal) S_ .f32 0x00000000#32))

/-- The result buffer's contents from the eleven arguments' contents. -/
def resultOf (a0 : FVec Ideal S400000x128 .f32) (a1 : IVec S200000x2 32) (a2 : FVec Ideal S512x128 .f32)
    (a3 : FVec Ideal S128 .f32) (a4 : FVec Ideal S_ .f32) (a5 : FVec Ideal S128x256 .f32) (a6 a7 : FVec Ideal S256 .f32)
    (a8 : FVec Ideal S256x128 .f32) (a9 a10 : FVec Ideal S128 .f32) : FVec Ideal S400000x128 .f32 :=
  bn128 (dot3 (bn256 (stage39 (chainP a0 a1) (chainQ a0 a1) a0 a2 a3 a4 a5) a6 a7) a8) a9 a10

end Cert.ReferenceIdeal.RefRun

end
-- ==== Proof.RefRunStageA.lean ====
/-
  The first stretch read over any contents: the buffers of P and Q from the edge features and the edge list; the
  arguments are untouched.
-/
import proofs.«168283_j50869592655480_2_alg».proof.Proof.RefRunOps
import proofs.«168283_j50869592655480_2_alg».proof.Proof.RefRunTerms

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/- The reductions, the scatter, the gather, the reversal and the layout steps are never opened when two spellings of
   one composed term are compared. -/
attribute [local irreducible] Host.reduceAdd Host.scatterAdd Host.gather Host.reverse concatenate shapeCast broadcastInDim

/-- P. -/
theorem A_v25 (W : Valuation τ sig (Elt Ideal)) :
    after (opsA (F := Ideal)) W (main_v25 : DevRef τ sig) = chainP (W (main_arg0 : DevRef τ sig)) (W (main_arg1 : DevRef τ sig)) := by
  after_results_simp
  rfl

/-- Q. -/
theorem A_v28 (W : Valuation τ sig (Elt Ideal)) :
    after (opsA (F := Ideal)) W (main_v28 : DevRef τ sig) = chainQ (W (main_arg0 : DevRef τ sig)) (W (main_arg1 : DevRef τ sig)) := by
  after_results_simp
  rfl

theorem A_arg0 (W : Valuation τ sig (Elt Ideal)) :
    after (opsA (F := Ideal)) W (main_arg0 : DevRef τ sig) = W (main_arg0 : DevRef τ sig) := by
  after_results_simp

theorem A_arg1 (W : Valuation τ sig (Elt Ideal)) :
    after (opsA (F := Ideal)) W (main_arg1 : DevRef τ sig) = W (main_arg1 : DevRef τ sig) := by
  after_results_simp

theorem A_arg2 (W : Valuation τ sig (Elt Ideal)) :
    after (opsA (F := Ideal)) W (main_arg2 : DevRef τ sig) = W (main_arg2 : DevRef τ sig) := by
  after_results_simp

theorem A_arg3 (W : Valuation τ sig (Elt Ideal)) :
    after (opsA (F := Ideal)) W (main_arg3 : DevRef τ sig) = W (main_arg3 : DevRef τ sig) := by
  after_results_simp

theorem A_arg4 (W : Valuation τ sig (Elt Ideal)) :
    after (opsA (F := Ideal)) W (main_arg4 : DevRef τ sig) = W (main_arg4 : DevRef τ sig) := by
  after_results_simp

theorem A_arg5 (W : Valuation τ sig (Elt Ideal)) :
    after (opsA (F := Ideal)) W (main_arg5 : DevRef τ sig) = W (main_arg5 : DevRef τ sig) := by
  after_results_simp

theorem A_arg6 (W : Valuation τ sig (Elt Ideal)) :
    after (opsA (F := Ideal)) W (main_arg6 : DevRef τ sig) = W (main_arg6 : DevRef τ sig) := by
  after_results_simp

theorem A_arg7 (W : Valuation τ sig (Elt Ideal)) :
    after (opsA (F := Ideal)) W (main_arg7 : DevRef τ sig) = W (main_arg7 : DevRef τ sig) := by
  after_results_simp

theorem A_arg8 (W : Valuation τ sig (Elt Ideal)) :
    after (opsA (F := Ideal)) W (main_arg8 : DevRef τ sig) = W (main_arg8 : DevRef τ sig) := by
  after_results_simp

theorem A_arg9 (W : Valuation τ sig (Elt Ideal)) :
    after (opsA (F := Ideal)) W (main_arg9 : DevRef τ sig) = W (main_arg9 : DevRef τ sig) := by
  after_results_simp

theorem A_arg10 (W : Valuation τ sig (Elt Ideal)) :
    after (opsA (F := Ideal)) W (main_arg10 : DevRef τ sig) = W (main_arg10 : DevRef τ sig) := by
  after_results_simp

end Cert.ReferenceIdeal.RefRun

end
-- ==== Proof.RefRunStageB.lean ====
/-
  The second stretch read over any contents: the first product from P, Q and the arguments; the arguments are untouched.
-/
import proofs.«168283_j50869592655480_2_alg».proof.Proof.RefRunOps
import proofs.«168283_j50869592655480_2_alg».proof.Proof.RefRunTerms

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/- The reductions, the scatter, the gather, the reversal and the layout steps are never opened when two spellings of
   one composed term are compared. -/
attribute [local irreducible] Host.reduceAdd Host.scatterAdd Host.gather Host.reverse concatenate shapeCast broadcastInDim

/-- The first product. -/
theorem B_v39 (W : Valuation τ sig (Elt Ideal)) :
    after (opsB (F := Ideal)) W (main_v39 : DevRef τ sig) = stage39 (W (main_v25 : DevRef τ sig)) (W (main_v28 : DevRef τ sig)) (W (main_arg0 : DevRef τ sig)) (W (main_arg2 : DevRef τ sig)) (W (main_arg3 : DevRef τ sig)) (W (main_arg4 : DevRef τ sig)) (W (main_arg5 : DevRef τ sig)) := by
  after_results_simp
  rfl

theorem B_arg0 (W : Valuation τ sig (Elt Ideal)) :
    after (opsB (F := Ideal)) W (main_arg0 : DevRef τ sig) = W (main_arg0 : DevRef τ sig) := by
  after_results_simp

theorem B_arg1 (W : Valuation τ sig (Elt Ideal)) :
    after (opsB (F := Ideal)) W (main_arg1 : DevRef τ sig) = W (main_arg1 : DevRef τ sig) := by
  after_results_simp

theorem B_arg2 (W : Valuation τ sig (Elt Ideal)) :
    after (opsB (F := Ideal)) W (main_arg2 : DevRef τ sig) = W (main_arg2 : DevRef τ sig) := by
  after_results_simp

theorem B_arg3 (W : Valuation τ sig (Elt Ideal)) :
    after (opsB (F := Ideal)) W (main_arg3 : DevRef τ sig) = W (main_arg3 : DevRef τ sig) := by
  after_results_simp

theorem B_arg4 (W : Valuation τ sig (Elt Ideal)) :
    after (opsB (F := Ideal)) W (main_arg4 : DevRef τ sig) = W (main_arg4 : DevRef τ sig) := by
  after_results_simp

theorem B_arg5 (W : Valuation τ sig (Elt Ideal)) :
    after (opsB (F := Ideal)) W (main_arg5 : DevRef τ sig) = W (main_arg5 : DevRef τ sig) := by
  after_results_simp

theorem B_arg6 (W : Valuation τ sig (Elt Ideal)) :
    after (opsB (F := Ideal)) W (main_arg6 : DevRef τ sig) = W (main_arg6 : DevRef τ sig) := by
  after_results_simp

theorem B_arg7 (W : Valuation τ sig (Elt Ideal)) :
    after (opsB (F := Ideal)) W (main_arg7 : DevRef τ sig) = W (main_arg7 : DevRef τ sig) := by
  after_results_simp

theorem B_arg8 (W : Valuation τ sig (Elt Ideal)) :
    after (opsB (F := Ideal)) W (main_arg8 : DevRef τ sig) = W (main_arg8 : DevRef τ sig) := by
  after_results_simp

theorem B_arg9 (W : Valuation τ sig (Elt Ideal)) :
    after (opsB (F := Ideal)) W (main_arg9 : DevRef τ sig) = W (main_arg9 : DevRef τ sig) := by
  after_results_simp

theorem B_arg10 (W : Valuation τ sig (Elt Ideal)) :
    after (opsB (F := Ideal)) W (main_arg10 : DevRef τ sig) = W (main_arg10 : DevRef τ sig) := by
  after_results_simp

end Cert.ReferenceIdeal.RefRun

end
-- ==== Proof.RefRunStageC.lean ====
/-
  The third stretch read over any contents: the centred entries and variance + epsilon from the first product; the
  arguments are untouched.
-/
import proofs.«168283_j50869592655480_2_alg».proof.Proof.RefRunOps
import proofs.«168283_j50869592655480_2_alg».proof.Proof.RefRunTerms

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/- The reductions, the scatter, the gather, the reversal and the layout steps are never opened when two spellings of
   one composed term are compared. -/
attribute [local irreducible] Host.reduceAdd Host.scatterAdd Host.gather Host.reverse concatenate shapeCast broadcastInDim

/-- The centred entries. -/
theorem C_v46 (W : Valuation τ sig (Elt Ideal)) :
    after (opsC (F := Ideal)) W (main_v46 : DevRef τ sig) = cen256 (W (main_v39 : DevRef τ sig)) := by
  after_results_simp
  rfl

/-- Variance + epsilon. -/
theorem C_v48 (W : Valuation τ sig (Elt Ideal)) :
    after (opsC (F := Ideal)) W (main_v48 : DevRef τ sig) = vpe256 (W (main_v39 : DevRef τ sig)) := by
  after_results_simp
  rfl

theorem C_arg0 (W : Valuation τ sig (Elt Ideal)) :
    after (opsC (F := Ideal)) W (main_arg0 : DevRef τ sig) = W (main_arg0 : DevRef τ sig) := by
  after_results_simp

theorem C_arg1 (W : Valuation τ sig (Elt Ideal)) :
    after (opsC (F := Ideal)) W (main_arg1 : DevRef τ sig) = W (main_arg1 : DevRef τ sig) := by
  after_results_simp

theorem C_arg2 (W : Valuation τ sig (Elt Ideal)) :
    after (opsC (F := Ideal)) W (main_arg2 : DevRef τ sig) = W (main_arg2 : DevRef τ sig) := by
  after_results_simp

theorem C_arg3 (W : Valuation τ sig (Elt Ideal)) :
    after (opsC (F := Ideal)) W (main_arg3 : DevRef τ sig) = W (main_arg3 : DevRef τ sig) := by
  after_results_simp

theorem C_arg4 (W : Valuation τ sig (Elt Ideal)) :
    after (opsC (F := Ideal)) W (main_arg4 : DevRef τ sig) = W (main_arg4 : DevRef τ sig) := by
  after_results_simp

theorem C_arg5 (W : Valuation τ sig (Elt Ideal)) :
    after (opsC (F := Ideal)) W (main_arg5 : DevRef τ sig) = W (main_arg5 : DevRef τ sig) := by
  after_results_simp

theorem C_arg6 (W : Valuation τ sig (Elt Ideal)) :
    after (opsC (F := Ideal)) W (main_arg6 : DevRef τ sig) = W (main_arg6 : DevRef τ sig) := by
  after_results_simp

theorem C_arg7 (W : Valuation τ sig (Elt Ideal)) :
    after (opsC (F := Ideal)) W (main_arg7 : DevRef τ sig) = W (main_arg7 : DevRef τ sig) := by
  after_results_simp

theorem C_arg8 (W : Valuation τ sig (Elt Ideal)) :
    after (opsC (F := Ideal)) W (main_arg8 : DevRef τ sig) = W (main_arg8 : DevRef τ sig) := by
  after_results_simp

theorem C_arg9 (W : Valuation τ sig (Elt Ideal)) :
    after (opsC (F := Ideal)) W (main_arg9 : DevRef τ sig) = W (main_arg9 : DevRef τ sig) := by
  after_results_simp

theorem C_arg10 (W : Valuation τ sig (Elt Ideal)) :
    after (opsC (F := Ideal)) W (main_arg10 : DevRef τ sig) = W (main_arg10 : DevRef τ sig) := by
  after_results_simp

end Cert.ReferenceIdeal.RefRun

end
-- ==== Proof.RefRunStageD.lean ====
/-
  The fourth stretch read over any contents: the second product's buffer from the centred entries, variance + epsilon,
  gamma, beta and the second weight matrix; the arguments are untouched.
-/
import proofs.«168283_j50869592655480_2_alg».proof.Proof.RefRunOps
import proofs.«168283_j50869592655480_2_alg».proof.Proof.RefRunTerms

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/- The reductions, the scatter, the gather, the reversal and the layout steps are never opened when two spellings of
   one composed term are compared. -/
attribute [local irreducible] Host.reduceAdd Host.scatterAdd Host.gather Host.reverse concatenate shapeCast broadcastInDim

/-- The second product after the fourth stretch. -/
theorem D_v60 (W : Valuation τ sig (Elt Ideal)) :
    after (opsD (F := Ideal)) W (main_v60 : DevRef τ sig) = dot3 (tail256 (W (main_v46 : DevRef τ sig)) (W (main_v48 : DevRef τ sig)) (W (main_arg6 : DevRef τ sig)) (W (main_arg7 : DevRef τ sig))) (W (main_arg8 : DevRef τ sig)) := by
  after_results_simp
  rfl

theorem D_arg0 (W : Valuation τ sig (Elt Ideal)) :
    after (opsD (F := Ideal)) W (main_arg0 : DevRef τ sig) = W (main_arg0 : DevRef τ sig) := by
  after_results_simp

theorem D_arg1 (W : Valuation τ sig (Elt Ideal)) :
    after (opsD (F := Ideal)) W (main_arg1 : DevRef τ sig) = W (main_arg1 : DevRef τ sig) := by
  after_results_simp

theorem D_arg2 (W : Valuation τ sig (Elt Ideal)) :
    after (opsD (F := Ideal)) W (main_arg2 : DevRef τ sig) = W (main_arg2 : DevRef τ sig) := by
  after_results_simp

theorem D_arg3 (W : Valuation τ sig (Elt Ideal)) :
    after (opsD (F := Ideal)) W (main_arg3 : DevRef τ sig) = W (main_arg3 : DevRef τ sig) := by
  after_results_simp

theorem D_arg4 (W : Valuation τ sig (Elt Ideal)) :
    after (opsD (F := Ideal)) W (main_arg4 : DevRef τ sig) = W (main_arg4 : DevRef τ sig) := by
  after_results_simp

theorem D_arg5 (W : Valuation τ sig (Elt Ideal)) :
    after (opsD (F := Ideal)) W (main_arg5 : DevRef τ sig) = W (main_arg5 : DevRef τ sig) := by
  after_results_simp

theorem D_arg6 (W : Valuation τ sig (Elt Ideal)) :
    after (opsD (F := Ideal)) W (main_arg6 : DevRef τ sig) = W (main_arg6 : DevRef τ sig) := by
  after_results_simp

theorem D_arg7 (W : Valuation τ sig (Elt Ideal)) :
    after (opsD (F := Ideal)) W (main_arg7 : DevRef τ sig) = W (main_arg7 : DevRef τ sig) := by
  after_results_simp

theorem D_arg8 (W : Valuation τ sig (Elt Ideal)) :
    after (opsD (F := Ideal)) W (main_arg8 : DevRef τ sig) = W (main_arg8 : DevRef τ sig) := by
  after_results_simp

theorem D_arg9 (W : Valuation τ sig (Elt Ideal)) :
    after (opsD (F := Ideal)) W (main_arg9 : DevRef τ sig) = W (main_arg9 : DevRef τ sig) := by
  after_results_simp

theorem D_arg10 (W : Valuation τ sig (Elt Ideal)) :
    after (opsD (F := Ideal)) W (main_arg10 : DevRef τ sig) = W (main_arg10 : DevRef τ sig) := by
  after_results_simp

end Cert.ReferenceIdeal.RefRun

end
-- ==== Proof.RefRunStageE.lean ====
/-
  The last stretch of the reference's line read over any contents: the result buffer is the width-128 normalisation of the
  second product; the arguments are untouched.
-/
import proofs.«168283_j50869592655480_2_alg».proof.Proof.RefRunOps
import proofs.«168283_j50869592655480_2_alg».proof.Proof.RefRunTerms

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/- The reductions, the scatter, the gather, the reversal and the layout steps are never opened when two spellings of
   one composed term are compared. -/
attribute [local irreducible] Host.reduceAdd Host.scatterAdd Host.gather Host.reverse concatenate shapeCast broadcastInDim

/-- The result buffer after the last stretch. -/
theorem E_v80 (W : Valuation τ sig (Elt Ideal)) :
    after (opsE (F := Ideal)) W (main_v80 : DevRef τ sig) = bn128 (W (main_v60 : DevRef τ sig)) (W (main_arg9 : DevRef τ sig)) (W (main_arg10 : DevRef τ sig)) := by
  after_results_simp
  rfl

theorem E_arg0 (W : Valuation τ sig (Elt Ideal)) :
    after (opsE (F := Ideal)) W (main_arg0 : DevRef τ sig) = W (main_arg0 : DevRef τ sig) := by
  after_results_simp

theorem E_arg1 (W : Valuation τ sig (Elt Ideal)) :
    after (opsE (F := Ideal)) W (main_arg1 : DevRef τ sig) = W (main_arg1 : DevRef τ sig) := by
  after_results_simp

theorem E_arg2 (W : Valuation τ sig (Elt Ideal)) :
    after (opsE (F := Ideal)) W (main_arg2 : DevRef τ sig) = W (main_arg2 : DevRef τ sig) := by
  after_results_simp

theorem E_arg3 (W : Valuation τ sig (Elt Ideal)) :
    after (opsE (F := Ideal)) W (main_arg3 : DevRef τ sig) = W (main_arg3 : DevRef τ sig) := by
  after_results_simp

theorem E_arg4 (W : Valuation τ sig (Elt Ideal)) :
    after (opsE (F := Ideal)) W (main_arg4 : DevRef τ sig) = W (main_arg4 : DevRef τ sig) := by
  after_results_simp

theorem E_arg5 (W : Valuation τ sig (Elt Ideal)) :
    after (opsE (F := Ideal)) W (main_arg5 : DevRef τ sig) = W (main_arg5 : DevRef τ sig) := by
  after_results_simp

theorem E_arg6 (W : Valuation τ sig (Elt Ideal)) :
    after (opsE (F := Ideal)) W (main_arg6 : DevRef τ sig) = W (main_arg6 : DevRef τ sig) := by
  after_results_simp

theorem E_arg7 (W : Valuation τ sig (Elt Ideal)) :
    after (opsE (F := Ideal)) W (main_arg7 : DevRef τ sig) = W (main_arg7 : DevRef τ sig) := by
  after_results_simp

theorem E_arg8 (W : Valuation τ sig (Elt Ideal)) :
    after (opsE (F := Ideal)) W (main_arg8 : DevRef τ sig) = W (main_arg8 : DevRef τ sig) := by
  after_results_simp

theorem E_arg9 (W : Valuation τ sig (Elt Ideal)) :
    after (opsE (F := Ideal)) W (main_arg9 : DevRef τ sig) = W (main_arg9 : DevRef τ sig) := by
  after_results_simp

theorem E_arg10 (W : Valuation τ sig (Elt Ideal)) :
    after (opsE (F := Ideal)) W (main_arg10 : DevRef τ sig) = W (main_arg10 : DevRef τ sig) := by
  after_results_simp

end Cert.ReferenceIdeal.RefRun

end
-- ==== Proof.RefRun.lean ====
/-
  The reference's run read back.

  The line of host operations is cut in five stretches.  What the buffers hold after the whole line is what they hold
  after the last stretch started from what they held after the ones before (a fold over a concatenation); each
  stretch's result buffers are read over ANY starting contents as the composed term of the buffers it starts from, and
  no stretch writes an argument.  Chaining the five readings gives the result buffer as `resultOf` of the eleven
  arguments' launch contents, and every weakly fair execution of the entry function terminates in such a state.
-/
import proofs.«168283_j50869592655480_2_alg».proof.Proof.RefRunStageA
import proofs.«168283_j50869592655480_2_alg».proof.Proof.RefRunStageB
import proofs.«168283_j50869592655480_2_alg».proof.Proof.RefRunStageC
import proofs.«168283_j50869592655480_2_alg».proof.Proof.RefRunStageD
import proofs.«168283_j50869592655480_2_alg».proof.Proof.RefRunStageE

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- Two lines one after the other: the second read from what the first leaves. -/
theorem after_concat : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_concat l₁ l₂]

/-- The whole line read stretch by stretch. -/
theorem ops_split (V : Valuation τ sig (Elt Ideal)) :
    after (ops (F := Ideal)) V = after opsE (after opsD (after opsC (after opsB (after opsA V)))) := by
  show after (opsA ++ (opsB ++ (opsC ++ (opsD ++ opsE)))) V = _
  rw [after_concat, after_concat, after_concat, after_concat]

/-- The result buffer after the whole line, from any starting contents. -/
theorem v80_eq (V : Valuation τ sig (Elt Ideal)) :
    after (ops (F := Ideal)) V (main_v80 : DevRef τ sig) = resultOf (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [ops_split, E_v80, D_v60, D_arg9, D_arg10, C_v46, C_v48, C_arg6, C_arg7, C_arg8, C_arg9, C_arg10,
    B_v39, B_arg6, B_arg7, B_arg8, B_arg9, B_arg10, A_v25, A_v28,
    A_arg0, A_arg2, A_arg3, A_arg4, A_arg5, A_arg6, A_arg7, A_arg8, A_arg9, A_arg10]
  rfl

theorem arg0_eq (V : Valuation τ sig (Elt Ideal)) :
    after (ops (F := Ideal)) V (main_arg0 : DevRef τ sig) = V (main_arg0 : DevRef τ sig) := by
  rw [ops_split, E_arg0, D_arg0, C_arg0, B_arg0, A_arg0]

theorem arg1_eq (V : Valuation τ sig (Elt Ideal)) :
    after (ops (F := Ideal)) V (main_arg1 : DevRef τ sig) = V (main_arg1 : DevRef τ sig) := by
  rw [ops_split, E_arg1, D_arg1, C_arg1, B_arg1, A_arg1]

theorem arg2_eq (V : Valuation τ sig (Elt Ideal)) :
    after (ops (F := Ideal)) V (main_arg2 : DevRef τ sig) = V (main_arg2 : DevRef τ sig) := by
  rw [ops_split, E_arg2, D_arg2, C_arg2, B_arg2, A_arg2]

theorem arg3_eq (V : Valuation τ sig (Elt Ideal)) :
    after (ops (F := Ideal)) V (main_arg3 : DevRef τ sig) = V (main_arg3 : DevRef τ sig) := by
  rw [ops_split, E_arg3, D_arg3, C_arg3, B_arg3, A_arg3]

theorem arg4_eq (V : Valuation τ sig (Elt Ideal)) :
    after (ops (F := Ideal)) V (main_arg4 : DevRef τ sig) = V (main_arg4 : DevRef τ sig) := by
  rw [ops_split, E_arg4, D_arg4, C_arg4, B_arg4, A_arg4]

theorem arg5_eq (V : Valuation τ sig (Elt Ideal)) :
    after (ops (F := Ideal)) V (main_arg5 : DevRef τ sig) = V (main_arg5 : DevRef τ sig) := by
  rw [ops_split, E_arg5, D_arg5, C_arg5, B_arg5, A_arg5]

theorem arg6_eq (V : Valuation τ sig (Elt Ideal)) :
    after (ops (F := Ideal)) V (main_arg6 : DevRef τ sig) = V (main_arg6 : DevRef τ sig) := by
  rw [ops_split, E_arg6, D_arg6, C_arg6, B_arg6, A_arg6]

theorem arg7_eq (V : Valuation τ sig (Elt Ideal)) :
    after (ops (F := Ideal)) V (main_arg7 : DevRef τ sig) = V (main_arg7 : DevRef τ sig) := by
  rw [ops_split, E_arg7, D_arg7, C_arg7, B_arg7, A_arg7]

theorem arg8_eq (V : Valuation τ sig (Elt Ideal)) :
    after (ops (F := Ideal)) V (main_arg8 : DevRef τ sig) = V (main_arg8 : DevRef τ sig) := by
  rw [ops_split, E_arg8, D_arg8, C_arg8, B_arg8, A_arg8]

theorem arg9_eq (V : Valuation τ sig (Elt Ideal)) :
    after (ops (F := Ideal)) V (main_arg9 : DevRef τ sig) = V (main_arg9 : DevRef τ sig) := by
  rw [ops_split, E_arg9, D_arg9, C_arg9, B_arg9, A_arg9]

theorem arg10_eq (V : Valuation τ sig (Elt Ideal)) :
    after (ops (F := Ideal)) V (main_arg10 : DevRef τ sig) = V (main_arg10 : DevRef τ sig) := by
  rw [ops_split, E_arg10, D_arg10, C_arg10, B_arg10, A_arg10]

theorem scopedRefs_eq : (Finset.univ.filter fun b : Ref sig .tc => b.isScoped) = ∅ := by decide
theorem scopedSems_eq : (Finset.univ.filter fun sm : SemLoc sig => sm.isScoped .tc) = ∅ := by decide

theorem subA : (opsA : List (HloOp τ sig (Elt Ideal))).Forall fun op => op.bufs ⊆ tcRefs τ sig :=
  ⟨reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., reshape_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., reshape_bufs_sub ..⟩

theorem freshA : ∀ op ∈ (opsA : List (HloOp τ sig (Elt Ideal))), op.fresh = ∅ := by
  intro _ h; (repeat (cases h with | head => rfl | tail _ h => ?_)); exact nomatch h

theorem subB : (opsB : List (HloOp τ sig (Elt Ideal))).Forall fun op => op.bufs ⊆ tcRefs τ sig :=
  ⟨binary_bufs_sub .., binary_bufs_sub .., binary_bufs_sub .., unary_bufs_sub .., unary_bufs_sub .., binary_bufs_sub .., nullary_bufs_sub .., binary_bufs_sub .., unary_bufs_sub .., binary_bufs_sub .., binary_bufs_sub .., binary_bufs_sub ..⟩

theorem freshB : ∀ op ∈ (opsB : List (HloOp τ sig (Elt Ideal))), op.fresh = ∅ := by
  intro _ h; (repeat (cases h with | head => rfl | tail _ h => ?_)); exact nomatch h

theorem subC : (opsC : List (HloOp τ sig (Elt Ideal))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

theorem freshC : ∀ op ∈ (opsC : List (HloOp τ sig (Elt Ideal))), op.fresh = ∅ := by
  intro _ h; (repeat (cases h with | head => rfl | tail _ h => ?_)); exact nomatch h

theorem subD : (opsD : List (HloOp τ sig (Elt Ideal))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

theorem freshD : ∀ op ∈ (opsD : List (HloOp τ sig (Elt Ideal))), op.fresh = ∅ := by
  intro _ h; (repeat (cases h with | head => rfl | tail _ h => ?_)); exact nomatch h

theorem subE : (opsE : List (HloOp τ sig (Elt Ideal))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem freshE : ∀ op ∈ (opsE : List (HloOp τ sig (Elt Ideal))), op.fresh = ∅ := by
  intro _ h; (repeat (cases h with | head => rfl | tail _ h => ?_)); exact nomatch h

/-- Every operation of the line is one of the five stretches'. -/
theorem mem_ops {op : HloOp τ sig (Elt Ideal)} (h : op ∈ (ops : List (HloOp τ sig (Elt Ideal)))) :
    op ∈ (opsA : List (HloOp τ sig (Elt Ideal))) ∨ op ∈ (opsB : List (HloOp τ sig (Elt Ideal))) ∨ op ∈ (opsC : List (HloOp τ sig (Elt Ideal)))
      ∨ op ∈ (opsD : List (HloOp τ sig (Elt Ideal))) ∨ op ∈ (opsE : List (HloOp τ sig (Elt Ideal))) := by
  rcases List.mem_append.mp h with h | h
  · exact .inl h
  rcases List.mem_append.mp h with h | h
  · exact .inr (.inl h)
  rcases List.mem_append.mp h with h | h
  · exact .inr (.inr (.inl h))
  rcases List.mem_append.mp h with h | h
  · exact .inr (.inr (.inr (.inl h)))
  · exact .inr (.inr (.inr (.inr h)))

theorem ops_sub : (ops : List (HloOp τ sig (Elt Ideal))).Forall fun op => op.bufs ⊆ tcRefs τ sig :=
  List.forall_iff_forall_mem.mpr fun op h => by
    rcases mem_ops h with h | h | h | h | h
    · exact List.forall_iff_forall_mem.mp subA op h
    · exact List.forall_iff_forall_mem.mp subB op h
    · exact List.forall_iff_forall_mem.mp subC op h
    · exact List.forall_iff_forall_mem.mp subD op h
    · exact List.forall_iff_forall_mem.mp subE op h

theorem ops_fresh : ∀ op ∈ (ops : List (HloOp τ sig (Elt Ideal))), op.fresh = ∅ := fun op h => by
  rcases mem_ops h with h | h | h | h | h
  · exact freshA op h
  · exact freshB op h
  · exact freshC op h
  · exact freshD op h
  · exact freshE op h

/-- On every device, from any memory with zero counters: every weakly fair execution of the entry function terminates
    with the result buffer at `resultOf` of the arguments' launch contents and the eleven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v80).trans (v80_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_seq scopedRefs_eq scopedSems_eq defs main (fun _ => ops) main_eq (fun _ => ops_sub) m ρ (fun _ => ops_fresh))

end Cert.ReferenceIdeal.RefRun

end
-- ==== Proof.RefRunApply.lean ====
/-
  The reference's composed term read entry by entry.

  Each stretch of the composed term is read at an entry (p, q) with one lemma per operation that is not entrywise:
  a matrix product is the sum over the contracted index; two matrices side by side read the left or the right one;
  a vector made a row and repeated down the rows reads the vector's entry; a scalar repeated reads the scalar; a
  column reduction is its starting value plus the sum over the rows.  The variance function divides by
  400000 - (the integer 0 converted) and keeps the quotient where that divisor is positive: the pattern of 400000 is
  the real 400000, so the divisor is that number and the select keeps the quotient.  Put together, the result buffer
  is `Spec.refOut` of P, Q and the arguments.
-/
import proofs.«168283_j50869592655480_2_alg».proof.Proof.RefRunTerms
import proofs.«168283_j50869592655480_2_alg».proof.Proof.Spec
import proofs.«168283_j50869592655480_2_alg».proof.Proof.LibRank2
import Idealize.ShloMosaic.Lib.IdealHost

noncomputable section

namespace Cert.ReferenceIdeal.RefRun

open Cert.ReferenceIdeal Idealize.ShloMosaic Idealize.ShloMosaic.ValueIdx
open Cert.ReferenceIdeal.Facts₀ Cert.ReferenceIdeal.Facts
open scoped BigOperators

variable [Cert.ReferenceIdeal.Facts]

/-! ## The constants -/

/-- The pattern the programs write for the number of rows is the real number 400000. -/
theorem cN_eq : Spec.cN = ((400000 : ℝ) : EReal) := by
  simp [Spec.cN, Ideal.ofBits, Ideal.ieee, -EReal.coe_mul]
  norm_num

/-- The variance's divisor: 400000 minus the integer 0 converted is 400000. -/
theorem divisor_eq :
    subf (F := Ideal) (constant (F := Ideal) S_ .f32 0x48C35000#32) (sitofp (F := Ideal) .f32 (constantI S_ 32 0#32)) ix0 = Spec.cN := by
  rw [subf_apply, constant_apply, sitofp_apply]
  show Ideal.ofBits .f32 0x48C35000#32 - (((0#32 : BitVec 32).toInt : ℝ) : EReal) = Spec.cN
  rw [show ((0#32 : BitVec 32).toInt : ℝ) = 0 by norm_num, EReal.coe_zero, sub_zero]
  rfl

/-- The divisor is positive: the comparison answers 1. -/
theorem divisor_pos :
    cmpf (F := Ideal) .ogt (subf (F := Ideal) (constant (F := Ideal) S_ .f32 0x48C35000#32) (sitofp (F := Ideal) .f32 (constantI S_ 32 0#32)))
      (constant (F := Ideal) S_ .f32 0x00000000#32) ix0 = 1#1 := by
  rw [cmpf_apply, divisor_eq, constant_apply, Ideal.ofBits_zero_f32, cN_eq]
  show BitVec.ofBool (decide ((0 : EReal) < ((400000 : ℝ) : EReal))) = 1#1
  rw [decide_eq_true (by exact_mod_cast (by norm_num : (0 : ℝ) < 400000))]
  rfl

/-! ## Layout steps at an entry -/

/-- A column reduction by the host, at column q: the starting value plus the sum over the rows. -/
theorem hostColSum_apply {a b : ℕ} (x : FVec Ideal ⟨2, ![a, b]⟩ .f32) (init : FVec Ideal ⟨0, ![]⟩ .f32)
    (h' : (⟨2, ![a, b]⟩ : Shape).ReducesTo [0] ⟨1, ![b]⟩) (hu : 0 < (⟨0, ![]⟩ : Shape).numel) (q : Fin b) :
    Host.reduceAdd (F := Ideal) x init h' hu (ix1 q) = init ix0 + ∑ p : Fin a, x (ix2 p q) := by
  have h : (⟨2, ![a, b]⟩ : Shape).Reduces [0] ⟨1, ![b]⟩ := by
    obtain ⟨h1, h2⟩ := h'
    exact ⟨h1, Nat.one_pos, h2⟩
  refine (hostReduceAdd_apply x init h' hu (ix1 q)).trans ((Ideal.hostReduceAdd_single h' h x _ (ix1 q)).trans ?_)
  rw [eq_ix0 (Shape.Idx.first hu)]
  exact congrArg (fun s => init ix0 + s) (Finset.sum_congr rfl fun p _ => congrArg x (funext fun d => Fin.ext (by
    match d with
    | ⟨0, _⟩ => rfl
    | ⟨1, _⟩ => rfl)))

/-- A 1 x n row repeated down M rows: entry (p, q) is the row's entry (0, q). -/
theorem rows_apply {α : Type} {M n : ℕ} (v : (⟨2, ![1, n]⟩ : Shape).Idx → α)
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ v (ix2 p q) = v (ix2 (0 : Fin 1) q) := by
  refine broadcastInDim_apply ![0, 1] h₂ v (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- A vector made a 1 x n row: entry (0, q) is the vector's entry q. -/
theorem row1_apply {α : Type} {n : ℕ} (b : (⟨1, ![n]⟩ : Shape).Idx → α)
    (h₁ : (⟨1, ![n]⟩ : Shape).BroadcastsInDim ⟨2, ![1, n]⟩ (![1] : Fin 1 → Fin 2)) (u : Fin 1) (q : Fin n) :
    broadcastInDim ⟨2, ![1, n]⟩ ![1] h₁ b (ix2 u q) = b (ix1 q) := by
  refine broadcastInDim_apply ![1] h₁ b (ix2 u q) (ix1 q) fun a => ?_
  match a with
  | ⟨0, _⟩ =>
    show q.val = if n = 1 then 0 else q.val
    split
    · have := q.isLt; omega
    · rfl

/-! ## Width 256: the column mean, the column variance, the normalisation -/

/-- The column mean at column q. -/
theorem mean256_apply (x : FVec Ideal S400000x256 .f32) (q : Fin 256) :
    mean256 x (ix1 q) = Spec.rMean (Spec.mat x) q := by
  unfold mean256
  rw [hostDivf_apply, hostColSum_apply, broadcastInDim_scalar_apply, constant_apply, constant_apply, Ideal.ofBits_zero_f32,
    zero_add]
  rfl

/-- Inside the variance: an entry minus its column's mean (the mean taken through a 1 x 256 row). -/
theorem var256_centred (x : FVec Ideal S400000x256 .f32) (p : Fin 400000) (q : Fin 256) :
    subf (F := Ideal) x (broadcastInDim S400000x256 ![0, 1] bcast_S1x256_S400000x256_0_1 (Host.divf (F := Ideal)
      (broadcastInDim S1x256 ![1] bcast_S256_S1x256_1 (Host.reduceAdd (F := Ideal) x (constant (F := Ideal) S_ .f32 0x00000000#32) reducesTo_S400000x256_S256_d0 h_S_))
      (broadcastInDim S1x256 ![] bcast_S_S1x256 (constant (F := Ideal) S_ .f32 0x48C35000#32)))) (ix2 p q)
      = x (ix2 p q) - Spec.rMean (Spec.mat x) q := by
  rw [subf_apply, rows_apply, hostDivf_apply, row1_apply, hostColSum_apply, broadcastInDim_scalar_apply, constant_apply,
    constant_apply, Ideal.ofBits_zero_f32, zero_add]
  rfl

/-- The column variance at column q: the divisor is positive, so the select keeps the quotient. -/
theorem var256_apply (x : FVec Ideal S400000x256 .f32) (q : Fin 256) :
    var256 x (ix1 q) = Spec.rVar (Spec.mat x) q := by
  unfold var256
  rw [select_apply, broadcastInDim_scalar_apply, divisor_pos, select_one, hostDivf_apply, hostColSum_apply,
    broadcastInDim_scalar_apply, divisor_eq, constant_apply, Ideal.ofBits_zero_f32, zero_add]
  unfold Spec.rVar
  refine congrArg (fun s => Ideal.div s Spec.cN) (Finset.sum_congr rfl fun p _ => ?_)
  rw [mulf_apply, var256_centred]
  rfl

/-- The first normalisation, entry by entry. -/
theorem bn256_mat (x : FVec Ideal S400000x256 .f32) (g b : FVec Ideal S256 .f32) :
    Spec.mat (bn256 x g b) = Spec.rBN (Spec.mat x) (Spec.vec g) (Spec.vec b) := by
  funext p q
  show bn256 x g b (ix2 p q) = _
  unfold bn256 tail256 cen256 vpe256
  rw [maximumf_apply, addf_apply, mulf_apply, mulf_apply, subf_apply, Cert.Rank2.rowBias_apply, Cert.Rank2.rowBias_apply,
    Cert.Rank2.rowBias_apply, Cert.Rank2.rowBias_apply, broadcastInDim_scalar_apply, constant_apply, Ideal.ofBits_zero_f32,
    mean256_apply]
  show max ((((x (ix2 p q) - Spec.rMean (Spec.mat x) q) * Ideal.rsqrt (addf (F := Ideal) (var256 x)
      (broadcastInDim S256 ![] bcast_S_S256 (constant (F := Ideal) S_ .f32 0x3727C5AC#32)) (ix1 q))) * g (ix1 q)) + b (ix1 q)) 0 = _
  rw [addf_apply, var256_apply, broadcastInDim_scalar_apply, constant_apply]
  rfl

/-! ## Width 128: the column mean, the column variance, the normalisation -/

/-- The column mean at column q. -/
theorem mean128_apply (x : FVec Ideal S400000x128 .f32) (q : Fin 128) :
    mean128 x (ix1 q) = Spec.rMean (Spec.mat x) q := by
  unfold mean128
  rw [hostDivf_apply, hostColSum_apply, broadcastInDim_scalar_apply, constant_apply, constant_apply, Ideal.ofBits_zero_f32,
    zero_add]
  rfl

/-- Inside the variance: an entry minus its column's mean (the mean taken through a 1 x 128 row). -/
theorem var128_centred (x : FVec Ideal S400000x128 .f32) (p : Fin 400000) (q : Fin 128) :
    subf (F := Ideal) x (broadcastInDim S400000x128 ![0, 1] bcast_S1x128_S400000x128_0_1 (Host.divf (F := Ideal)
      (broadcastInDim S1x128 ![1] bcast_S128_S1x128_1 (Host.reduceAdd (F := Ideal) x (constant (F := Ideal) S_ .f32 0x00000000#32) reducesTo_S400000x128_S128_d0 h_S_))
      (broadcastInDim S1x128 ![] bcast_S_S1x128 (constant (F := Ideal) S_ .f32 0x48C35000#32)))) (ix2 p q)
      = x (ix2 p q) - Spec.rMean (Spec.mat x) q := by
  rw [subf_apply, rows_apply, hostDivf_apply, row1_apply, hostColSum_apply, broadcastInDim_scalar_apply, constant_apply,
    constant_apply, Ideal.ofBits_zero_f32, zero_add]
  rfl

/-- The column variance at column q: the divisor is positive, so the select keeps the quotient. -/
theorem var128_apply (x : FVec Ideal S400000x128 .f32) (q : Fin 128) :
    var128 x (ix1 q) = Spec.rVar (Spec.mat x) q := by
  unfold var128
  rw [select_apply, broadcastInDim_scalar_apply, divisor_pos, select_one, hostDivf_apply, hostColSum_apply,
    broadcastInDim_scalar_apply, divisor_eq, constant_apply, Ideal.ofBits_zero_f32, zero_add]
  unfold Spec.rVar
  refine congrArg (fun s => Ideal.div s Spec.cN) (Finset.sum_congr rfl fun p _ => ?_)
  rw [mulf_apply, var128_centred]
  rfl

/-- The second normalisation, entry by entry. -/
theorem bn128_mat (x : FVec Ideal S400000x128 .f32) (g b : FVec Ideal S128 .f32) :
    Spec.mat (bn128 x g b) = Spec.rBN (Spec.mat x) (Spec.vec g) (Spec.vec b) := by
  funext p q
  show bn128 x g b (ix2 p q) = _
  unfold bn128
  rw [maximumf_apply, addf_apply, mulf_apply, mulf_apply, subf_apply, Cert.Rank2.rowBias_apply, Cert.Rank2.rowBias_apply,
    Cert.Rank2.rowBias_apply, Cert.Rank2.rowBias_apply, broadcastInDim_scalar_apply, constant_apply, Ideal.ofBits_zero_f32,
    mean128_apply]
  show max ((((x (ix2 p q) - Spec.rMean (Spec.mat x) q) * Ideal.rsqrt (addf (F := Ideal) (var128 x)
      (broadcastInDim S128 ![] bcast_S_S128 (constant (F := Ideal) S_ .f32 0x3727C5AC#32)) (ix1 q))) * g (ix1 q)) + b (ix1 q)) 0 = _
  rw [addf_apply, var128_apply, broadcastInDim_scalar_apply, constant_apply]
  rfl

/-! ## The matrix products and the pre-activation -/

/-- The second product, entry by entry. -/
theorem dot3_mat (y : FVec Ideal S400000x256 .f32) (w : FVec Ideal S256x128 .f32) :
    Spec.mat (dot3 y w) = Spec.mm (Spec.mat y) (Spec.mat w) := by
  funext p q
  exact Cert.Rank2.dotGeneral_plain_apply dot_S400000x256_S256x128_S400000x128_1_0_0_1_n_n_wf none y w p q

/-- [P | P + Q] at an entry. -/
theorem hcat_apply (P Q : FVec Ideal S400000x256 .f32) (p : Fin 400000) (k : Fin 512) :
    concatenate S400000x512 1 [⟨S400000x256, P⟩, ⟨S400000x256, addf (F := Ideal) P Q⟩]
      concatenates_S400000x256_S400000x256_S400000x512_d1 (ix2 p k) = Spec.hCat (Spec.mat P) (Spec.mat Q) p k := by
  unfold Spec.hCat
  by_cases hk : k.val < 256
  · rw [dif_pos hk]
    exact Cert.Rank2.concat_cols_left P (addf (F := Ideal) P Q) concatenates_S400000x256_S400000x256_S400000x512_d1 p k ⟨k.val, hk⟩ rfl
  · rw [dif_neg hk]
    have hlt : k.val - 256 < 256 := by have := k.isLt; omega
    exact Cert.Rank2.concat_cols_right P (addf (F := Ideal) P Q) concatenates_S400000x256_S400000x256_S400000x512_d1 p k
      ⟨k.val - 256, hlt⟩ (by show k.val - 256 + 256 = k.val; omega)

/-- The pre-activation, entry by entry. -/
theorem zOf_mat (P Q : FVec Ideal S400000x256 .f32) (a0 : FVec Ideal S400000x128 .f32) (a2 : FVec Ideal S512x128 .f32)
    (a3 : FVec Ideal S128 .f32) (a4 : FVec Ideal S_ .f32) :
    Spec.mat (zOf P Q a0 a2 a3 a4) = Spec.zRef (Spec.mat P) (Spec.mat Q) (Spec.mat a0) (Spec.mat a2) (Spec.vec a3) (Spec.scal a4) := by
  funext p q
  show zOf P Q a0 a2 a3 a4 (ix2 p q) = _
  unfold zOf
  rw [addf_apply, addf_apply, mulf_apply, Cert.Rank2.rowBias_apply, broadcastInDim_scalar_apply, addf_apply, constant_apply]
  refine congrArg (fun s => (s + a3 (ix1 q)) + (Ideal.ofBits .f32 0x3F800000#32 + a4 ix0) * a0 (ix2 p q)) ?_
  refine (Cert.Rank2.dotGeneral_plain_apply dot_S400000x512_S512x128_S400000x128_1_0_0_1_n_n_wf none _ a2 p q).trans ?_
  exact Finset.sum_congr rfl fun k _ => congrArg (· * a2 (ix2 k q)) (hcat_apply P Q p k)

/-- The first product, entry by entry. -/
theorem stage39_mat (P Q : FVec Ideal S400000x256 .f32) (a0 : FVec Ideal S400000x128 .f32) (a2 : FVec Ideal S512x128 .f32)
    (a3 : FVec Ideal S128 .f32) (a4 : FVec Ideal S_ .f32) (a5 : FVec Ideal S128x256 .f32) :
    Spec.mat (stage39 P Q a0 a2 a3 a4 a5)
      = Spec.mm (Spec.zRef (Spec.mat P) (Spec.mat Q) (Spec.mat a0) (Spec.mat a2) (Spec.vec a3) (Spec.scal a4)) (Spec.mat a5) := by
  rw [← zOf_mat]
  funext p q
  exact Cert.Rank2.dotGeneral_plain_apply dot_S400000x128_S128x256_S400000x256_1_0_0_1_n_n_wf none (zOf P Q a0 a2 a3 a4) a5 p q

/-! ## The result -/

/-- The result buffer, entry by entry, is the reference formula of P, Q and the arguments. -/
theorem result_apply (a0 : FVec Ideal S400000x128 .f32) (a1 : IVec S200000x2 32) (a2 : FVec Ideal S512x128 .f32)
    (a3 : FVec Ideal S128 .f32) (a4 : FVec Ideal S_ .f32) (a5 : FVec Ideal S128x256 .f32) (a6 a7 : FVec Ideal S256 .f32)
    (a8 : FVec Ideal S256x128 .f32) (a9 a10 : FVec Ideal S128 .f32) (p : Fin 400000) (q : Fin 128) :
    resultOf a0 a1 a2 a3 a4 a5 a6 a7 a8 a9 a10 (ix2 p q)
      = Spec.refOut (Spec.mat (chainP a0 a1)) (Spec.mat (chainQ a0 a1)) (Spec.mat a0) (Spec.mat a2) (Spec.vec a3) (Spec.scal a4)
          (Spec.mat a5) (Spec.vec a6) (Spec.vec a7) (Spec.mat a8) (Spec.vec a9) (Spec.vec a10) p q := by
  show Spec.mat (resultOf a0 a1 a2 a3 a4 a5 a6 a7 a8 a9 a10) p q = _
  unfold resultOf Spec.refOut
  rw [bn128_mat, dot3_mat, bn256_mat, stage39_mat]

end Cert.ReferenceIdeal.RefRun

end
-- ==== Proof.LibRealValued.lean ====
/-
  Extended reals that are real numbers.

  The arithmetic of the extended reals is the arithmetic of the reals away from the infinities: sums, products and
  maxima of real values are real values, and so is a finite sum of them.  One law of subtraction that fails at the
  infinities holds as soon as the MIDDLE term is real: `a - (b + c) = (a - b) - c`.  It is the law that turns a
  log-softmax written `x - (m + log s)` into the one written `(x - m) - log s`.
-/
import Idealize.ShloMosaic.PureOps.Ideal

open scoped BigOperators

namespace Cert.RealValued

/-- An extended real that is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split
  · exact hx
  · exact hy

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The maximum of real values over a nonempty finite family, folded from the bottom element, is a real value. -/
theorem IsReal.fold_max {ι : Type*} (s : Finset ι) (f : ι → EReal) (hs : s.Nonempty) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    induction t using Finset.induction_on with
    | empty => intro _; exact Or.inl ⟨rfl, Finset.fold_empty⟩
    | insert a t ha ih =>
      intro ht
      rw [Finset.fold_insert ha]
      rcases ih (fun i hi => ht i (Finset.mem_insert_of_mem hi)) with ⟨_, e⟩ | hr
      · rw [e, max_bot_right]; exact Or.inr (ht a (Finset.mem_insert_self a t))
      · exact Or.inr ((ht a (Finset.mem_insert_self a t)).max hr)
  rcases key s h with ⟨e, _⟩ | hr
  · exact absurd e hs.ne_empty
  · exact hr

/-- Subtracting a sum whose first term is real: the subtraction distributes. -/
theorem sub_add_eq_sub_sub_of_isReal (a c : EReal) {b : EReal} (hb : IsReal b) : a - (b + c) = a - b - c := by
  rw [sub_eq_add_neg, sub_eq_add_neg, sub_eq_add_neg, EReal.neg_add (Or.inl hb.ne_bot) (Or.inl hb.ne_top), sub_eq_add_neg,
    add_assoc]

end Cert.RealValued
-- ==== Proof.SpecReal.lean ====
/-
  The two formulas of Spec.lean agree on real data.

  Everything here is about matrices whose entries are real numbers (written as coercions of real matrices), because the
  laws that join the two sides need finiteness:
  * P (Wtop + Wbot) + Q Wbot = [P | P + Q] W uses distributivity, which fails at the infinities;
  * the kernel's per-block column sums, each written on 8 rows, add up to 8 times the column sum, and (8 S) / 8 = S;
  * E[a^2] - E[a]^2 = E[(a - E a)^2], so the two variances are one real number, nonnegative, and with the positive
    epsilon added its inverse square root is a real number rho; then a (g rho) + (b - mu (g rho)) = (a - mu) rho g + b.
-/
import proofs.«168283_j50869592655480_2_alg».proof.Proof.Spec
import proofs.«168283_j50869592655480_2_alg».proof.Proof.LibRealValued
import Mathlib.Tactic.Ring
import Mathlib.Tactic.NormNum
import Mathlib.Tactic.Positivity
import Mathlib.Tactic.Linarith
import Mathlib.Algebra.BigOperators.Fin
import Mathlib.Algebra.BigOperators.Ring.Finset

noncomputable section

namespace Cert.Spec

open Idealize.ShloMosaic Cert.RealValued
open scoped BigOperators

/-! ## The constants -/

theorem c8_eq : c8 = ((8 : ℝ) : EReal) := by
  unfold c8; simp [Ideal.ofBits, Ideal.ieee, -EReal.coe_mul]; norm_num
theorem cN_eq : cN = ((400000 : ℝ) : EReal) := by
  unfold cN; simp [Ideal.ofBits, Ideal.ieee, -EReal.coe_mul]; norm_num
theorem c1_eq : c1 = ((1 : ℝ) : EReal) := by
  unfold c1; simp [Ideal.ofBits, Ideal.ieee, -EReal.coe_mul]; norm_num

/-- The batch-norm epsilon is a positive real number. -/
theorem cEps_pos : ∃ e : ℝ, 0 < e ∧ cEps = (e : EReal) := by
  refine ⟨((2 ^ 23 + 0x27C5AC : ℕ) : ℝ) * (2 : ℝ) ^ ((110 : ℤ) - 127 - 23), by positivity, ?_⟩
  unfold cEps; simp [Ideal.ofBits, Ideal.ieee, -EReal.coe_mul]

/-- Its value. -/
def epsR : ℝ := Classical.choose cEps_pos
theorem epsR_pos : 0 < epsR := (Classical.choose_spec cEps_pos).1
theorem cEps_eq : cEps = (epsR : EReal) := (Classical.choose_spec cEps_pos).2

/-! ## Coercions -/

/-- A real matrix as a matrix of extended reals. -/
def co {a b : ℕ} (X : Fin a → Fin b → ℝ) : Mat a b := fun r c => (X r c : EReal)
/-- A real vector as a vector of extended reals. -/
def cov {n : ℕ} (v : Fin n → ℝ) : RowV n := fun c => (v c : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe_coe (a : ℝ) {y : ℝ} (hy : y ≠ 0) : Ideal.div (a : EReal) (y : EReal) = ((a / y : ℝ) : EReal) := by
  rw [Ideal.div_coe hy, ← EReal.coe_mul]; congr 1; ring

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- A matrix with real entries is the coercion of a real matrix. -/
theorem exists_co {a b : ℕ} (x : Mat a b) (h : ∀ r c, IsReal (x r c)) : ∃ X : Fin a → Fin b → ℝ, x = co X := by
  choose X hX using h
  exact ⟨X, funext fun r => funext fun c => hX r c⟩
theorem exists_cov {n : ℕ} (v : RowV n) (h : ∀ c, IsReal (v c)) : ∃ V : Fin n → ℝ, v = cov V := by
  choose V hV using h
  exact ⟨V, funext fun c => hV c⟩

/-! ## Blocks -/

/-- Rows are 125 blocks of 3200. -/
def rowEquiv : Fin 125 × Fin 3200 ≃ Fin 400000 where
  toFun tr := blockRow tr.1 tr.2
  invFun p := (⟨p.val / 3200, by have := p.isLt; omega⟩, ⟨p.val % 3200, by omega⟩)
  left_inv tr := by
    obtain ⟨t, r⟩ := tr
    have ht := t.isLt; have hr := r.isLt
    refine Prod.ext (Fin.ext ?_) (Fin.ext ?_)
    · show (3200 * t.val + r.val) / 3200 = t.val; omega
    · show (3200 * t.val + r.val) % 3200 = r.val; omega
  right_inv p := by
    refine Fin.ext ?_
    show 3200 * (p.val / 3200) + p.val % 3200 = p.val; omega

/-- The 1000 partial-sum rows are 125 blocks of 8. -/
def partEquiv : Fin 125 × Fin 8 ≃ Fin 1000 where
  toFun tu := ⟨8 * tu.1.val + tu.2.val, by have := tu.1.isLt; have := tu.2.isLt; omega⟩
  invFun R := (blockOf R, ⟨R.val % 8, by omega⟩)
  left_inv tu := by
    obtain ⟨t, u⟩ := tu
    have ht := t.isLt; have hu := u.isLt
    refine Prod.ext (Fin.ext ?_) (Fin.ext ?_)
    · show (8 * t.val + u.val) / 8 = t.val; omega
    · show (8 * t.val + u.val) % 8 = u.val; omega
  right_inv R := by
    refine Fin.ext ?_
    show 8 * (R.val / 8) + R.val % 8 = R.val; omega

theorem blockOf_partEquiv (t : Fin 125) (u : Fin 8) : blockOf (partEquiv (t, u)) = t := by
  have ht := t.isLt; have hu := u.isLt
  refine Fin.ext ?_
  show (8 * t.val + u.val) / 8 = t.val; omega

/-- The per-block sums, each on 8 rows, add up to 8 times the whole sum. -/
theorem sum_blocks (F : Fin 400000 → ℝ) :
    ∑ R : Fin 1000, ∑ r : Fin 3200, F (blockRow (blockOf R) r) = 8 * ∑ p : Fin 400000, F p := by
  rw [← Equiv.sum_comp partEquiv (fun R => ∑ r : Fin 3200, F (blockRow (blockOf R) r)), Fintype.sum_prod_type]
  simp only [blockOf_partEquiv, Finset.sum_const, Finset.card_univ, Fintype.card_fin, nsmul_eq_mul]
  rw [← Finset.mul_sum, ← Equiv.sum_comp rowEquiv F, Fintype.sum_prod_type]
  norm_num [rowEquiv]

end Cert.Spec

end
-- ==== Proof.BridgeBN.lean ====
/-
  The kernel's batch-norm (through per-block sums, E[a^2] - E[a]^2, one scale and one shift per column) and the
  reference's (centred, divide, scale, shift) are one real function of a real matrix: both are, at row r and column c,
      max ((a r c - mu c) * (sqrt (var c + eps))^(-1) * g c + b c) 0
  with mu the column mean and var the column's population variance.
-/
import proofs.«168283_j50869592655480_2_alg».proof.Proof.SpecReal

noncomputable section

namespace Cert.Spec

open Idealize.ShloMosaic Cert.RealValued
open scoped BigOperators

variable {N : ℕ}

/-- Column mean, population variance, and the normalised, scaled, shifted, clamped matrix, over the reals. -/
def muR (X : Fin 400000 → Fin N → ℝ) (c : Fin N) : ℝ := (∑ r : Fin 400000, X r c) / 400000
def varR (X : Fin 400000 → Fin N → ℝ) (c : Fin N) : ℝ :=
  (∑ r : Fin 400000, (X r c - muR X c) * (X r c - muR X c)) / 400000
def bnR (X : Fin 400000 → Fin N → ℝ) (G B : Fin N → ℝ) : Fin 400000 → Fin N → ℝ :=
  fun r c => max ((X r c - muR X c) * (Real.sqrt (varR X c + epsR))⁻¹ * G c + B c) 0

theorem coe_max' (x y : ℝ) : ((max x y : ℝ) : EReal) = max (x : EReal) (y : EReal) :=
  EReal.coe_strictMono.monotone.map_max

theorem varR_nonneg (X : Fin 400000 → Fin N → ℝ) (c : Fin N) : 0 ≤ varR X c :=
  div_nonneg (Finset.sum_nonneg fun _ _ => mul_self_nonneg _) (by norm_num)

theorem varR_eps_pos (X : Fin 400000 → Fin N → ℝ) (c : Fin N) : 0 < varR X c + epsR := by
  have := varR_nonneg X c; have := epsR_pos; linarith

/-- E[a^2] - E[a]^2 is the population variance. -/
theorem var_identity (X : Fin 400000 → Fin N → ℝ) (c : Fin N) :
    muR (fun r c => X r c * X r c) c - muR X c * muR X c = varR X c := by
  unfold varR
  have h : ∑ r : Fin 400000, (X r c - muR X c) * (X r c - muR X c)
      = (∑ r : Fin 400000, X r c * X r c) - 2 * muR X c * (∑ r : Fin 400000, X r c) + 400000 * (muR X c * muR X c) := by
    have e : ∀ r : Fin 400000, (X r c - muR X c) * (X r c - muR X c)
        = X r c * X r c - 2 * muR X c * X r c + muR X c * muR X c := fun r => by ring
    simp only [e, Finset.sum_add_distrib, Finset.sum_sub_distrib, ← Finset.mul_sum, Finset.sum_const, Finset.card_univ,
      Fintype.card_fin, nsmul_eq_mul]
    norm_num
    ring
  rw [h]; unfold muR; ring

/-! ## The kernel's side -/

theorem blockColSum_co (X : Fin 400000 → Fin N → ℝ) :
    blockColSum (co X) = co (fun R c => ∑ r : Fin 3200, X (blockRow (blockOf R) r) c) := by
  funext R c
  simp only [blockColSum, co]
  exact (coe_sum _ _).symm

theorem sqr_co {M : ℕ} (X : Fin M → Fin N → ℝ) : sqr (co X) = co (fun r c => X r c * X r c) := by
  funext r c; simp only [sqr, co, EReal.coe_mul]

theorem kMean_blocks (X : Fin 400000 → Fin N → ℝ) (c : Fin N) :
    kMean (blockColSum (co X)) c = ((muR X c : ℝ) : EReal) := by
  rw [blockColSum_co]
  simp only [kMean, co]
  rw [← coe_sum, show (∑ R : Fin 1000, ∑ r : Fin 3200, X (blockRow (blockOf R) r) c) = 8 * ∑ p : Fin 400000, X p c
    from sum_blocks (fun p => X p c), c8_eq, cN_eq, div_coe_coe _ (by norm_num), div_coe_coe _ (by norm_num)]
  refine congrArg (fun t : ℝ => (t : EReal)) ?_
  unfold muR; ring

theorem kVar_blocks (X : Fin 400000 → Fin N → ℝ) (c : Fin N) :
    kVar (blockColSum (co X)) (blockColSum (sqr (co X))) c = ((varR X c : ℝ) : EReal) := by
  show kMean (blockColSum (sqr (co X))) c - kMean (blockColSum (co X)) c * kMean (blockColSum (co X)) c = _
  rw [sqr_co, kMean_blocks, kMean_blocks, ← EReal.coe_mul, ← EReal.coe_sub, var_identity]

theorem kScale_blocks (X : Fin 400000 → Fin N → ℝ) (G : Fin N → ℝ) (c : Fin N) :
    kScale (blockColSum (co X)) (blockColSum (sqr (co X))) (cov G) c
      = ((G c * (Real.sqrt (varR X c + epsR))⁻¹ : ℝ) : EReal) := by
  unfold kScale
  rw [kVar_blocks, cEps_eq, ← EReal.coe_add, rsqrt_coe_pos (varR_eps_pos X c)]
  simp only [cov, EReal.coe_mul]

theorem kShift_blocks (X : Fin 400000 → Fin N → ℝ) (G B : Fin N → ℝ) (c : Fin N) :
    kShift (blockColSum (co X)) (blockColSum (sqr (co X))) (cov G) (cov B) c
      = ((B c - muR X c * (G c * (Real.sqrt (varR X c + epsR))⁻¹) : ℝ) : EReal) := by
  unfold kShift
  rw [kScale_blocks, kMean_blocks]
  simp only [cov, EReal.coe_mul, EReal.coe_sub]

theorem kBN_co (X : Fin 400000 → Fin N → ℝ) (G B : Fin N → ℝ) : kBN (co X) (cov G) (cov B) = co (bnR X G B) := by
  funext r c
  simp only [kBN, affRelu]
  rw [kScale_blocks, kShift_blocks]
  simp only [co]
  rw [← EReal.coe_mul, ← EReal.coe_add, ← EReal.coe_zero, ← coe_max']
  refine congrArg (fun t : ℝ => (t : EReal)) ?_
  unfold bnR
  refine congrArg (fun t : ℝ => max t 0) ?_
  ring

/-! ## The reference's side -/

theorem rMean_co (X : Fin 400000 → Fin N → ℝ) (c : Fin N) : rMean (co X) c = ((muR X c : ℝ) : EReal) := by
  simp only [rMean, co]
  rw [← coe_sum, cN_eq, div_coe_coe _ (by norm_num)]
  rfl

theorem rVar_co (X : Fin 400000 → Fin N → ℝ) (c : Fin N) : rVar (co X) c = ((varR X c : ℝ) : EReal) := by
  unfold rVar
  rw [rMean_co]
  simp only [co, ← EReal.coe_sub, ← EReal.coe_mul]
  rw [← coe_sum, cN_eq, div_coe_coe _ (by norm_num)]
  rfl

theorem rBN_co (X : Fin 400000 → Fin N → ℝ) (G B : Fin N → ℝ) : rBN (co X) (cov G) (cov B) = co (bnR X G B) := by
  funext r c
  unfold rBN
  rw [rMean_co, rVar_co, cEps_eq, ← EReal.coe_add, rsqrt_coe_pos (varR_eps_pos X c)]
  simp only [co, cov, ← EReal.coe_sub, ← EReal.coe_mul, ← EReal.coe_add]
  rw [← EReal.coe_zero, ← coe_max']
  rfl

/-- The two batch-norms agree on real data. -/
theorem kBN_eq_rBN (X : Fin 400000 → Fin N → ℝ) (G B : Fin N → ℝ) :
    kBN (co X) (cov G) (cov B) = rBN (co X) (cov G) (cov B) := (kBN_co X G B).trans (rBN_co X G B).symm

end Cert.Spec

end
-- ==== Proof.BridgeLin.lean ====
/-
  The linear part on real data.  A matrix product of real matrices is the real product; the reference's
  pre-activation [P | P + Q] W + b + (1 + eps) x and the kernel's P (Wtop + Wbot) + Q Wbot + b + (1 + eps) x are one real
  matrix: split the sum over the 512 rows of W into its two halves of 256 and distribute.
-/
import proofs.«168283_j50869592655480_2_alg».proof.Proof.SpecReal

noncomputable section

namespace Cert.Spec

open Idealize.ShloMosaic Cert.RealValued
open scoped BigOperators

/-- The real matrix product. -/
def mmR {M K N : ℕ} (X : Fin M → Fin K → ℝ) (W : Fin K → Fin N → ℝ) : Fin M → Fin N → ℝ :=
  fun r c => ∑ k : Fin K, X r k * W k c

theorem mm_co {M K N : ℕ} (X : Fin M → Fin K → ℝ) (W : Fin K → Fin N → ℝ) : mm (co X) (co W) = co (mmR X W) := by
  funext r c
  simp only [mm, co, mmR]
  rw [coe_sum]
  simp only [EReal.coe_mul]

/-- The real pre-activation, in the kernel's arrangement. -/
def zR (P Q : Fin 400000 → Fin 256 → ℝ) (X : Fin 400000 → Fin 128 → ℝ) (W : Fin 512 → Fin 128 → ℝ) (b : Fin 128 → ℝ)
    (eps : ℝ) : Fin 400000 → Fin 128 → ℝ :=
  fun r k => (((∑ q : Fin 256, P r q * (W ⟨q.val, by have := q.isLt; omega⟩ k + W ⟨q.val + 256, by have := q.isLt; omega⟩ k))
    + (∑ q : Fin 256, Q r q * W ⟨q.val + 256, by have := q.isLt; omega⟩ k)) + b k) + (1 + eps) * X r k

theorem zWin_co (P Q : Fin 400000 → Fin 256 → ℝ) (X : Fin 400000 → Fin 128 → ℝ) (W : Fin 512 → Fin 128 → ℝ)
    (b : Fin 128 → ℝ) (eps : ℝ) :
    zWin (co P) (co Q) (co X) (wSum (co W)) (wBot (co W)) (cov b) (fun _ => c1 + (eps : EReal)) = co (zR P Q X W b eps) := by
  funext r k
  simp only [zWin, wSum, wTop, wBot, co, cov, zR, c1_eq]
  simp only [← EReal.coe_add, ← EReal.coe_mul, ← coe_sum]

/-- A sum over 512 indices as its two halves. -/
theorem sum_512 (f : Fin 512 → ℝ) :
    ∑ q : Fin 512, f q = (∑ q : Fin 256, f ⟨q.val, by have := q.isLt; omega⟩)
      + ∑ q : Fin 256, f ⟨q.val + 256, by have := q.isLt; omega⟩ := by
  refine (Fin.sum_univ_add (show Fin (256 + 256) → ℝ from f)).trans ?_
  congr 1

theorem zRef_co (P Q : Fin 400000 → Fin 256 → ℝ) (X : Fin 400000 → Fin 128 → ℝ) (W : Fin 512 → Fin 128 → ℝ)
    (b : Fin 128 → ℝ) (eps : ℝ) :
    zRef (co P) (co Q) (co X) (co W) (cov b) (eps : EReal) = co (zR P Q X W b eps) := by
  funext r k
  have hs : (∑ q : Fin 512, hCat (co P) (co Q) r q * co W q k)
      = (((∑ q : Fin 256, P r q * (W ⟨q.val, by have := q.isLt; omega⟩ k + W ⟨q.val + 256, by have := q.isLt; omega⟩ k))
        + (∑ q : Fin 256, Q r q * W ⟨q.val + 256, by have := q.isLt; omega⟩ k) : ℝ) : EReal) := by
    have hq : ∀ q : Fin 512, hCat (co P) (co Q) r q * co W q k
        = (((if h : q.val < 256 then P r ⟨q.val, h⟩
            else P r ⟨q.val - 256, by have := q.isLt; omega⟩ + Q r ⟨q.val - 256, by have := q.isLt; omega⟩) * W q k : ℝ) : EReal) := by
      intro q
      unfold hCat co
      split_ifs <;> simp only [EReal.coe_mul, EReal.coe_add]
    rw [Finset.sum_congr rfl fun q _ => hq q, ← coe_sum, sum_512]
    congr 1
    have h1 : ∀ q : Fin 256, (if h : (⟨q.val, by have := q.isLt; omega⟩ : Fin 512).val < 256 then P r ⟨(⟨q.val, by have := q.isLt; omega⟩ : Fin 512).val, h⟩
        else P r ⟨(⟨q.val, by have := q.isLt; omega⟩ : Fin 512).val - 256, by have := q.isLt; omega⟩
          + Q r ⟨(⟨q.val, by have := q.isLt; omega⟩ : Fin 512).val - 256, by have := q.isLt; omega⟩) = P r q := by
      intro q
      rw [dif_pos (show (⟨q.val, by have := q.isLt; omega⟩ : Fin 512).val < 256 from q.isLt)]
    have h2 : ∀ q : Fin 256, (if h : (⟨q.val + 256, by have := q.isLt; omega⟩ : Fin 512).val < 256 then P r ⟨(⟨q.val + 256, by have := q.isLt; omega⟩ : Fin 512).val, h⟩
        else P r ⟨(⟨q.val + 256, by have := q.isLt; omega⟩ : Fin 512).val - 256, by have := q.isLt; omega⟩
          + Q r ⟨(⟨q.val + 256, by have := q.isLt; omega⟩ : Fin 512).val - 256, by have := q.isLt; omega⟩) = P r q + Q r q := by
      intro q
      rw [dif_neg (show ¬ (⟨q.val + 256, by have := q.isLt; omega⟩ : Fin 512).val < 256 from by show ¬ q.val + 256 < 256; omega)]
      have e : (⟨(⟨q.val + 256, by have := q.isLt; omega⟩ : Fin 512).val - 256, by have := q.isLt; show q.val + 256 - 256 < 256; omega⟩ : Fin 256) = q :=
        Fin.ext (by show q.val + 256 - 256 = q.val; omega)
      rw [e]
    simp only [h1, h2]
    simp only [mul_add, add_mul, Finset.sum_add_distrib]
    ring
  simp only [zRef]
  rw [hs]
  simp only [co, cov, zR, c1_eq]
  simp only [← EReal.coe_add, ← EReal.coe_mul]

end Cert.Spec

end
-- ==== Proof.Bridge.lean ====
/-
  On real data the kernel's formula and the reference's formula are one matrix: the pre-activations agree (BridgeLin),
  matrix products of real matrices are real, and the two batch-norms agree on a real matrix and give a real matrix
  (BridgeBN); so the two results agree stage by stage.
-/
import proofs.«168283_j50869592655480_2_alg».proof.Proof.BridgeBN
import proofs.«168283_j50869592655480_2_alg».proof.Proof.BridgeLin

noncomputable section

namespace Cert.Spec

open Idealize.ShloMosaic Cert.RealValued
open scoped BigOperators

/-- With P, Q and every argument real, the kernel's result is the reference's. -/
theorem kerOut_eq_refOut (P Q : Mat 400000 256) (x : Mat 400000 128) (W : Mat 512 128) (b : RowV 128) (eps : EReal)
    (W1 : Mat 128 256) (g1 be1 : RowV 256) (W2 : Mat 256 128) (g2 be2 : RowV 128)
    (hP : ∀ r c, IsReal (P r c)) (hQ : ∀ r c, IsReal (Q r c)) (hx : ∀ r c, IsReal (x r c)) (hW : ∀ r c, IsReal (W r c))
    (hb : ∀ c, IsReal (b c)) (heps : IsReal eps) (hW1 : ∀ r c, IsReal (W1 r c)) (hg1 : ∀ c, IsReal (g1 c))
    (hbe1 : ∀ c, IsReal (be1 c)) (hW2 : ∀ r c, IsReal (W2 r c)) (hg2 : ∀ c, IsReal (g2 c)) (hbe2 : ∀ c, IsReal (be2 c)) :
    kerOut P Q x W b eps W1 g1 be1 W2 g2 be2 = refOut P Q x W b eps W1 g1 be1 W2 g2 be2 := by
  obtain ⟨P', rfl⟩ := exists_co P hP
  obtain ⟨Q', rfl⟩ := exists_co Q hQ
  obtain ⟨x', rfl⟩ := exists_co x hx
  obtain ⟨W', rfl⟩ := exists_co W hW
  obtain ⟨b', rfl⟩ := exists_cov b hb
  obtain ⟨eps', rfl⟩ := heps
  obtain ⟨W1', rfl⟩ := exists_co W1 hW1
  obtain ⟨g1', rfl⟩ := exists_cov g1 hg1
  obtain ⟨be1', rfl⟩ := exists_cov be1 hbe1
  obtain ⟨W2', rfl⟩ := exists_co W2 hW2
  obtain ⟨g2', rfl⟩ := exists_cov g2 hg2
  obtain ⟨be2', rfl⟩ := exists_cov be2 hbe2
  unfold kerOut refOut
  rw [zWin_co, zRef_co, mm_co, kBN_co, rBN_co, mm_co, kBN_co, rBN_co]

end Cert.Spec

end
-- ==== Proof.LibRealArrays.lean ====
/-
  Arrays all of whose entries are real numbers, and the operations that keep them so.

  A gather and a broadcast only move entries; a scatter-add adds, to each entry, a finite sum of update entries; a
  matrix product is a finite sum of products; the pointwise sum, product and maximum of real entries are real.  None of
  this looks at WHERE an index list points: it holds for every index list.  One pointwise case uses the values: the
  inverse square root is taken only where its argument is positive, and there it is a real number.
-/
import proofs.«168283_j50869592655480_2_alg».proof.Proof.LibRealValued
import Idealize.ShloMosaic.PureOps.Ideal.Laws

noncomputable section

namespace Cert.RealArrays

open Idealize.ShloMosaic Cert.RealValued
open scoped BigOperators

/-- Every entry is a real number. -/
def AllReal {S : Shape} (v : S.Idx → EReal) : Prop := ∀ i, IsReal (v i)

theorem allReal_broadcastInDim {s t : Shape} (dims : Fin s.rank → Fin t.rank) (h : s.BroadcastsInDim t dims)
    (x : s.Idx → EReal) (hx : AllReal x) : AllReal (broadcastInDim t dims h x) := fun _ => hx _

theorem allReal_gather {s si t : Shape} {w : Nat} (d : GatherDims s si t) (x : s.Idx → EReal) (idx : IVec si w)
    (hx : AllReal x) : AllReal (Host.gather d x idx) := fun _ => hx _

theorem allReal_scatterAdd {s si su : Shape} {w : Nat} (d : ScatterDims s si su) (x : s.Idx → EReal) (idx : IVec si w)
    (u : su.Idx → EReal) (hx : AllReal x) (hu : AllReal u) :
    AllReal (Host.scatterAdd (F := Ideal) (φ := .f32) d x idx u) := fun i => by
  show IsReal (x i + ∑ j ∈ Finset.univ.filter (fun j => d.resultIdx? j idx = some i), u j)
  exact (hx i).add (IsReal.sum _ _ fun j _ => hu j)

theorem allReal_dotGeneral {sl sr so : Shape} (d : DotDims sl sr so) (prec : Option ContractPrecision)
    (x : sl.Idx → EReal) (y : sr.Idx → EReal) (hx : AllReal x) (hy : AllReal y) :
    AllReal (Host.dotGeneral (F := Ideal) (φ₁ := .f32) (φ₂ := .f32) d prec x y) := fun j => by
  simp only [Host.dotGeneral]
  rw [Ideal.dotGeneral_apply]
  exact IsReal.sum _ _ fun k _ => (hx _).mul (hy _)

theorem allReal_mulf {s : Shape} (x y : s.Idx → EReal) (hx : AllReal x) (hy : AllReal y) :
    AllReal (mulf (F := Ideal) (φ := .f32) x y) := fun i => (hx i).mul (hy i)

theorem allReal_addf {s : Shape} (x y : s.Idx → EReal) (hx : AllReal x) (hy : AllReal y) :
    AllReal (addf (F := Ideal) (φ := .f32) x y) := fun i => (hx i).add (hy i)

theorem allReal_maximumf {s : Shape} (x y : s.Idx → EReal) (hx : AllReal x) (hy : AllReal y) :
    AllReal (maximumf (F := Ideal) (φ := .f32) x y) := fun i => (hx i).max (hy i)

/-- A bit pattern whose exponent field is not all ones denotes a real number. -/
theorem isReal_ieee (e mant : Nat) {w : Nat} (b : BitVec w) (h : (b.extractLsb' mant e).toNat ≠ 2 ^ e - 1) :
    IsReal (Ideal.ieee e mant b) := by
  unfold Ideal.ieee
  simp only [if_neg h]
  split
  · exact ⟨_, rfl⟩
  · exact ⟨_, rfl⟩

/-- The patterns of zero and of one denote real numbers. -/
theorem isReal_zeroPattern : IsReal (Ideal.ofBits .f32 0x00000000#32) := by
  show IsReal (Ideal.ieee 8 23 (0x00000000#32 : BitVec 32))
  exact isReal_ieee 8 23 _ (by decide)
theorem isReal_onePattern : IsReal (Ideal.ofBits .f32 0x3F800000#32) := by
  show IsReal (Ideal.ieee 8 23 (0x3F800000#32 : BitVec 32))
  exact isReal_ieee 8 23 _ (by decide)

theorem allReal_constant {s : Shape} (b : BitVec 32) (hb : IsReal (Ideal.ofBits .f32 b)) :
    AllReal (constant (F := Ideal) s .f32 b) := fun _ => hb

/-- Where the argument is positive take its inverse square root, elsewhere the other value: a real number when the
    argument and the other value are. -/
theorem isReal_select_rsqrt (d z : EReal) (hd : IsReal d) (hz : IsReal z) :
    IsReal (Scalar.select (Ideal.cmp .ogt d (Ideal.ofBits .f32 0x00000000#32)) (Ideal.rsqrt d) z) := by
  obtain ⟨r, rfl⟩ := hd
  rw [Ideal.ofBits_zero_f32]
  unfold Scalar.select Ideal.cmp
  by_cases hr : (0 : EReal) < (r : EReal)
  · have hr' : 0 < r := EReal.coe_pos.mp hr
    simp only [hr, decide_true, BitVec.ofBool_true, if_true]
    rw [Ideal.rsqrt_coe, if_neg (not_lt.mpr hr'.le), if_neg hr'.ne']
    exact ⟨_, rfl⟩
  · simp only [hr, decide_false, BitVec.ofBool_false]
    rw [if_neg (by decide)]
    exact hz

end Cert.RealArrays

end
-- ==== Proof.Finite.lean ====
/-
  The precondition, read back: every float input is a finite number.  The printed predicate is a conjunction, one
  conjunct per float argument, of "all entries satisfy |x| < +infinity"; an extended real whose absolute value is
  below +infinity is neither infinity, so it is a real number.
-/
import proofs.«168283_j50869592655480_2_alg».proof.Pre_finite_inputs
import proofs.«168283_j50869592655480_2_alg».proof.Proof.LibRealArrays
import Idealize.ShloMosaic.Lib.ReduceAll
import Idealize.ShloMosaic.Lib.ValueIdx

noncomputable section

namespace Cert.PreReal

open Idealize.ShloMosaic Cert.RealValued Cert.RealArrays Cert.Pre_finite_inputs

instance : Subsingleton S_.Idx := ⟨fun a b => funext fun d => d.elim0⟩

/-- The pattern of +infinity. -/
theorem top_pattern : Ideal.ofBits .f32 0x7F800000#32 = ⊤ := by simp [Ideal.ofBits, Ideal.ieee]

/-- |x| < +infinity makes x a real number. -/
theorem isReal_of_abs_lt_top (x : EReal) (h : Ideal.cmp .olt (max x (-x)) (Ideal.ofBits .f32 0x7F800000#32) = 1#1) :
    IsReal x := by
  rw [top_pattern] at h
  unfold Ideal.cmp at h
  have h' : max x (-x) < ⊤ := by
    by_contra hc
    simp [hc] at h
  refine isReal_of_ne ?_ ?_
  · rintro rfl; simp at h'
  · rintro rfl; simp at h'

variable [Facts]

/-- Under the precondition every float argument has only real entries. -/
theorem reals_of_pre (a0 : FVec Ideal S400000x128 .f32) (a1 : IVec S200000x2 32) (a2 : FVec Ideal S512x128 .f32)
    (a3 : FVec Ideal S128 .f32) (a4 : FVec Ideal S_ .f32) (a5 : FVec Ideal S128x256 .f32) (a6 : FVec Ideal S256 .f32)
    (a7 : FVec Ideal S256 .f32) (a8 : FVec Ideal S256x128 .f32) (a9 : FVec Ideal S128 .f32) (a10 : FVec Ideal S128 .f32)
    (h : fn (F := Ideal) a0 a1 a2 a3 a4 a5 a6 a7 a8 a9 a10 = fun _ => 1#1) :
    AllReal a0 ∧ AllReal a2 ∧ AllReal a3 ∧ AllReal a4 ∧ AllReal a5 ∧ AllReal a6 ∧ AllReal a7 ∧ AllReal a8 ∧ AllReal a9
      ∧ AllReal a10 := by
  have h0 := congrFun h ValueIdx.ix0
  dsimp only [fn, fn_part1, fn_part2] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun i => isReal_of_abs_lt_top _ (Host.reduce_andi_all _ _ _ _ _ e0 i),
    fun i => isReal_of_abs_lt_top _ (Host.reduce_andi_all _ _ _ _ _ e2 i),
    fun i => isReal_of_abs_lt_top _ (Host.reduce_andi_all _ _ _ _ _ e3 i),
    fun i => isReal_of_abs_lt_top _ (Host.reduce_andi_all _ _ _ _ _ e4 i),
    fun i => isReal_of_abs_lt_top _ (Host.reduce_andi_all _ _ _ _ _ e5 i),
    fun i => isReal_of_abs_lt_top _ (Host.reduce_andi_all _ _ _ _ _ e6 i),
    fun i => isReal_of_abs_lt_top _ (Host.reduce_andi_all _ _ _ _ _ e7 i),
    fun i => isReal_of_abs_lt_top _ (Host.reduce_andi_all _ _ _ _ _ e8 i),
    fun i => isReal_of_abs_lt_top _ (Host.reduce_andi_all _ _ _ _ _ e9 i),
    fun i => isReal_of_abs_lt_top _ (Host.reduce_andi_all _ _ _ _ _ e10 i)⟩

end Cert.PreReal

end
-- ==== Proof.RealLayout.lean ====
/-
  Arrays with only real entries stay so under operations that only move entries around: a cast to another shape,
  a reversal along axes, and two matrices set side by side.
-/
import proofs.«168283_j50869592655480_2_alg».proof.Proof.LibRealArrays
import proofs.«168283_j50869592655480_2_alg».proof.Proof.LibRank2

noncomputable section

namespace Cert.RealLayout

open Idealize.ShloMosaic Idealize.ShloMosaic.ValueIdx Cert.RealValued Cert.RealArrays

theorem allReal_shapeCast {s t : Shape} (x : s.Idx → EReal) (h : s.ShapeCasts t) (hx : AllReal x) :
    AllReal (shapeCast t x h) := fun _ => hx _

theorem allReal_reverse {s : Shape} (axes : List (Fin s.rank)) (x : s.Idx → EReal) (hx : AllReal x) :
    AllReal (Host.reverse axes x) := fun _ => hx _

theorem allReal_slice {s t : Shape} (off : Fin s.rank → Nat) (x : s.Idx → EReal) (h : s.Slices off t) (hx : AllReal x) :
    AllReal (extractStridedSlice t off x h) := fun _ => hx _

/-- Two matrices side by side. -/
theorem allReal_concat_cols {M N₁ N₂ N : ℕ} (x₁ : (⟨2, ![M, N₁]⟩ : Shape).Idx → EReal) (x₂ : (⟨2, ![M, N₂]⟩ : Shape).Idx → EReal)
    (h : Shape.Concatenates [(⟨2, ![M, N₁]⟩ : Shape), ⟨2, ![M, N₂]⟩] ⟨2, ![M, N]⟩ 1) (hN : N = N₁ + N₂)
    (h₁ : AllReal x₁) (h₂ : AllReal x₂) :
    AllReal (concatenate ⟨2, ![M, N]⟩ 1 [⟨⟨2, ![M, N₁]⟩, x₁⟩, ⟨⟨2, ![M, N₂]⟩, x₂⟩] h) := by
  intro j
  obtain ⟨p, q, rfl⟩ : ∃ (p : Fin M) (q : Fin N), j = ix2 p q := ⟨j 0, j 1, eq_ix2 j⟩
  by_cases hq : q.val < N₁
  · rw [Cert.Rank2.concat_cols_left x₁ x₂ h p q ⟨q.val, hq⟩ rfl]
    exact h₁ _
  · have hlt : q.val < N := q.isLt
    rw [Cert.Rank2.concat_cols_right x₁ x₂ h p q ⟨q.val - N₁, by omega⟩ (by show q.val - N₁ + N₁ = q.val; omega)]
    exact h₂ _

end Cert.RealLayout

end
-- ==== Proof.ChainReal.lean ====
/-
  The two arrays both programs build first have only real entries when the edge features do: a scatter-add from zeros
  sums entries of its updates, a gather picks entries, and the casts, the reversal and the concatenation only move
  entries around.
-/
import proofs.«168283_j50869592655480_2_alg».proof.Proof.RefRunTerms
import proofs.«168283_j50869592655480_2_alg».proof.Proof.RealLayout

noncomputable section

namespace Cert.ReferenceIdeal.RefRun

open Cert.ReferenceIdeal Idealize.ShloMosaic Cert.RealValued Cert.RealArrays Cert.RealLayout

variable [Cert.ReferenceIdeal.Facts]

/-- Segment sums from zeros, gathered back: real when the summed array is. -/
theorem allReal_segGather {s si su t : Shape} {w : Nat} (sd : ScatterDims s si su) (gd : GatherDims s si t)
    (hz : S_.BroadcastsInDim s (![] : Fin 0 → Fin s.rank)) (i₁ i₂ : IVec si w) (u : su.Idx → EReal) (hu : AllReal u) :
    AllReal (Host.gather gd (Host.scatterAdd (F := Ideal) (φ := .f32) sd
      (broadcastInDim s ![] hz (constant (F := Ideal) S_ .f32 0x00000000#32)) i₁ u) i₂) :=
  allReal_gather _ _ _ (allReal_scatterAdd _ _ _ _
    (allReal_broadcastInDim _ _ _ (allReal_constant _ isReal_zeroPattern)) hu)

/-- The width-256 array [g | g + swap x] both chains start from. -/
theorem allReal_chainQ (a0 : FVec Ideal S400000x128 .f32) (a1 : IVec S200000x2 32) (h0 : AllReal a0) :
    AllReal (chainQ a0 a1) := by
  unfold chainQ
  refine allReal_shapeCast _ _ (allReal_reverse _ _ (allReal_shapeCast _ _ (allReal_concat_cols _ _ _ rfl ?_ ?_)))
  · exact allReal_segGather _ _ _ _ _ _ h0
  · exact allReal_addf _ _ (allReal_segGather _ _ _ _ _ _ h0)
      (allReal_shapeCast _ _ (allReal_reverse _ _ (allReal_shapeCast _ _ h0)))

theorem allReal_chainP (a0 : FVec Ideal S400000x128 .f32) (a1 : IVec S200000x2 32) (h0 : AllReal a0) :
    AllReal (chainP a0 a1) := by
  unfold chainP
  refine allReal_segGather _ _ _ _ _ _ (allReal_concat_cols _ _ _ rfl ?_ ?_)
  · exact allReal_segGather _ _ _ _ _ _ h0
  · exact allReal_addf _ _ (allReal_segGather _ _ _ _ _ _ h0)
      (allReal_shapeCast _ _ (allReal_reverse _ _ (allReal_shapeCast _ _ h0)))

end Cert.ReferenceIdeal.RefRun

end
-- ==== Proof.lean ====
/-
  The certificate of the three-stage edge-to-edge layer: a program of three kernel launches (a fused
  linear + residual + matrix product with per-block column sums; a folded batch-norm + clamp + matrix product with
  per-block column sums; a folded batch-norm + clamp) against its plain reference.

  Frames.  The two kernel programs run, fault-free, and leave their arguments as they were: the generated frame
  certificates.  The reference is a host program: its run (Proof/RefRun) gives its frame.

  Equal results over the extended reals.  Both programs first apply the same host operations to the edge features and
  the edge list, giving two arrays P and Q.  From there the kernel's result is, entry by entry, Spec.kerOut of P, Q and
  the arguments (Proof/KernelValue, from the three regions' arrays and the host lines between them), and the reference's
  is Spec.refOut of the same (Proof/RefRunApply).  The two formulas differ by three laws — distributing P over the sum
  of the two halves of the weight matrix; (8 S) / 8 = S for the per-block sums written on 8 rows; E[a^2] - E[a]^2 for the
  variance, with the normalisation folded into one scale and one shift — and each of these needs its operands finite.
  The precondition says every float argument is finite (Proof/Finite); sums, products and gathers of finite numbers are
  finite (Proof/ChainReal); and on real data the two formulas are one matrix (Proof/Bridge).

  The idealisation rewrote nothing, so its conjunct is trivial.
-/
import proofs.«168283_j50869592655480_2_alg».proof.Defs
import proofs.«168283_j50869592655480_2_alg».proof.Proof.Gen.Kernel
import proofs.«168283_j50869592655480_2_alg».proof.Proof.Gen.Kernel.Skeleton
import proofs.«168283_j50869592655480_2_alg».proof.Proof.Gen.Kernel.Launch
import proofs.«168283_j50869592655480_2_alg».proof.Proof.Gen.Kernel.Points
import proofs.«168283_j50869592655480_2_alg».proof.Proof.Gen.Kernel.Frame
import proofs.«168283_j50869592655480_2_alg».proof.Proof.Gen.KernelIdeal
import proofs.«168283_j50869592655480_2_alg».proof.Proof.Gen.KernelIdeal.Skeleton
import proofs.«168283_j50869592655480_2_alg».proof.Proof.Gen.KernelIdeal.Launch
import proofs.«168283_j50869592655480_2_alg».proof.Proof.Gen.KernelIdeal.Points
import proofs.«168283_j50869592655480_2_alg».proof.Proof.Gen.KernelIdeal.Frame
import proofs.«168283_j50869592655480_2_alg».proof.Proof.Gen.ReferenceIdeal
import proofs.«168283_j50869592655480_2_alg».proof.Proof.Gen.Pre_finite_inputs
import proofs.«168283_j50869592655480_2_alg».proof.Proof.HostRun
import proofs.«168283_j50869592655480_2_alg».proof.Proof.KernelValue
import proofs.«168283_j50869592655480_2_alg».proof.Proof.RefRun
import proofs.«168283_j50869592655480_2_alg».proof.Proof.RefRunApply
import proofs.«168283_j50869592655480_2_alg».proof.Proof.Bridge
import proofs.«168283_j50869592655480_2_alg».proof.Proof.Finite
import proofs.«168283_j50869592655480_2_alg».proof.Proof.ChainReal
import Idealize.ShloMosaic.Adequacy
import Idealize.ShloMosaic.Init

noncomputable section

namespace Cert.Proof

open Idealize.ShloMosaic Idealize.ShloMosaic.ValueIdx Idealize.SL.Sem Cert.Spec Cert.RealValued Cert.RealArrays

/-- The kernel program's P and Q are the reference's: the same operations, in the same order. -/
theorem chainP_eq (a0 : FVec Ideal Cert.ReferenceIdeal.S400000x128 .f32) (a1 : IVec Cert.ReferenceIdeal.S200000x2 32) :
    Cert.KernelIdeal.HostValue.chainP a0 a1 = Cert.ReferenceIdeal.RefRun.chainP a0 a1 := rfl
theorem chainQ_eq (a0 : FVec Ideal Cert.ReferenceIdeal.S400000x128 .f32) (a1 : IVec Cert.ReferenceIdeal.S200000x2 32) :
    Cert.KernelIdeal.HostValue.chainQ a0 a1 = Cert.ReferenceIdeal.RefRun.chainQ a0 a1 := rfl

/-- Under the precondition the kernel program's result array is the reference's result term of the same arguments. -/
theorem kernel_is_reference
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) = fun _ => 1#1) :
    Cert.KernelIdeal.Gen.W6 m ρ c (Proc.devRef .tc Cert.KernelIdeal.main_v88)
      = Cert.ReferenceIdeal.RefRun.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) := by
  obtain ⟨h0, h2, h3, h4, h5, h6, h7, h8, h9, h10⟩ := Cert.PreReal.reals_of_pre _ _ _ _ _ _ _ _ _ _ _ hpre
  refine funext fun i => ?_
  obtain ⟨p, q, rfl⟩ : ∃ (p : Fin 400000) (q : Fin 128), i = ix2 p q := ⟨i 0, i 1, eq_ix2 i⟩
  rw [Cert.KernelIdeal.KernelValue.result_apply, Cert.ReferenceIdeal.RefRun.result_apply, chainP_eq, chainQ_eq]
  exact congrFun (congrFun (kerOut_eq_refOut _ _ _ _ _ _ _ _ _ _ _ _
    (fun r c => Cert.ReferenceIdeal.RefRun.allReal_chainP _ _ h0 _) (fun r c => Cert.ReferenceIdeal.RefRun.allReal_chainQ _ _ h0 _)
    (fun r c => h0 _) (fun r c => h2 _) (fun c => h3 _) (h4 _) (fun r c => h5 _) (fun c => h6 _) (fun c => h7 _)
    (fun r c => h8 _) (fun c => h9 _) (fun c => h10 _)) p) q

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- Both programs end with the reference's result term of the (agreeing) arguments. -/
theorem algebraic : Cert.algebraic_KernelIdeal_ReferenceIdeal := by
  intro m ρ m' ρ' hpre hagree
  refine ⟨fun c => Cert.ReferenceIdeal.RefRun.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (kernel_is_reference m ρ c (hpre c)), (h c).2⟩)
      (Cert.KernelIdeal.HostValue.run_out m ρ)
  · refine (θ_run Cert.ReferenceIdeal.defs _ _).mono (fun r h c => ⟨?_, (h c).2⟩)
      (Cert.ReferenceIdeal.RefRun.run m' ρ')
    obtain ⟨e0, e1, e2, e3, e4, e5, e6, e7, e8, e9, e10⟩ := hagree c
    rw [(h c).1, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
